-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S64 .f32) (main_arg9 : FVec F S64x40 .f32) (main_arg10 : FVec F S40 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x40 .f32 := Host.absf main_arg9
  let main_cst_14 : FVec F S_ .f32 := constant S_ .f32 0x7F800000#32
  let main_v40 : FVec F S64x40 .f32 := broadcastInDim S64x40 ![] bcast_S_S64x40 main_cst_14
  let main_v41 : IVec S64x40 1 := cmpf .olt main_v39 main_v40
  let main_c_15 : IVec S_ 1 := constantI S_ 1 1#1
  let main_v42 : IVec S_ 1 := (fun x v => Host.reduce IntOp.andi x v reducesTo_S64x40_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x64 .f32) (main_arg8 : FVec F S64 .f32) (main_arg9 : FVec F S64x40 .f32) (main_arg10 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x40 .f32) (main_arg10 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1600000 : Shape := ⟨2, ![1, 1600000]⟩
abbrev S100000x64 : Shape := ⟨2, ![100000, 64]⟩
abbrev S10000x128 : Shape := ⟨2, ![10000, 128]⟩
abbrev S10000x64 : Shape := ⟨2, ![10000, 64]⟩
abbrev S1x64 : Shape := ⟨2, ![1, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S100000x40 : Shape := ⟨2, ![100000, 40]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 143
  | .vmem => 32
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x40, .f32⟩
  | 10 => ⟨S40, .f32⟩
  | 11 => ⟨S1x1600000, .i32⟩
  | 12 => ⟨S1600000, .i32⟩
  | 13 => ⟨S1x1600000, .i32⟩
  | 14 => ⟨S1600000, .i32⟩
  | 15 => ⟨S100000x64, .f32⟩
  | 16 => ⟨S100000x64, .f32⟩
  | 17 => ⟨S100000, .i32⟩
  | 18 => ⟨S1700000, .i32⟩
  | 19 => ⟨S1700000, .i32⟩
  | 20 => ⟨S_, .f32⟩
  | 21 => ⟨S100000, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .i1⟩
  | 33 => ⟨S_, .f32⟩
  | 34 => ⟨S_, .f32⟩
  | 35 => ⟨S100000, .f32⟩
  | 36 => ⟨S100000, .f32⟩
  | 37 => ⟨S100000, .f32⟩
  | 38 => ⟨S_, .f32⟩
  | 39 => ⟨S_, .f32⟩
  | 40 => ⟨S100000, .f32⟩
  | 41 => ⟨S100000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000, .f32⟩
  | 61 => ⟨S1700000, .f32⟩
  | 62 => ⟨S1700000x1, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000x64, .f32⟩
  | 72 => ⟨S1700000x64, .f32⟩
  | 73 => ⟨S1700000x64, .f32⟩
  | 74 => ⟨S_, .f32⟩
  | 75 => ⟨S100000x64, .f32⟩
  | 76 => ⟨S1700000x1, .i32⟩
  | 77 => ⟨S100000x64, .f32⟩
  | 78 => ⟨S100000x64, .f32⟩
  | 79 => ⟨S100000x64, .f32⟩
  | 80 => ⟨S100000, .i32⟩
  | 81 => ⟨S1700000, .i32⟩
  | 82 => ⟨S1700000, .i32⟩
  | 83 => ⟨S_, .f32⟩
  | 84 => ⟨S100000, .f32⟩
  | 85 => ⟨S1700000, .f32⟩
  | 86 => ⟨S_, .f32⟩
  | 87 => ⟨S100000, .f32⟩
  | 88 => ⟨S1700000x1, .i32⟩
  | 89 => ⟨S100000, .f32⟩
  | 90 => ⟨S_, .f32⟩
  | 91 => ⟨S100000, .f32⟩
  | 92 => ⟨S100000, .i1⟩
  | 93 => ⟨S_, .f32⟩
  | 94 => ⟨S100000, .f32⟩
  | 95 => ⟨S100000, .i1⟩
  | 96 => ⟨S_, .f32⟩
  | 97 => ⟨S_, .f32⟩
  | 98 => ⟨S100000, .f32⟩
  | 99 => ⟨S100000, .f32⟩
  | 100 => ⟨S100000, .f32⟩
  | 101 => ⟨S_, .f32⟩
  | 102 => ⟨S_, .f32⟩
  | 103 => ⟨S100000, .f32⟩
  | 104 => ⟨S100000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S1700000, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000, .f32⟩
  | 124 => ⟨S1700000, .f32⟩
  | 125 => ⟨S1700000x1, .f32⟩
  | 126 => ⟨S_, .i32⟩
  | 127 => ⟨S1700000, .i32⟩
  | _ => ⟨S100000x128, .f32⟩

abbrev hbmTy0_1 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000x64, .f32⟩
  | 7 => ⟨S1700000x64, .f32⟩
  | 8 => ⟨S1700000x64, .f32⟩
  | 9 => ⟨S_, .f32⟩
  | 10 => ⟨S100000x64, .f32⟩
  | 11 => ⟨S1700000x1, .i32⟩
  | 12 => ⟨S100000x64, .f32⟩
  | 13 => ⟨S100000x64, .f32⟩
  | 14 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S64x40, .f32⟩
  | .local _ .vmem, ⟨29, _⟩ => ⟨S40, .f32⟩
  | .local _ .vmem, ⟨30, _⟩ => ⟨S10000x40, .f32⟩
  | .local _ .vmem, ⟨31, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v20 : Ref sig .tc := ⟨.hbm, 41, rfl⟩
abbrev main_c : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_c_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_c_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_cst_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_13 : Ref sig .tc := ⟨.hbm, 90, rfl⟩
abbrev main_v60 : Ref sig .tc := ⟨.hbm, 91, rfl⟩
abbrev main_v61 : Ref sig .tc := ⟨.hbm, 92, rfl⟩
abbrev main_cst_14 : Ref sig .tc := ⟨.hbm, 93, rfl⟩
abbrev main_v62 : Ref sig .tc := ⟨.hbm, 94, rfl⟩
abbrev main_v63 : Ref sig .tc := ⟨.hbm, 95, rfl⟩
abbrev main_cst_15 : Ref sig .tc := ⟨.hbm, 96, rfl⟩
abbrev main_call2_v0 : Ref sig .tc := ⟨.hbm, 97, rfl⟩
abbrev main_call2_v1 : Ref sig .tc := ⟨.hbm, 98, rfl⟩
abbrev main_v64 : Ref sig .tc := ⟨.hbm, 99, rfl⟩
abbrev main_v65 : Ref sig .tc := ⟨.hbm, 100, rfl⟩
abbrev main_cst_16 : Ref sig .tc := ⟨.hbm, 101, rfl⟩
abbrev main_call3_v0 : Ref sig .tc := ⟨.hbm, 102, rfl⟩
abbrev main_call3_v1 : Ref sig .tc := ⟨.hbm, 103, rfl⟩
abbrev main_v66 : Ref sig .tc := ⟨.hbm, 104, rfl⟩
abbrev main_c_17 : Ref sig .tc := ⟨.hbm, 105, rfl⟩
abbrev main_v67 : Ref sig .tc := ⟨.hbm, 106, rfl⟩
abbrev main_v68 : Ref sig .tc := ⟨.hbm, 107, rfl⟩
abbrev main_c_18 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_c_19 : Ref sig .tc := ⟨.hbm, 115, rfl⟩
abbrev main_v75 : Ref sig .tc := ⟨.hbm, 116, rfl⟩
abbrev main_v76 : Ref sig .tc := ⟨.hbm, 117, rfl⟩
abbrev main_c_20 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_c_21 : Ref sig .tc := ⟨.hbm, 126, rfl⟩
abbrev main_v84 : Ref sig .tc := ⟨.hbm, 127, rfl⟩
abbrev main_v85 : Ref sig .tc := ⟨.hbm, 128, rfl⟩
abbrev main_c_22 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_23 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem3_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  inb_S64x40_S64x40_0_0 : ∀ a, (![0, 0] : Fin 2 → Nat) a + S64x40.size a ≤ S64x40.size a
  h_S64x40 : 0 < S64x40.numel
  inb_S40_S40_0 : ∀ a, (![0] : Fin 1 → Nat) a + S40.size a ≤ S40.size a
  h_S40 : 0 < S40.numel
  shapeCasts_S40_S1x40 : S40.ShapeCasts S1x40
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x40_S10000x40_1_0_0_1_n_n_wf : DotDims.WF S10000x64 S64x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64.size a ≤ S64.size a
  hwx4_1 : ∀ i : grid4.Coords, EltTy.bits .f32 = 32 ∨ (Rect.block (s := S64) S64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x40.size a ≤ S64x40.size a
  hwx5_1 : ∀ i : grid5.Coords, EltTy.bits .f32 = 32 ∨ (Rect.block (s := S64x40) S64x40.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S40.size a ≤ S40.size a
  hwx5_2 : ∀ i : grid5.Coords, EltTy.bits .f32 = 32 ∨ (Rect.block (s := S40) S40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x40.size a ≤ S100000x40.size a
  hwx5_3 : ∀ i : grid5.Coords, EltTy.bits .f32 = 32 ∨ (Rect.block (s := S100000x40) S10000x40.size (cc5_transform_3 i) (hinb5_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v95) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v96) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v96) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S64x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg10) S40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v97) S10000x40.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1600000 : Shape := ⟨2, ![1, 1600000]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S1700000 : Shape := ⟨1, ![1700000]⟩
abbrev S1700000x1 : Shape := ⟨2, ![1700000, 1]⟩
abbrev S1700000x64 : Shape := ⟨2, ![1700000, 64]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 177
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x40, .f32⟩
  | 10 => ⟨S40, .f32⟩
  | 11 => ⟨S1x1600000, .i32⟩
  | 12 => ⟨S1600000, .i32⟩
  | 13 => ⟨S1x1600000, .i32⟩
  | 14 => ⟨S1600000, .i32⟩
  | 15 => ⟨S100000x64, .f32⟩
  | 16 => ⟨S1x64, .f32⟩
  | 17 => ⟨S100000x64, .f32⟩
  | 18 => ⟨S100000x64, .f32⟩
  | 19 => ⟨S_, .f32⟩
  | 20 => ⟨S100000x64, .f32⟩
  | 21 => ⟨S100000x64, .f32⟩
  | 22 => ⟨S100000x64, .f32⟩
  | 23 => ⟨S100000, .i32⟩
  | 24 => ⟨S1700000, .i32⟩
  | 25 => ⟨S1700000, .i32⟩
  | 26 => ⟨S_, .f32⟩
  | 27 => ⟨S100000, .f32⟩
  | 28 => ⟨S1700000, .f32⟩
  | 29 => ⟨S_, .f32⟩
  | 30 => ⟨S100000, .f32⟩
  | 31 => ⟨S1700000x1, .i32⟩
  | 32 => ⟨S100000, .f32⟩
  | 33 => ⟨S_, .f32⟩
  | 34 => ⟨S100000, .f32⟩
  | 35 => ⟨S100000, .i1⟩
  | 36 => ⟨S_, .f32⟩
  | 37 => ⟨S100000, .f32⟩
  | 38 => ⟨S100000, .i1⟩
  | 39 => ⟨S_, .f32⟩
  | 40 => ⟨S_, .f32⟩
  | 41 => ⟨S100000, .f32⟩
  | 42 => ⟨S100000, .f32⟩
  | 43 => ⟨S100000, .f32⟩
  | 44 => ⟨S_, .f32⟩
  | 45 => ⟨S_, .f32⟩
  | 46 => ⟨S100000, .f32⟩
  | 47 => ⟨S100000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000, .f32⟩
  | 67 => ⟨S1700000, .f32⟩
  | 68 => ⟨S1700000x1, .f32⟩
  | 69 => ⟨S_, .i32⟩
  | 70 => ⟨S1700000, .i32⟩
  | 71 => ⟨S1700000, .i1⟩
  | 72 => ⟨S_, .i32⟩
  | 73 => ⟨S1700000, .i32⟩
  | 74 => ⟨S1700000, .i32⟩
  | 75 => ⟨S1700000, .i32⟩
  | 76 => ⟨S1700000x1, .i32⟩
  | 77 => ⟨S1700000x64, .f32⟩
  | 78 => ⟨S1700000x64, .f32⟩
  | 79 => ⟨S1700000x64, .f32⟩
  | 80 => ⟨S_, .f32⟩
  | 81 => ⟨S100000x64, .f32⟩
  | 82 => ⟨S1700000x1, .i32⟩
  | 83 => ⟨S100000x64, .f32⟩
  | 84 => ⟨S1x64, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S100000x64, .f32⟩
  | 91 => ⟨S100000, .i32⟩
  | 92 => ⟨S1700000, .i32⟩
  | 93 => ⟨S1700000, .i32⟩
  | 94 => ⟨S_, .f32⟩
  | 95 => ⟨S100000, .f32⟩
  | 96 => ⟨S1700000, .f32⟩
  | 97 => ⟨S_, .f32⟩
  | 98 => ⟨S100000, .f32⟩
  | 99 => ⟨S1700000x1, .i32⟩
  | 100 => ⟨S100000, .f32⟩
  | 101 => ⟨S_, .f32⟩
  | 102 => ⟨S100000, .f32⟩
  | 103 => ⟨S100000, .i1⟩
  | 104 => ⟨S_, .f32⟩
  | 105 => ⟨S100000, .f32⟩
  | 106 => ⟨S100000, .i1⟩
  | 107 => ⟨S_, .f32⟩
  | 108 => ⟨S_, .f32⟩
  | 109 => ⟨S100000, .f32⟩
  | 110 => ⟨S100000, .f32⟩
  | 111 => ⟨S100000, .f32⟩
  | 112 => ⟨S_, .f32⟩
  | 113 => ⟨S_, .f32⟩
  | 114 => ⟨S100000, .f32⟩
  | 115 => ⟨S100000, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000, .f32⟩
  | 125 => ⟨S1700000, .f32⟩
  | 126 => ⟨S_, .i32⟩
  | 127 => ⟨S1700000, .i32⟩
  | _ => ⟨S100000x128, .f32⟩

abbrev hbmTy0_1 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000, .f32⟩
  | 7 => ⟨S1700000, .f32⟩
  | 8 => ⟨S1700000x1, .f32⟩
  | 9 => ⟨S_, .i32⟩
  | 10 => ⟨S1700000, .i32⟩
  | 11 => ⟨S1700000, .i1⟩
  | 12 => ⟨S_, .i32⟩
  | 13 => ⟨S1700000, .i32⟩
  | 14 => ⟨S1700000, .i32⟩
  | 15 => ⟨S1700000, .i32⟩
  | 16 => ⟨S1700000x1, .i32⟩
  | 17 => ⟨S1700000x64, .f32⟩
  | 18 => ⟨S1700000x64, .f32⟩
  | 19 => ⟨S1700000x64, .f32⟩
  | 20 => ⟨S_, .f32⟩
  | 21 => ⟨S100000x64, .f32⟩
  | 22 => ⟨S1700000x1, .i32⟩
  | 23 => ⟨S100000x64, .f32⟩
  | 24 => ⟨S1x64, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S100000x40, .f32⟩
  | 31 => ⟨S1x40, .f32⟩
  | 32 => ⟨S100000x40, .f32⟩
  | 33 => ⟨S100000x40, .f32⟩
  | 34 => ⟨S_, .f32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x40, .f32⟩
  | 41 => ⟨S100000x40, .f32⟩
  | 42 => ⟨S100000x40, .f32⟩
  | 43 => ⟨S_, .f32⟩
  | 44 => ⟨S100000, .f32⟩
  | 45 => ⟨S100000x1, .f32⟩
  | 46 => ⟨S100000x1, .f32⟩
  | 47 => ⟨S100000x40, .f32⟩
  | 48 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_cst : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_call1_v0 : Ref sig .tc := ⟨.hbm, 40, rfl⟩
abbrev main_call1_v1 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_call2_v0 : Ref sig .tc := ⟨.hbm, 45, rfl⟩
abbrev main_call2_v1 : Ref sig .tc := ⟨.hbm, 46, rfl⟩
abbrev main_v24 : Ref sig .tc := ⟨.hbm, 47, rfl⟩
abbrev main_c : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_8 : Ref sig .tc := ⟨.hbm, 69, rfl⟩
abbrev main_v42 : Ref sig .tc := ⟨.hbm, 70, rfl⟩
abbrev main_v43 : Ref sig .tc := ⟨.hbm, 71, rfl⟩
abbrev main_c_9 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call3_cst : Ref sig .tc := ⟨.hbm, 87, rfl⟩
abbrev main_call3_v0 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_11 : Ref sig .tc := ⟨.hbm, 94, rfl⟩
abbrev main_v62 : Ref sig .tc := ⟨.hbm, 95, rfl⟩
abbrev main_v63 : Ref sig .tc := ⟨.hbm, 96, rfl⟩
abbrev main_cst_12 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_13 : Ref sig .tc := ⟨.hbm, 101, rfl⟩
abbrev main_v67 : Ref sig .tc := ⟨.hbm, 102, rfl⟩
abbrev main_v68 : Ref sig .tc := ⟨.hbm, 103, rfl⟩
abbrev main_cst_14 : Ref sig .tc := ⟨.hbm, 104, rfl⟩
abbrev main_v69 : Ref sig .tc := ⟨.hbm, 105, rfl⟩
abbrev main_v70 : Ref sig .tc := ⟨.hbm, 106, rfl⟩
abbrev main_cst_15 : Ref sig .tc := ⟨.hbm, 107, rfl⟩
abbrev main_call4_v0 : Ref sig .tc := ⟨.hbm, 108, rfl⟩
abbrev main_call4_v1 : Ref sig .tc := ⟨.hbm, 109, rfl⟩
abbrev main_v71 : Ref sig .tc := ⟨.hbm, 110, rfl⟩
abbrev main_v72 : Ref sig .tc := ⟨.hbm, 111, rfl⟩
abbrev main_cst_16 : Ref sig .tc := ⟨.hbm, 112, rfl⟩
abbrev main_call5_v0 : Ref sig .tc := ⟨.hbm, 113, rfl⟩
abbrev main_call5_v1 : Ref sig .tc := ⟨.hbm, 114, rfl⟩
abbrev main_v73 : Ref sig .tc := ⟨.hbm, 115, rfl⟩
abbrev main_c_17 : Ref sig .tc := ⟨.hbm, 116, rfl⟩
abbrev main_v74 : Ref sig .tc := ⟨.hbm, 117, rfl⟩
abbrev main_v75 : Ref sig .tc := ⟨.hbm, 118, rfl⟩
abbrev main_c_18 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_c_19 : Ref sig .tc := ⟨.hbm, 126, rfl⟩
abbrev main_v82 : Ref sig .tc := ⟨.hbm, 127, rfl⟩
abbrev main_v83 : Ref sig .tc := ⟨.hbm, 128, rfl⟩
abbrev main_c_20 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_c_21 : Ref sig .tc := ⟨.hbm, 137, rfl⟩
abbrev main_v91 : Ref sig .tc := ⟨.hbm, 138, rfl⟩
abbrev main_v92 : Ref sig .tc := ⟨.hbm, 139, rfl⟩
abbrev main_c_22 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_cst_23 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_call6_cst : Ref sig .tc := ⟨.hbm, 155, rfl⟩
abbrev main_call6_v0 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_call7_cst : Ref sig .tc := ⟨.hbm, 162, rfl⟩
abbrev main_call7_v0 : Ref sig .tc := ⟨.hbm, 163, rfl⟩
abbrev main_call7_cst_0 : Ref sig .tc := ⟨.hbm, 164, rfl⟩
abbrev main_call7_v1 : Ref sig .tc := ⟨.hbm, 165, rfl⟩
abbrev main_call7_v2 : Ref sig .tc := ⟨.hbm, 166, rfl⟩
abbrev main_call7_v3 : Ref sig .tc := ⟨.hbm, 167, rfl⟩
abbrev main_call7_v4 : Ref sig .tc := ⟨.hbm, 168, rfl⟩
abbrev main_call7_v5 : Ref sig .tc := ⟨.hbm, 169, rfl⟩
abbrev main_call7_v6 : Ref sig .tc := ⟨.hbm, 170, rfl⟩
abbrev main_call7_cst_1 : Ref sig .tc := ⟨.hbm, 171, rfl⟩
abbrev main_call7_v7 : Ref sig .tc := ⟨.hbm, 172, rfl⟩
abbrev main_call7_v8 : Ref sig .tc := ⟨.hbm, 173, rfl⟩
abbrev main_call7_v9 : Ref sig .tc := ⟨.hbm, 174, rfl⟩
abbrev main_call7_v10 : Ref sig .tc := ⟨.hbm, 175, rfl⟩
abbrev main_v111 : Ref sig .tc := ⟨.hbm, 176, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KernelRun.lean ====
/-
  The idealized kernel's run with its result named.

  The program is six kernel regions among stretches of host operations. Its buffer contents at each boundary are a fold
  from the launch memory: a stretch applies its operations; a region leaves each of its arrays at what the pipeline's
  write-backs leave and every other buffer as it found it. Every weakly fair execution terminates with each unscoped
  buffer at the last stage of that fold; read at the result buffer this names the result array, and read at an argument
  it gives back the launch contents.
-/
import proofs.«173225_j30374008717350_1_alg».proof.Proof.Gen.KernelIdeal.Frame

set_option maxRecDepth 16384

noncomputable section

namespace Cert.GcnKernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    stage of the fold of boundary contents and every argument array as launched. -/
theorem run_named : θ_run defs (onTc (τ := τ) (main (F := F))) ⟨m, fun _ => 0, ρ⟩ (fun r => ∀ c : Dev nD,
      r.2.mem ((c.tc : Thread nD τ).loc main_v97) = W17 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v97 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c)⟩)

end Cert.GcnKernel

end
-- ==== Proof.Kept.lean ====
/-
  Buffers that nothing writes between two boundaries of the kernel program keep their contents.

  A region rewrites only its own output array and leaves every buffer that is not one of its arrays as it found it; a stretch of
  host operations rewrites only the buffers its operations write. Walking the fold of boundary contents back through these
  two facts, each weight, bias and edge array reaches the stage that reads it with its launch contents, and the two rows
  of the edge index reach both aggregations as the opening host operations left them.
-/
import proofs.«173225_j30374008717350_1_alg».proof.Proof.Gen.KernelIdeal.Frame
import Idealize.ShloMosaic.Lib.StableHlo.Run

set_option maxRecDepth 16384

noncomputable section

namespace Cert.GcnKernel.Kept

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A stretch of host operations leaves a buffer none of its operations writes: the operations' written buffers are listed
    and each is a different reference. -/
macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The node features reach the input layer as launched. -/
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_keeps hostOps0
    _ = m ((c : Thread nD τ).loc main_arg0) := rfl

/-- The input layer's weight reaches it as launched. -/
theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by host_keeps hostOps0
    _ = m ((c : Thread nD τ).loc main_arg3) := rfl

/-- The input layer's bias reaches it as launched. -/
theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := by host_keeps hostOps0
    _ = m ((c : Thread nD τ).loc main_arg4) := rfl

/-- The first hidden weight reaches its region as launched. -/
theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by host_keeps hostOps0
    _ = m ((c : Thread nD τ).loc main_arg5) := rfl

/-- The edge weights reach the first aggregation as launched. -/
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := by host_keeps hostOps0
    _ = m ((c : Thread nD τ).loc main_arg2) := rfl

/-- The sources reach the first aggregation as the opening host operations left them. -/
theorem W3_v1 (c : Dev nD) : W3 m ρ c (Proc.devRef .tc main_v1) = W1 m ρ c (Proc.devRef .tc main_v1) :=
  calc W3 m ρ c (Proc.devRef .tc main_v1)
    _ = W2 m ρ c (Proc.devRef .tc main_v1) := W3_of_ne m ρ c main_v1 (by decide)
    _ = W1 m ρ c (Proc.devRef .tc main_v1) := W2_of_ne m ρ c main_v1 (by decide)

/-- The targets reach the first aggregation as the opening host operations left them. -/
theorem W3_v3 (c : Dev nD) : W3 m ρ c (Proc.devRef .tc main_v3) = W1 m ρ c (Proc.devRef .tc main_v3) :=
  calc W3 m ρ c (Proc.devRef .tc main_v3)
    _ = W2 m ρ c (Proc.devRef .tc main_v3) := W3_of_ne m ρ c main_v3 (by decide)
    _ = W1 m ρ c (Proc.devRef .tc main_v3) := W2_of_ne m ρ c main_v3 (by decide)

/-- The first hidden bias reaches its region as launched. -/
theorem W8_arg6 (c : Dev nD) : W8 m ρ c (Proc.devRef .tc main_arg6) = m ((c : Thread nD τ).loc main_arg6) :=
  calc W8 m ρ c (Proc.devRef .tc main_arg6)
    _ = W7 m ρ c (Proc.devRef .tc main_arg6) := by host_keeps hostOps2_4
    _ = W6 m ρ c (Proc.devRef .tc main_arg6) := by host_keeps hostOps2_3
    _ = W5 m ρ c (Proc.devRef .tc main_arg6) := by host_keeps hostOps2_2
    _ = W4 m ρ c (Proc.devRef .tc main_arg6) := by host_keeps hostOps2_1
    _ = W3 m ρ c (Proc.devRef .tc main_arg6) := by host_keeps hostOps2
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := by host_keeps hostOps0
    _ = m ((c : Thread nD τ).loc main_arg6) := rfl

/-- The second hidden weight reaches its region as launched. -/
theorem W9_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := by host_keeps hostOps2_4
    _ = W6 m ρ c (Proc.devRef .tc main_arg7) := by host_keeps hostOps2_3
    _ = W5 m ρ c (Proc.devRef .tc main_arg7) := by host_keeps hostOps2_2
    _ = W4 m ρ c (Proc.devRef .tc main_arg7) := by host_keeps hostOps2_1
    _ = W3 m ρ c (Proc.devRef .tc main_arg7) := by host_keeps hostOps2
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := by host_keeps hostOps0
    _ = m ((c : Thread nD τ).loc main_arg7) := rfl

/-- The edge weights reach the second aggregation as launched. -/
theorem W10_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := W9_of_ne m ρ c main_arg2 (by decide)
    _ = W7 m ρ c (Proc.devRef .tc main_arg2) := by host_keeps hostOps2_4
    _ = W6 m ρ c (Proc.devRef .tc main_arg2) := by host_keeps hostOps2_3
    _ = W5 m ρ c (Proc.devRef .tc main_arg2) := by host_keeps hostOps2_2
    _ = W4 m ρ c (Proc.devRef .tc main_arg2) := by host_keeps hostOps2_1
    _ = W3 m ρ c (Proc.devRef .tc main_arg2) := by host_keeps hostOps2
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := by host_keeps hostOps0
    _ = m ((c : Thread nD τ).loc main_arg2) := rfl

/-- The sources reach the second aggregation as the opening host operations left them. -/
theorem W10_v1 (c : Dev nD) : W10 m ρ c (Proc.devRef .tc main_v1) = W1 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := W9_of_ne m ρ c main_v1 (by decide)
    _ = W7 m ρ c (Proc.devRef .tc main_v1) := by host_keeps hostOps2_4
    _ = W6 m ρ c (Proc.devRef .tc main_v1) := by host_keeps hostOps2_3
    _ = W5 m ρ c (Proc.devRef .tc main_v1) := by host_keeps hostOps2_2
    _ = W4 m ρ c (Proc.devRef .tc main_v1) := by host_keeps hostOps2_1
    _ = W3 m ρ c (Proc.devRef .tc main_v1) := by host_keeps hostOps2
    _ = W2 m ρ c (Proc.devRef .tc main_v1) := W3_of_ne m ρ c main_v1 (by decide)
    _ = W1 m ρ c (Proc.devRef .tc main_v1) := W2_of_ne m ρ c main_v1 (by decide)

/-- The targets reach the second aggregation as the opening host operations left them. -/
theorem W10_v3 (c : Dev nD) : W10 m ρ c (Proc.devRef .tc main_v3) = W1 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := by host_keeps hostOps2_4
    _ = W6 m ρ c (Proc.devRef .tc main_v3) := by host_keeps hostOps2_3
    _ = W5 m ρ c (Proc.devRef .tc main_v3) := by host_keeps hostOps2_2
    _ = W4 m ρ c (Proc.devRef .tc main_v3) := by host_keeps hostOps2_1
    _ = W3 m ρ c (Proc.devRef .tc main_v3) := by host_keeps hostOps2
    _ = W2 m ρ c (Proc.devRef .tc main_v3) := W3_of_ne m ρ c main_v3 (by decide)
    _ = W1 m ρ c (Proc.devRef .tc main_v3) := W2_of_ne m ρ c main_v3 (by decide)

/-- The second hidden bias reaches its region as launched. -/
theorem W15_arg8 (c : Dev nD) : W15 m ρ c (Proc.devRef .tc main_arg8) = m ((c : Thread nD τ).loc main_arg8) :=
  calc W15 m ρ c (Proc.devRef .tc main_arg8)
    _ = W14 m ρ c (Proc.devRef .tc main_arg8) := by host_keeps hostOps4_4
    _ = W13 m ρ c (Proc.devRef .tc main_arg8) := by host_keeps hostOps4_3
    _ = W12 m ρ c (Proc.devRef .tc main_arg8) := by host_keeps hostOps4_2
    _ = W11 m ρ c (Proc.devRef .tc main_arg8) := by host_keeps hostOps4_1
    _ = W10 m ρ c (Proc.devRef .tc main_arg8) := by host_keeps hostOps4
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := by host_keeps hostOps2_4
    _ = W6 m ρ c (Proc.devRef .tc main_arg8) := by host_keeps hostOps2_3
    _ = W5 m ρ c (Proc.devRef .tc main_arg8) := by host_keeps hostOps2_2
    _ = W4 m ρ c (Proc.devRef .tc main_arg8) := by host_keeps hostOps2_1
    _ = W3 m ρ c (Proc.devRef .tc main_arg8) := by host_keeps hostOps2
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := by host_keeps hostOps0
    _ = m ((c : Thread nD τ).loc main_arg8) := rfl

/-- The output weight reaches the last region as launched. -/
theorem W16_arg9 (c : Dev nD) : W16 m ρ c (Proc.devRef .tc main_arg9) = m ((c : Thread nD τ).loc main_arg9) :=
  calc W16 m ρ c (Proc.devRef .tc main_arg9)
    _ = W15 m ρ c (Proc.devRef .tc main_arg9) := W16_of_ne m ρ c main_arg9 (by decide)
    _ = W14 m ρ c (Proc.devRef .tc main_arg9) := by host_keeps hostOps4_4
    _ = W13 m ρ c (Proc.devRef .tc main_arg9) := by host_keeps hostOps4_3
    _ = W12 m ρ c (Proc.devRef .tc main_arg9) := by host_keeps hostOps4_2
    _ = W11 m ρ c (Proc.devRef .tc main_arg9) := by host_keeps hostOps4_1
    _ = W10 m ρ c (Proc.devRef .tc main_arg9) := by host_keeps hostOps4
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := by host_keeps hostOps2_4
    _ = W6 m ρ c (Proc.devRef .tc main_arg9) := by host_keeps hostOps2_3
    _ = W5 m ρ c (Proc.devRef .tc main_arg9) := by host_keeps hostOps2_2
    _ = W4 m ρ c (Proc.devRef .tc main_arg9) := by host_keeps hostOps2_1
    _ = W3 m ρ c (Proc.devRef .tc main_arg9) := by host_keeps hostOps2
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := by host_keeps hostOps0
    _ = m ((c : Thread nD τ).loc main_arg9) := rfl

/-- The output bias reaches the last region as launched. -/
theorem W16_arg10 (c : Dev nD) : W16 m ρ c (Proc.devRef .tc main_arg10) = m ((c : Thread nD τ).loc main_arg10) :=
  calc W16 m ρ c (Proc.devRef .tc main_arg10)
    _ = W15 m ρ c (Proc.devRef .tc main_arg10) := W16_of_ne m ρ c main_arg10 (by decide)
    _ = W14 m ρ c (Proc.devRef .tc main_arg10) := by host_keeps hostOps4_4
    _ = W13 m ρ c (Proc.devRef .tc main_arg10) := by host_keeps hostOps4_3
    _ = W12 m ρ c (Proc.devRef .tc main_arg10) := by host_keeps hostOps4_2
    _ = W11 m ρ c (Proc.devRef .tc main_arg10) := by host_keeps hostOps4_1
    _ = W10 m ρ c (Proc.devRef .tc main_arg10) := by host_keeps hostOps4
    _ = W9 m ρ c (Proc.devRef .tc main_arg10) := W10_of_ne m ρ c main_arg10 (by decide)
    _ = W8 m ρ c (Proc.devRef .tc main_arg10) := W9_of_ne m ρ c main_arg10 (by decide)
    _ = W7 m ρ c (Proc.devRef .tc main_arg10) := by host_keeps hostOps2_4
    _ = W6 m ρ c (Proc.devRef .tc main_arg10) := by host_keeps hostOps2_3
    _ = W5 m ρ c (Proc.devRef .tc main_arg10) := by host_keeps hostOps2_2
    _ = W4 m ρ c (Proc.devRef .tc main_arg10) := by host_keeps hostOps2_1
    _ = W3 m ρ c (Proc.devRef .tc main_arg10) := by host_keeps hostOps2
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := by host_keeps hostOps0
    _ = m ((c : Thread nD τ).loc main_arg10) := rfl

end Cert.GcnKernel.Kept

end
-- ==== Proof.Spec.lean ====
/-
  The function both programs compute, stage by stage, on arrays of any float values.

  A two-layer graph convolution network over N = 100000 nodes and E = 1600000 weighted edges:
    h₀ = relu (x · W_first + b_first)                       (N × 64)
    hₖ = relu (A (hₖ₋₁ · W_cₖ) + b_cₖ),  k = 1, 2            (N × 64)
    out = log_softmax (h₂ · W_out + b_out)  along each row  (N × 40)
  where A is the symmetrically normalized adjacency with self loops: with the edge list extended by one loop
  (i, i) of weight 1 per node, deg(j) = Σ_{e : col e = j} w_e, dinv = deg^(-1/2) where deg > 0 and 0 elsewhere, and
  (A y)(j, ·) = Σ_{e : col e = j} dinv(row e) · w_e · dinv(col e) · y(row e, ·).

  Each stage is spelt with the host operations of the reference program, one `have` per operation, so that the
  reference's result is this composition by unfolding, and the aggregation `agg`, which both programs compute by the
  same host operations in the same order, is never opened.
-/
import proofs.«173225_j30374008717350_1_alg».proof.ReferenceIdeal
import proofs.«173225_j30374008717350_1_alg».proof.Proof.Gen.ReferenceIdeal

noncomputable section

namespace Cert.GcnSpec

open Idealize.ShloMosaic Cert.ReferenceIdeal Cert.ReferenceIdeal.Gen

variable {F : FTy → Type} [FloatOps F]

/-- The source node of each edge: row 0 of the 2 × E edge index, as a vector of length E. -/
noncomputable def rowOf (main_arg1 : (⟨S2x1600000, .i32⟩ : BufTy).Contents (Elt F)) : (⟨S1600000, .i32⟩ : BufTy).Contents (Elt F) :=
  have main_v0 := ((extractStridedSlice S1x1600000 ![0, 0] · slices_S2x1600000_S1x1600000_0_0) : (⟨S2x1600000, .i32⟩ : BufTy).Contents (Elt F) → (⟨S1x1600000, .i32⟩ : BufTy).Contents (Elt F)) main_arg1
  have main_v1 := shapeCast _ main_v0 shapeCasts_S1x1600000_S1600000
  main_v1

/-- The target node of each edge: row 1 of the 2 × E edge index, as a vector of length E. -/
noncomputable def colOf (main_arg1 : (⟨S2x1600000, .i32⟩ : BufTy).Contents (Elt F)) : (⟨S1600000, .i32⟩ : BufTy).Contents (Elt F) :=
  have main_v2 := ((extractStridedSlice S1x1600000 ![1, 0] · slices_S2x1600000_S1x1600000_1_0) : (⟨S2x1600000, .i32⟩ : BufTy).Contents (Elt F) → (⟨S1x1600000, .i32⟩ : BufTy).Contents (Elt F)) main_arg1
  have main_v3 := shapeCast _ main_v2 shapeCasts_S1x1600000_S1600000
  main_v3

/-- The input layer: `relu (x · W + b)`, the bias repeated down the rows. -/
noncomputable def firstLayer (main_arg0 : (⟨S100000x128, .f32⟩ : BufTy).Contents (Elt F)) (main_arg3 : (⟨S128x64, .f32⟩ : BufTy).Contents (Elt F)) (main_arg4 : (⟨S64, .f32⟩ : BufTy).Contents (Elt F)) : (⟨S100000x64, .f32⟩ : BufTy).Contents (Elt F) :=
  have main_v4 := ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) main_arg0 main_arg3
  have main_v5 := (broadcastInDim S1x64 ![1] bcast_S64_S1x64_1 : (⟨S64, .f32⟩ : BufTy).Contents (Elt F) → (⟨S1x64, .f32⟩ : BufTy).Contents (Elt F)) main_arg4
  have main_v6 := (broadcastInDim S100000x64 ![0, 1] bcast_S1x64_S100000x64_0_1 : (⟨S1x64, .f32⟩ : BufTy).Contents (Elt F) → (⟨S100000x64, .f32⟩ : BufTy).Contents (Elt F)) main_v5
  have main_v7 := (addf : (⟨S100000x64, .f32⟩ : BufTy).Contents (Elt F) → (⟨S100000x64, .f32⟩ : BufTy).Contents (Elt F) → (⟨S100000x64, .f32⟩ : BufTy).Contents (Elt F)) main_v4 main_v6
  have main_call0_cst : (⟨S_, .f32⟩ : BufTy).Contents (Elt F) := (constant (F := F) S_ .f32 0x00000000#32)
  have main_call0_v0 : (⟨S100000x64, .f32⟩ : BufTy).Contents (Elt F) := (broadcastInDim S100000x64 ![] bcast_S_S100000x64) main_call0_cst
  have main_v8 : (⟨S100000x64, .f32⟩ : BufTy).Contents (Elt F) := maximumf main_v7 main_call0_v0
  main_v8

/-- A hidden layer's linear map `h · W`, before the aggregation over the edges. -/
noncomputable def project (main_v8 : (⟨S100000x64, .f32⟩ : BufTy).Contents (Elt F)) (main_arg5 : (⟨S64x64, .f32⟩ : BufTy).Contents (Elt F)) : (⟨S100000x64, .f32⟩ : BufTy).Contents (Elt F) :=
  have main_v9 := ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) main_v8 main_arg5
  main_v9

/-- The normalized aggregation `A y` over the edge list extended by the self loops: degrees by a scatter-add of the
    weights at the targets, `dinv`, the per-edge coefficient `dinv(row) · w · dinv(col)`, the rows of `y` gathered at the sources,
    scaled, and scatter-added at the targets. -/
noncomputable def agg (main_v9 : (⟨S100000x64, .f32⟩ : BufTy).Contents (Elt F)) (main_v1 : (⟨S1600000, .i32⟩ : BufTy).Contents (Elt F)) (main_v3 : (⟨S1600000, .i32⟩ : BufTy).Contents (Elt F)) (main_arg2 : (⟨S1600000, .f32⟩ : BufTy).Contents (Elt F)) : (⟨S100000x64, .f32⟩ : BufTy).Contents (Elt F) :=
  have main_v10 := (iotaInDim S100000 32 0)
  have main_v11 := ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) main_v1 main_v10
  have main_v12 := ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) main_v3 main_v10
  have main_cst := (constant (F := F) S_ .f32 0x3F800000#32)
  have main_v13 := (broadcastInDim S100000 ![] bcast_S_S100000 : (⟨S_, .f32⟩ : BufTy).Contents (Elt F) → (⟨S100000, .f32⟩ : BufTy).Contents (Elt F)) main_cst
  have main_v14 := ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)) main_arg2 main_v13
  have main_cst_0 := (constant (F := F) S_ .f32 0x00000000#32)
  have main_v15 := (broadcastInDim S100000 ![] bcast_S_S100000 : (⟨S_, .f32⟩ : BufTy).Contents (Elt F) → (⟨S100000, .f32⟩ : BufTy).Contents (Elt F)) main_cst_0
  have main_v16 := (broadcastInDim S1700000x1 ![0] bcast_S1700000_S1700000x1_0 : (⟨S1700000, .i32⟩ : BufTy).Contents (Elt F) → (⟨S1700000x1, .i32⟩ : BufTy).Contents (Elt F)) main_v12
  have main_v17 := ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) main_v15 main_v16 main_v14
  have main_cst_1 := (constant (F := F) S_ .f32 0x00000000#32)
  have main_v18 := (broadcastInDim S100000 ![] bcast_S_S100000 : (⟨S_, .f32⟩ : BufTy).Contents (Elt F) → (⟨S100000, .f32⟩ : BufTy).Contents (Elt F)) main_cst_1
  have main_v19 := (cmpf .ogt : (⟨S100000, .f32⟩ : BufTy).Contents (Elt F) → (⟨S100000, .f32⟩ : BufTy).Contents (Elt F) → (⟨S100000, .i1⟩ : BufTy).Contents (Elt F)) main_v17 main_v18
  have main_cst_2 := (constant (F := F) S_ .f32 0x00000000#32)
  have main_v20 := (broadcastInDim S100000 ![] bcast_S_S100000 : (⟨S_, .f32⟩ : BufTy).Contents (Elt F) → (⟨S100000, .f32⟩ : BufTy).Contents (Elt F)) main_cst_2
  have main_v21 := (cmpf .ogt : (⟨S100000, .f32⟩ : BufTy).Contents (Elt F) → (⟨S100000, .f32⟩ : BufTy).Contents (Elt F) → (⟨S100000, .i1⟩ : BufTy).Contents (Elt F)) main_v17 main_v20
  have main_cst_3 := (constant (F := F) S_ .f32 0x3F800000#32)
  have main_call1_v0 : (⟨S_, .f32⟩ : BufTy).Contents (Elt F) := id main_cst_3
  have main_call1_v1 : (⟨S100000, .f32⟩ : BufTy).Contents (Elt F) := (broadcastInDim S100000 ![] bcast_S_S100000) main_call1_v0
  have main_v22 : (⟨S100000, .f32⟩ : BufTy).Contents (Elt F) := select main_v21 main_v17 main_call1_v1
  have main_v23 := (Host.rsqrt : (⟨S100000, .f32⟩ : BufTy).Contents (Elt F) → (⟨S100000, .f32⟩ : BufTy).Contents (Elt F)) main_v22
  have main_cst_4 := (constant (F := F) S_ .f32 0x00000000#32)
  have main_call2_v0 : (⟨S_, .f32⟩ : BufTy).Contents (Elt F) := id main_cst_4
  have main_call2_v1 : (⟨S100000, .f32⟩ : BufTy).Contents (Elt F) := (broadcastInDim S100000 ![] bcast_S_S100000) main_call2_v0
  have main_v24 : (⟨S100000, .f32⟩ : BufTy).Contents (Elt F) := select main_v19 main_v23 main_call2_v1
  have main_c := (constantI S_ 32 0#32)
  have main_v25 := (broadcastInDim S1700000 ![] bcast_S_S1700000 : (⟨S_, .i32⟩ : BufTy).Contents (Elt F) → (⟨S1700000, .i32⟩ : BufTy).Contents (Elt F)) main_c
  have main_v26 := (cmpi .slt : (⟨S1700000, .i32⟩ : BufTy).Contents (Elt F) → (⟨S1700000, .i32⟩ : BufTy).Contents (Elt F) → (⟨S1700000, .i1⟩ : BufTy).Contents (Elt F)) main_v11 main_v25
  have main_c_5 := (constantI S_ 32 100000#32)
  have main_v27 := (broadcastInDim S1700000 ![] bcast_S_S1700000 : (⟨S_, .i32⟩ : BufTy).Contents (Elt F) → (⟨S1700000, .i32⟩ : BufTy).Contents (Elt F)) main_c_5
  have main_v28 := (addi : (⟨S1700000, .i32⟩ : BufTy).Contents (Elt F) → (⟨S1700000, .i32⟩ : BufTy).Contents (Elt F) → (⟨S1700000, .i32⟩ : BufTy).Contents (Elt F)) main_v11 main_v27
  have main_v29 := (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) main_v26 main_v28 main_v11
  have main_v30 := (broadcastInDim S1700000x1 ![0] bcast_S1700000_S1700000x1_0 : (⟨S1700000, .i32⟩ : BufTy).Contents (Elt F) → (⟨S1700000x1, .i32⟩ : BufTy).Contents (Elt F)) main_v29
  have main_v31 := ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) main_v24 main_v30
  have main_v32 := (mulf : (⟨S1700000, .f32⟩ : BufTy).Contents (Elt F) → (⟨S1700000, .f32⟩ : BufTy).Contents (Elt F) → (⟨S1700000, .f32⟩ : BufTy).Contents (Elt F)) main_v31 main_v14
  have main_c_6 := (constantI S_ 32 0#32)
  have main_v33 := (broadcastInDim S1700000 ![] bcast_S_S1700000 : (⟨S_, .i32⟩ : BufTy).Contents (Elt F) → (⟨S1700000, .i32⟩ : BufTy).Contents (Elt F)) main_c_6
  have main_v34 := (cmpi .slt : (⟨S1700000, .i32⟩ : BufTy).Contents (Elt F) → (⟨S1700000, .i32⟩ : BufTy).Contents (Elt F) → (⟨S1700000, .i1⟩ : BufTy).Contents (Elt F)) main_v12 main_v33
  have main_c_7 := (constantI S_ 32 100000#32)
  have main_v35 := (broadcastInDim S1700000 ![] bcast_S_S1700000 : (⟨S_, .i32⟩ : BufTy).Contents (Elt F) → (⟨S1700000, .i32⟩ : BufTy).Contents (Elt F)) main_c_7
  have main_v36 := (addi : (⟨S1700000, .i32⟩ : BufTy).Contents (Elt F) → (⟨S1700000, .i32⟩ : BufTy).Contents (Elt F) → (⟨S1700000, .i32⟩ : BufTy).Contents (Elt F)) main_v12 main_v35
  have main_v37 := (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) main_v34 main_v36 main_v12
  have main_v38 := (broadcastInDim S1700000x1 ![0] bcast_S1700000_S1700000x1_0 : (⟨S1700000, .i32⟩ : BufTy).Contents (Elt F) → (⟨S1700000x1, .i32⟩ : BufTy).Contents (Elt F)) main_v37
  have main_v39 := ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) main_v24 main_v38
  have main_v40 := (mulf : (⟨S1700000, .f32⟩ : BufTy).Contents (Elt F) → (⟨S1700000, .f32⟩ : BufTy).Contents (Elt F) → (⟨S1700000, .f32⟩ : BufTy).Contents (Elt F)) main_v32 main_v39
  have main_v41 := (broadcastInDim S1700000x1 ![0] bcast_S1700000_S1700000x1_0 : (⟨S1700000, .f32⟩ : BufTy).Contents (Elt F) → (⟨S1700000x1, .f32⟩ : BufTy).Contents (Elt F)) main_v40
  have main_c_8 := (constantI S_ 32 0#32)
  have main_v42 := (broadcastInDim S1700000 ![] bcast_S_S1700000 : (⟨S_, .i32⟩ : BufTy).Contents (Elt F) → (⟨S1700000, .i32⟩ : BufTy).Contents (Elt F)) main_c_8
  have main_v43 := (cmpi .slt : (⟨S1700000, .i32⟩ : BufTy).Contents (Elt F) → (⟨S1700000, .i32⟩ : BufTy).Contents (Elt F) → (⟨S1700000, .i1⟩ : BufTy).Contents (Elt F)) main_v11 main_v42
  have main_c_9 := (constantI S_ 32 100000#32)
  have main_v44 := (broadcastInDim S1700000 ![] bcast_S_S1700000 : (⟨S_, .i32⟩ : BufTy).Contents (Elt F) → (⟨S1700000, .i32⟩ : BufTy).Contents (Elt F)) main_c_9
  have main_v45 := (addi : (⟨S1700000, .i32⟩ : BufTy).Contents (Elt F) → (⟨S1700000, .i32⟩ : BufTy).Contents (Elt F) → (⟨S1700000, .i32⟩ : BufTy).Contents (Elt F)) main_v11 main_v44
  have main_v46 := (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) main_v43 main_v45 main_v11
  have main_v47 := (broadcastInDim S1700000x1 ![0] bcast_S1700000_S1700000x1_0 : (⟨S1700000, .i32⟩ : BufTy).Contents (Elt F) → (⟨S1700000x1, .i32⟩ : BufTy).Contents (Elt F)) main_v46
  have main_v48 := ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)) main_v9 main_v47
  have main_v49 := (broadcastInDim S1700000x64 ![0, 1] bcast_S1700000x1_S1700000x64_0_1 : (⟨S1700000x1, .f32⟩ : BufTy).Contents (Elt F) → (⟨S1700000x64, .f32⟩ : BufTy).Contents (Elt F)) main_v41
  have main_v50 := (mulf : (⟨S1700000x64, .f32⟩ : BufTy).Contents (Elt F) → (⟨S1700000x64, .f32⟩ : BufTy).Contents (Elt F) → (⟨S1700000x64, .f32⟩ : BufTy).Contents (Elt F)) main_v49 main_v48
  have main_cst_10 := (constant (F := F) S_ .f32 0x00000000#32)
  have main_v51 := (broadcastInDim S100000x64 ![] bcast_S_S100000x64 : (⟨S_, .f32⟩ : BufTy).Contents (Elt F) → (⟨S100000x64, .f32⟩ : BufTy).Contents (Elt F)) main_cst_10
  have main_v52 := (broadcastInDim S1700000x1 ![0] bcast_S1700000_S1700000x1_0 : (⟨S1700000, .i32⟩ : BufTy).Contents (Elt F) → (⟨S1700000x1, .i32⟩ : BufTy).Contents (Elt F)) main_v12
  have main_v53 := ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) main_v51 main_v52 main_v50
  main_v53

/-- A hidden layer's closing step: `relu (a + b)`, the bias repeated down the rows. -/
noncomputable def biasRelu (main_v53 : (⟨S100000x64, .f32⟩ : BufTy).Contents (Elt F)) (main_arg6 : (⟨S64, .f32⟩ : BufTy).Contents (Elt F)) : (⟨S100000x64, .f32⟩ : BufTy).Contents (Elt F) :=
  have main_v54 := (broadcastInDim S1x64 ![1] bcast_S64_S1x64_1 : (⟨S64, .f32⟩ : BufTy).Contents (Elt F) → (⟨S1x64, .f32⟩ : BufTy).Contents (Elt F)) main_arg6
  have main_v55 := (broadcastInDim S100000x64 ![0, 1] bcast_S1x64_S100000x64_0_1 : (⟨S1x64, .f32⟩ : BufTy).Contents (Elt F) → (⟨S100000x64, .f32⟩ : BufTy).Contents (Elt F)) main_v54
  have main_v56 := (addf : (⟨S100000x64, .f32⟩ : BufTy).Contents (Elt F) → (⟨S100000x64, .f32⟩ : BufTy).Contents (Elt F) → (⟨S100000x64, .f32⟩ : BufTy).Contents (Elt F)) main_v53 main_v55
  have main_call3_cst : (⟨S_, .f32⟩ : BufTy).Contents (Elt F) := (constant (F := F) S_ .f32 0x00000000#32)
  have main_call3_v0 : (⟨S100000x64, .f32⟩ : BufTy).Contents (Elt F) := (broadcastInDim S100000x64 ![] bcast_S_S100000x64) main_call3_cst
  have main_v57 : (⟨S100000x64, .f32⟩ : BufTy).Contents (Elt F) := maximumf main_v56 main_call3_v0
  main_v57

/-- The output layer's logits `h · W + b`, the bias repeated down the rows. -/
noncomputable def logitsOf (main_v106 : (⟨S100000x64, .f32⟩ : BufTy).Contents (Elt F)) (main_arg9 : (⟨S64x40, .f32⟩ : BufTy).Contents (Elt F)) (main_arg10 : (⟨S40, .f32⟩ : BufTy).Contents (Elt F)) : (⟨S100000x40, .f32⟩ : BufTy).Contents (Elt F) :=
  have main_v107 := ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)) main_v106 main_arg9
  have main_v108 := (broadcastInDim S1x40 ![1] bcast_S40_S1x40_1 : (⟨S40, .f32⟩ : BufTy).Contents (Elt F) → (⟨S1x40, .f32⟩ : BufTy).Contents (Elt F)) main_arg10
  have main_v109 := (broadcastInDim S100000x40 ![0, 1] bcast_S1x40_S100000x40_0_1 : (⟨S1x40, .f32⟩ : BufTy).Contents (Elt F) → (⟨S100000x40, .f32⟩ : BufTy).Contents (Elt F)) main_v108
  have main_v110 := (addf : (⟨S100000x40, .f32⟩ : BufTy).Contents (Elt F) → (⟨S100000x40, .f32⟩ : BufTy).Contents (Elt F) → (⟨S100000x40, .f32⟩ : BufTy).Contents (Elt F)) main_v107 main_v109
  main_v110

/-- Each row's maximum, folded from `−∞`, and once more the maximum with `−∞`. -/
noncomputable def rowMaxOf (main_v110 : (⟨S100000x40, .f32⟩ : BufTy).Contents (Elt F)) : (⟨S100000, .f32⟩ : BufTy).Contents (Elt F) :=
  have main_call7_cst : (⟨S_, .f32⟩ : BufTy).Contents (Elt F) := (constant (F := F) S_ .f32 0xFF800000#32)
  have main_call7_v0 : (⟨S100000, .f32⟩ : BufTy).Contents (Elt F) := (fun x v => Host.reduce FloatOps.maximumf x v reducesTo_S100000x40_S100000_d1 h_S_) main_v110 main_call7_cst
  have main_call7_cst_0 : (⟨S_, .f32⟩ : BufTy).Contents (Elt F) := (constant (F := F) S_ .f32 0xFF800000#32)
  have main_call7_v1 : (⟨S100000, .f32⟩ : BufTy).Contents (Elt F) := (broadcastInDim S100000 ![] bcast_S_S100000) main_call7_cst_0
  have main_call7_v2 : (⟨S100000, .f32⟩ : BufTy).Contents (Elt F) := maximumf main_call7_v1 main_call7_v0
  main_call7_v2

/-- Each row minus its maximum. -/
noncomputable def shiftOf (main_v110 : (⟨S100000x40, .f32⟩ : BufTy).Contents (Elt F)) (main_call7_v2 : (⟨S100000, .f32⟩ : BufTy).Contents (Elt F)) : (⟨S100000x40, .f32⟩ : BufTy).Contents (Elt F) :=
  have main_call7_v3 : (⟨S100000x1, .f32⟩ : BufTy).Contents (Elt F) := (broadcastInDim S100000x1 ![0] bcast_S100000_S100000x1_0) main_call7_v2
  have main_call7_v4 : (⟨S100000x40, .f32⟩ : BufTy).Contents (Elt F) := (broadcastInDim S100000x40 ![0, 1] bcast_S100000x1_S100000x40_0_1) main_call7_v3
  have main_call7_v5 : (⟨S100000x40, .f32⟩ : BufTy).Contents (Elt F) := subf main_v110 main_call7_v4
  main_call7_v5

/-- Each row's sum of exponentials, from the zero word. -/
noncomputable def sumExpOf (main_call7_v5 : (⟨S100000x40, .f32⟩ : BufTy).Contents (Elt F)) : (⟨S100000, .f32⟩ : BufTy).Contents (Elt F) :=
  have main_call7_v6 : (⟨S100000x40, .f32⟩ : BufTy).Contents (Elt F) := Host.exp main_call7_v5
  have main_call7_cst_1 : (⟨S_, .f32⟩ : BufTy).Contents (Elt F) := (constant (F := F) S_ .f32 0x00000000#32)
  have main_call7_v7 : (⟨S100000, .f32⟩ : BufTy).Contents (Elt F) := (fun x v => Host.reduceAdd x v reducesTo_S100000x40_S100000_d1 h_S_) main_call7_v6 main_call7_cst_1
  main_call7_v7

/-- Each row minus the logarithm of its sum of exponentials. -/
noncomputable def finishOf (main_call7_v5 : (⟨S100000x40, .f32⟩ : BufTy).Contents (Elt F)) (main_call7_v7 : (⟨S100000, .f32⟩ : BufTy).Contents (Elt F)) : (⟨S100000x40, .f32⟩ : BufTy).Contents (Elt F) :=
  have main_call7_v8 : (⟨S100000x1, .f32⟩ : BufTy).Contents (Elt F) := (broadcastInDim S100000x1 ![0] bcast_S100000_S100000x1_0) main_call7_v7
  have main_call7_v9 : (⟨S100000x1, .f32⟩ : BufTy).Contents (Elt F) := Host.log main_call7_v8
  have main_call7_v10 : (⟨S100000x40, .f32⟩ : BufTy).Contents (Elt F) := (broadcastInDim S100000x40 ![0, 1] bcast_S100000x1_S100000x40_0_1) main_call7_v9
  have main_v111 : (⟨S100000x40, .f32⟩ : BufTy).Contents (Elt F) := subf main_call7_v5 main_call7_v10
  main_v111

/-- The output layer: `log_softmax (h · W + b)` along each row — the logits minus their row maximum, minus the logarithm of
    the row sum of the exponentials of that difference. -/
noncomputable def head (h : (⟨S100000x64, .f32⟩ : BufTy).Contents (Elt F)) (w : (⟨S64x40, .f32⟩ : BufTy).Contents (Elt F)) (b : (⟨S40, .f32⟩ : BufTy).Contents (Elt F)) : (⟨S100000x40, .f32⟩ : BufTy).Contents (Elt F) :=
  finishOf (shiftOf (logitsOf h w b) (rowMaxOf (logitsOf h w b))) (sumExpOf (shiftOf (logitsOf h w b) (rowMaxOf (logitsOf h w b))))
/-- The whole network, as the composition of its stages. -/
noncomputable def total (x : (⟨S100000x128, .f32⟩ : BufTy).Contents (Elt F)) (ei : (⟨S2x1600000, .i32⟩ : BufTy).Contents (Elt F)) (ew : (⟨S1600000, .f32⟩ : BufTy).Contents (Elt F))
    (wf : (⟨S128x64, .f32⟩ : BufTy).Contents (Elt F)) (bf : (⟨S64, .f32⟩ : BufTy).Contents (Elt F)) (w1 : (⟨S64x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F)) (wo : (⟨S64x40, .f32⟩ : BufTy).Contents (Elt F)) (bo : (⟨S40, .f32⟩ : BufTy).Contents (Elt F)) : (⟨S100000x40, .f32⟩ : BufTy).Contents (Elt F) :=
  head (biasRelu (agg (project (biasRelu (agg (project (firstLayer x wf bf) w1) (rowOf ei) (colOf ei) ew) b1) w2) (rowOf ei) (colOf ei) ew) b2) wo bo

end Cert.GcnSpec

end
-- ==== Proof.Stretch.lean ====
/-
  The kernel's two stretches of host operations between its regions are the aggregation.

  Between the linear map of a hidden layer and its bias step the kernel program runs, on the host, the same operations in
  the same order as the reference does: the edge list extended by the self loops, the degrees, `dinv`, the per-edge
  coefficients, the gather of the projected rows, their scaling and the scatter-add at the targets. Read from the
  contents at the stretch's start, the buffer it leaves the aggregate in is `agg` of the projected features, the two
  rows of the edge index and the edge weights as found there.
-/
import proofs.«173225_j30374008717350_1_alg».proof.Proof.Gen.KernelIdeal.Frame
import proofs.«173225_j30374008717350_1_alg».proof.Proof.Spec
import Idealize.ShloMosaic.Lib.StableHlo.Run

set_option maxRecDepth 16384

noncomputable section

namespace Cert.GcnKernel.Stretch

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
/-- The first layer's aggregate, at the entry of the first bias step. -/
theorem first (c : Dev nD) :
    W8 m ρ c (Proc.devRef .tc main_v49)
      = Cert.GcnSpec.agg (F := F) (W3 m ρ c (Proc.devRef .tc main_v5)) (W3 m ρ c (Proc.devRef .tc main_v1))
          (W3 m ρ c (Proc.devRef .tc main_v3)) (W3 m ρ c (Proc.devRef .tc main_arg2)) := by
  show StableHlo.after hostOps2_4 (StableHlo.after hostOps2_3 (StableHlo.after hostOps2_2 (StableHlo.after hostOps2_1
    (StableHlo.after hostOps2 (W3 m ρ c))))) (Proc.devRef .tc main_v49) = _
  simp only [hostOps2, hostOps2_1, hostOps2_2, hostOps2_3, hostOps2_4]
  after_results_simp
  rfl

set_option maxHeartbeats 4000000 in
/-- The second layer's aggregate, at the entry of the second bias step. -/
theorem second (c : Dev nD) :
    W15 m ρ c (Proc.devRef .tc main_v95)
      = Cert.GcnSpec.agg (F := F) (W10 m ρ c (Proc.devRef .tc main_v51)) (W10 m ρ c (Proc.devRef .tc main_v1))
          (W10 m ρ c (Proc.devRef .tc main_v3)) (W10 m ρ c (Proc.devRef .tc main_arg2)) := by
  show StableHlo.after hostOps4_4 (StableHlo.after hostOps4_3 (StableHlo.after hostOps4_2 (StableHlo.after hostOps4_1
    (StableHlo.after hostOps4 (W10 m ρ c))))) (Proc.devRef .tc main_v95) = _
  simp only [hostOps4, hostOps4_1, hostOps4_2, hostOps4_3, hostOps4_4]
  after_results_simp
  rfl

/-- The two rows of the edge index, as the first stretch of host operations leaves them. -/
theorem rows (c : Dev nD) :
    W1 m ρ c (Proc.devRef .tc main_v1) = Cert.GcnSpec.rowOf (F := F) (m ((c : Thread nD τ).loc main_arg1))
    ∧ W1 m ρ c (Proc.devRef .tc main_v3) = Cert.GcnSpec.colOf (F := F) (m ((c : Thread nD τ).loc main_arg1)) := by
  constructor
  · show StableHlo.after hostOps0 (W0 m ρ c) (Proc.devRef .tc main_v1) = _
    simp only [hostOps0]
    after_results_simp
    rfl
  · show StableHlo.after hostOps0 (W0 m ρ c) (Proc.devRef .tc main_v3) = _
    simp only [hostOps0]
    after_results_simp
    rfl

end Cert.GcnKernel.Stretch

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.LibHostRowBroadcast.lean ====
/-
  Two host broadcasts read at an index given by coordinates.

  * a `[1, b]` row repeated along the rows by `broadcast_in_dim` with `dims = [0, 1]` holds, at `(p, c)`, the row's
    entry `(0, c)`, whatever the row `p` (the companion of the column form, `[a, 1]` to `[a, b]`);
  * a scalar (a rank-0 array) broadcast to any shape by `broadcast_in_dim` with `dims = []` holds the scalar at every
    index.
-/
import Idealize.ShloMosaic.Lib.ValueIdx
import Idealize.ShloMosaic.Lib.Pipeline.Value

noncomputable section

namespace Cert.HostRowBroadcast

open Idealize.ShloMosaic Idealize.ShloMosaic.ValueIdx

variable {α : Type}

/-- A row repeated along the rows: at `(p, c)` it holds the row's entry `(0, c)`. -/
theorem broadcastInDim_rows_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ =>
      show (0 : ℕ) = if (1 : ℕ) = 1 then 0 else p.val
      simp
    | ⟨1, _⟩ =>
      show c.val = if b = 1 then 0 else c.val
      split
      · have := c.isLt; omega
      · rfl

/-- A scalar broadcast to a shape `t`: at every index it holds the scalar. -/
theorem broadcastInDim_scalar_apply {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply _ h v i ix0 fun ax => ax.elim0

end Cert.HostRowBroadcast

end
-- ==== Proof.LibHostRowMax.lean ====
/-
  Three host operations on matrices, read at an index given by coordinates — the keepdims pieces of a row statistic
  computed on the host.

  * a host maximum over the columns of an `[a, n]` array of extended reals, read at row `p`, is the fold of `max`
    from the initial value over the entries `(p, k)`, `k : Fin n`;
  * an `[a, 1]` column repeated along the rows by `broadcast_in_dim` with `dims = [0, 1]` holds, at `(p, c)`, the
    column's entry `(p, 0)`, whatever the column `c`;
  * a `[b]` vector placed as the one row `[1, b]` by `broadcast_in_dim` with `dims = [1]` holds, at `(u, c)`, the
    vector's entry `c`.
-/
import Idealize.ShloMosaic.PureOps.Ideal.Laws
import Idealize.ShloMosaic.Lib.ValueIdx
import Idealize.ShloMosaic.Lib.Pipeline.Value

noncomputable section

namespace Cert.HostRowMax

open Idealize.ShloMosaic Idealize.ShloMosaic.ValueIdx

/-- Row `p` with the column coordinate `k` put back is the index `(p, k)`. -/
theorem lift_row {a n : ℕ} (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- A host maximum over the columns, read at row `p`: the fold of `max`, from the initial value, over that row's
    entries. -/
theorem hostReduceMax_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce FloatOps.maximumf x init h' hu (ix1 p)
      = (Finset.univ : Finset (Fin n)).fold max (init (Shape.Idx.first hu)) (fun k => x (ix2 p k)) := by
  rw [Host.reduce_eq_fold_single FloatOps.maximumf x init h' h hu]
  exact congrArg (fun f => (Finset.univ : Finset (Fin n)).fold max (init (Shape.Idx.first hu)) f)
    (funext fun k => congrArg x (lift_row h p k))

variable {α : Type}

/-- A column repeated along the rows: at `(p, c)` it holds the column's entry `(p, 0)`. -/
theorem broadcastInDim_cols_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ =>
      show (0 : ℕ) = if (1 : ℕ) = 1 then 0 else c.val
      simp

/-- A vector placed as one row: at `(u, c)` it holds the vector's entry `c`. -/
theorem broadcastInDim_row_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply _ h v _ _ fun ax => by
    match ax with
    | ⟨0, _⟩ =>
      show c.val = if b = 1 then 0 else c.val
      split
      · have := c.isLt; omega
      · rfl

end Cert.HostRowMax

end
-- ==== Proof.LibHostRowReads.lean ====
/-
  Three host operations on matrices, read at an index given by coordinates.

  * a host sum over the columns of an `[a, n]` array of extended reals, read at row `p`, is the initial value plus the
    sum over `k : Fin n` of the entries `(p, k)`;
  * an `[a]` vector placed as the column `[a, 1]` by `broadcast_in_dim` along axis 0 holds, at `(p, u)`, entry `p`;
  * an `[a, n]` array padded with extra rows BELOW (no low padding, no interior padding, columns untouched) holds, at
    a row that is one of the operand's, the operand's entry.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.HostRowReads

open Idealize.ShloMosaic Idealize.ShloMosaic.ValueIdx

/-- A host sum over the columns, read at row `p`: the initial value plus that row's entries summed. -/
theorem hostReduceAdd_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) (Finset.sum_congr rfl fun k _ => ?_)
  exact congrArg x (funext fun c => Fin.ext (by match c with | ⟨0, _⟩ => rfl | ⟨1, _⟩ => rfl))

variable {α : Type}

/-- A vector placed as a column: at `(p, u)` it holds the vector's entry `p`. -/
theorem broadcastInDim_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v _ _ fun ax => by
    match ax with
    | ⟨0, _⟩ =>
      show p.val = if a = 1 then 0 else p.val
      split
      · have := p.isLt; omega
      · rfl

/-- Rows appended below: at a row `c'` that is the operand's row `c`, the padded array holds the operand's entry. -/
theorem pad_rows_below_apply {a a' n e : ℕ} (x : (⟨2, ![a, n]⟩ : Shape).Idx → α) {u : Shape} (v : u.Idx → α)
    (h : (⟨2, ![a, n]⟩ : Shape).Pads (![0, 0] : Fin 2 → Nat) ![e, 0] ![0, 0] ⟨2, ![a', n]⟩) (hu : 0 < u.numel)
    (c : Fin a) (c' : Fin a') (hc : c'.val = c.val) (k : Fin n) :
    pad ⟨2, ![a', n]⟩ ![0, 0] ![e, 0] ![0, 0] x v h hu (ix2 c' k) = x (ix2 c k) :=
  pad_apply_of_inside _ _ _ x v h hu _ _ fun ax => by
    match ax with
    | ⟨0, _⟩ => show c'.val = 0 + c.val * (0 + 1); omega
    | ⟨1, _⟩ => show k.val = 0 + k.val * (0 + 1); omega

end Cert.HostRowReads

end
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.LibUnitAxisSums.lean ====
/-
  General lemmas about unit axes and sums over index sets, independent of any program.

  * `shapeCast_a_a1_apply`: a vector of length `a` viewed as a column `[a, 1]` (a row reduction kept with
    `keepdims=True`) reads, at `(i, u)`, the vector's entry `i`.
  * `sum_idx1`: a sum over the index set of a rank-1 shape `[n]` is the sum over `Fin n`.
  * `sum_idx_1n1`: a sum over the index set of the shape `[1, n, 1]` is the sum over its middle coordinate.
  * `sum_fin_blocks`: a sum over `Fin (q * n)` cut into `q` consecutive blocks of `n`:
    `∑ i, g i = ∑ b, ∑ r, g (n * b + r)`.
-/
import Idealize.ShloMosaic.Lib.Pipeline.Value
import Idealize.ShloMosaic.Lib.ValueIdx

noncomputable section

open scoped BigOperators

namespace Idealize.ShloMosaic.ValueIdx

open Idealize.ShloMosaic

variable {α : Type}

/-- An `[a]` array cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index set of the rank-1 shape `[n]` is `Fin n` … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The index set of the shape `[1, n, 1]` is `Fin n`: the two unit coordinates are `0`. -/
def idxEquiv_1n1 {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idx_1n1 {M : Type*} [AddCommMonoid M] {n : Nat} (f : (⟨3, ![1, n, 1]⟩ : Shape).Idx → M) :
    ∑ i, f i = ∑ r : Fin n, f (ix3 (0 : Fin 1) r (0 : Fin 1)) := by
  rw [← Equiv.sum_comp (idxEquiv_1n1 (n := n)).symm f]
  rfl

/-- A sum over `q * n` consecutive positions, cut into `q` blocks of `n`. -/
theorem sum_fin_blocks {M : Type*} [AddCommMonoid M] (q n : Nat) (g : Fin (q * n) → M) :
    ∑ i, g i = ∑ b : Fin q, ∑ r : Fin n, g ⟨n * b.val + r.val, by
      have hb := b.isLt; have hr := r.isLt
      calc n * b.val + r.val < n * b.val + n := by omega
        _ = n * (b.val + 1) := by ring
        _ ≤ n * q := Nat.mul_le_mul_left n hb
        _ = q * n := Nat.mul_comm n q⟩ := by
  rw [← Equiv.sum_comp (finProdFinEquiv : Fin q × Fin n ≃ Fin (q * n)) g, Fintype.sum_prod_type]
  refine Finset.sum_congr rfl fun b _ => Finset.sum_congr rfl fun r _ => congrArg g (Fin.ext ?_)
  show r.val + n * b.val = n * b.val + r.val
  omega

end Idealize.ShloMosaic.ValueIdx

end
-- ==== Proof.LibLogSoftmaxRows.lean ====
/-
  The logarithm of a softmax along the rows of a matrix, in its two spellings, read at an entry on the extended reals.

  For a row `ℓ : Fin n → EReal` put `M = max (−∞ word) (max_j ℓ j)` (the fold of `max` from the float word of `−∞`) and
    logSoftmaxRow ℓ q = (ℓ q − M) − log (Σ_j exp (ℓ j − M)).
  * On the host: a `reduce` with `maximum` from `−∞`, one more `maximum` with `−∞` (the identity on a fold that starts there), the
    result placed as a column and repeated along the rows, subtracted; `exponential`; a `reduce` with `add` from the zero word (`0 + Σ`);
    `log` of the column; subtracted.
  * In a kernel body: a lane maximum from `−∞`, cast to a column and broadcast along the rows, subtracted; `exp`; a lane sum; `log`
    of the column, broadcast, subtracted.
  Both read, at `(r, q)`, `logSoftmaxRow` of row `r`.
-/
import proofs.«173225_j30374008717350_1_alg».proof.Proof.LibHostRowMax
import proofs.«173225_j30374008717350_1_alg».proof.Proof.LibHostRowReads
import proofs.«173225_j30374008717350_1_alg».proof.Proof.LibHostRowBroadcast
import proofs.«173225_j30374008717350_1_alg».proof.Proof.LibColumnBroadcast
import proofs.«173225_j30374008717350_1_alg».proof.Proof.LibUnitAxisSums
import Idealize.ShloMosaic.PureOps.Ideal.Laws
import Idealize.ShloMosaic.Lib.ValueIdx
import Idealize.ShloMosaic.Lib.Pipeline.Value

noncomputable section

namespace Cert.LogSoftmaxRows

open Idealize.ShloMosaic Idealize.ShloMosaic.ValueIdx

/-- The float word of `−∞`, as an extended real. -/
abbrev negInf : Ideal .f32 := Ideal.ofBits .f32 0xFF800000#32

/-- A row's maximum, folded from `−∞`. -/
def rowMax {n : ℕ} (ℓ : Fin n → Ideal .f32) : Ideal .f32 := (Finset.univ : Finset (Fin n)).fold max negInf ℓ

/-- The logarithm of the softmax of a row, at position `q`. -/
def logSoftmaxRow {n : ℕ} (ℓ : Fin n → Ideal .f32) (q : Fin n) : Ideal .f32 :=
  (ℓ q - rowMax ℓ) - Ideal.log (∑ j : Fin n, Ideal.exp (ℓ j - rowMax ℓ))

/-- One more maximum with the value a fold of `max` started from changes nothing. -/
theorem max_fold_self {n : ℕ} (a : Ideal .f32) (f : Fin n → Ideal .f32) :
    max a ((Finset.univ : Finset (Fin n)).fold max a f) = (Finset.univ : Finset (Fin n)).fold max a f :=
  max_eq_right ((Finset.le_fold_max (s := Finset.univ) (f := f) (b := a) (c := a)).2 (Or.inl le_rfl))

/-- The host's spelling at `(r, q)`. -/
theorem host_apply {N n : ℕ} (L : FVec Ideal ⟨2, ![N, n]⟩ .f32)
    (hmax : (⟨2, ![N, n]⟩ : Shape).ReducesTo [1] ⟨1, ![N]⟩) (hred : (⟨2, ![N, n]⟩ : Shape).Reduces [1] ⟨1, ![N]⟩)
    (hu : 0 < (⟨0, ![]⟩ : Shape).numel)
    (hs : (⟨0, ![]⟩ : Shape).BroadcastsInDim ⟨1, ![N]⟩ (![] : Fin 0 → Fin 1))
    (hc : (⟨1, ![N]⟩ : Shape).BroadcastsInDim ⟨2, ![N, 1]⟩ (![0] : Fin 1 → Fin 2))
    (hb : (⟨2, ![N, 1]⟩ : Shape).BroadcastsInDim ⟨2, ![N, n]⟩ (![0, 1] : Fin 2 → Fin 2))
    (M : FVec Ideal ⟨1, ![N]⟩ .f32) (S : FVec Ideal ⟨2, ![N, n]⟩ .f32) (Z : FVec Ideal ⟨1, ![N]⟩ .f32)
    (hM : M = maximumf (broadcastInDim ⟨1, ![N]⟩ ![] hs (constant (F := Ideal) ⟨0, ![]⟩ .f32 0xFF800000#32))
      (Host.reduce FloatOps.maximumf L (constant (F := Ideal) ⟨0, ![]⟩ .f32 0xFF800000#32) hmax hu))
    (hS : S = subf L (broadcastInDim ⟨2, ![N, n]⟩ ![0, 1] hb (broadcastInDim ⟨2, ![N, 1]⟩ ![0] hc M)))
    (hZ : Z = Host.reduceAdd (Host.exp S) (constant (F := Ideal) ⟨0, ![]⟩ .f32 0x00000000#32) hmax hu)
    (r : Fin N) (q : Fin n) :
    subf S (broadcastInDim ⟨2, ![N, n]⟩ ![0, 1] hb (Host.log (broadcastInDim ⟨2, ![N, 1]⟩ ![0] hc Z))) (ix2 r q)
      = logSoftmaxRow (fun j => L (ix2 r j)) q := by
  have eM : M (ix1 r) = rowMax (fun j => L (ix2 r j)) := by
    rw [hM]
    show max (broadcastInDim ⟨1, ![N]⟩ ![] hs (constant (F := Ideal) ⟨0, ![]⟩ .f32 0xFF800000#32) (ix1 r))
      (Host.reduce FloatOps.maximumf L (constant (F := Ideal) ⟨0, ![]⟩ .f32 0xFF800000#32) hmax hu (ix1 r)) = _
    rw [Cert.HostRowBroadcast.broadcastInDim_scalar_apply, Cert.HostRowMax.hostReduceMax_row L _ hmax hred hu r]
    exact max_fold_self _ _
  have eS : ∀ j : Fin n, S (ix2 r j) = L (ix2 r j) - rowMax (fun j => L (ix2 r j)) := by
    intro j
    rw [hS]
    show L (ix2 r j) - broadcastInDim ⟨2, ![N, n]⟩ ![0, 1] hb (broadcastInDim ⟨2, ![N, 1]⟩ ![0] hc M) (ix2 r j) = _
    rw [Cert.HostRowMax.broadcastInDim_cols_apply, Cert.HostRowReads.broadcastInDim_col_apply, eM]
  have eZ : Z (ix1 r) = ∑ j : Fin n, Ideal.exp (L (ix2 r j) - rowMax (fun j => L (ix2 r j))) := by
    rw [hZ, Cert.HostRowReads.hostReduceAdd_row (Host.exp S) _ hmax hred hu r]
    show Ideal.ofBits .f32 0x00000000#32 + ∑ j : Fin n, Ideal.exp (S (ix2 r j)) = _
    rw [Ideal.ofBits_zero_f32, zero_add]
    exact Finset.sum_congr rfl fun j _ => congrArg Ideal.exp (eS j)
  show S (ix2 r q) - broadcastInDim ⟨2, ![N, n]⟩ ![0, 1] hb (Host.log (broadcastInDim ⟨2, ![N, 1]⟩ ![0] hc Z)) (ix2 r q) = _
  rw [Cert.HostRowMax.broadcastInDim_cols_apply]
  show S (ix2 r q) - Ideal.log (broadcastInDim ⟨2, ![N, 1]⟩ ![0] hc Z (ix2 r (0 : Fin 1))) = _
  rw [Cert.HostRowReads.broadcastInDim_col_apply, eS q, eZ]
  rfl

/-- The kernel body's spelling at `(p, q)`. -/
theorem kernel_apply {a n : ℕ} (L : FVec Ideal ⟨2, ![a, n]⟩ .f32)
    (hred : (⟨2, ![a, n]⟩ : Shape).Reduces [1] ⟨1, ![a]⟩) (hφ : FKind.Formats .f32)
    (hmaxacc : (0xFF800000#32 : BitVec 32) = FKind.maximumf.neutral .f32 hφ)
    (haddacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (M : FVec Ideal ⟨1, ![a]⟩ .f32) (S : FVec Ideal ⟨2, ![a, n]⟩ .f32) (Z : FVec Ideal ⟨1, ![a]⟩ .f32)
    (hM : M = multiReduction .maximumf [1] ⟨1, ![a]⟩ L 0xFF800000#32 hred hφ hmaxacc)
    (hS : S = subf L (broadcastTo ⟨2, ![a, n]⟩ (shapeCast ⟨2, ![a, 1]⟩ M hc) hb))
    (hZ : Z = multiReduction .add [1] ⟨1, ![a]⟩ (exp S) 0x00000000#32 hred hφ haddacc)
    (p : Fin a) (q : Fin n) :
    subf S (broadcastTo ⟨2, ![a, n]⟩ (log (shapeCast ⟨2, ![a, 1]⟩ Z hc)) hb) (ix2 p q)
      = logSoftmaxRow (fun j => L (ix2 p j)) q := by
  have eM : M (ix1 p) = rowMax (fun j => L (ix2 p j)) := by
    rw [hM, Ideal.multiReduction_maximumf_single]
    exact congrArg (fun f => (Finset.univ : Finset (Fin n)).fold max negInf f)
      (funext fun k => congrArg L (Cert.HostRowMax.lift_row hred p k))
  have eS : ∀ j : Fin n, S (ix2 p j) = L (ix2 p j) - rowMax (fun j => L (ix2 p j)) := by
    intro j
    rw [hS]
    show L (ix2 p j) - broadcastTo ⟨2, ![a, n]⟩ (shapeCast ⟨2, ![a, 1]⟩ M hc) hb (ix2 p j) = _
    rw [Cert.WeightUpdate.Layout.broadcastTo_a1_ab_apply, shapeCast_a_a1_apply, eM]
  have eZ : Z (ix1 p) = ∑ j : Fin n, Ideal.exp (L (ix2 p j) - rowMax (fun j => L (ix2 p j))) := by
    rw [hZ, Ideal.multiReduction_add_single]
    refine Finset.sum_congr rfl fun k _ => ?_
    show Ideal.exp (S (hred.lift (ix1 p) k)) = _
    rw [Cert.HostRowMax.lift_row hred p k]
    exact congrArg Ideal.exp (eS _)
  show S (ix2 p q) - broadcastTo ⟨2, ![a, n]⟩ (log (shapeCast ⟨2, ![a, 1]⟩ Z hc)) hb (ix2 p q) = _
  rw [Cert.WeightUpdate.Layout.broadcastTo_a1_ab_apply]
  show S (ix2 p q) - Ideal.log (shapeCast ⟨2, ![a, 1]⟩ Z hc (ix2 p (0 : Fin 1))) = _
  rw [shapeCast_a_a1_apply, eS q, eZ]
  rfl

end Cert.LogSoftmaxRows

end
-- ==== Proof.SpecReads.lean ====
/-
  The stages of the network read at an entry, on the extended reals.

  With `dot h w (r, q) = Σ_k h (r, k) · w (k, q)`:
    project h w (r, q)      = dot h w (r, q)
    firstLayer x w b (r, q) = max (dot x w (r, q) + b q) 0
    biasRelu a b (r, q)     = max (a (r, q) + b q) 0
    head h w b (r, q)       = ℓ q − M − log (0 + Σ_j exp (ℓ j − M)),  ℓ j = dot h w (r, j) + b j,  M = max (−∞) (max_j ℓ j)
  (the zero of `relu`, the `−∞` the maximum starts from and the `0` the sum starts from are kept as the float words the
  programs print, since both programs print the same words).
-/
import proofs.«173225_j30374008717350_1_alg».proof.Proof.Spec
import proofs.«173225_j30374008717350_1_alg».proof.Proof.LibRowColDot
import proofs.«173225_j30374008717350_1_alg».proof.Proof.LibHostRowBroadcast
import proofs.«173225_j30374008717350_1_alg».proof.Proof.LibHostRowMax
import proofs.«173225_j30374008717350_1_alg».proof.Proof.LibHostRowReads
import proofs.«173225_j30374008717350_1_alg».proof.Proof.LibLogSoftmaxRows
import Idealize.ShloMosaic.PureOps.Ideal.Laws
import Idealize.ShloMosaic.Lib.ValueIdx
import Idealize.ShloMosaic.Lib.Pipeline.Value

noncomputable section

namespace Cert.GcnSpec

open Idealize.ShloMosaic Idealize.ShloMosaic.ValueIdx Cert.ReferenceIdeal Cert.ReferenceIdeal.Gen

/-- The product of an `N × n` array with an `n × b` array at `(r, q)`: the sum over the contracted coordinate. -/
def dot {N n b : ℕ} (h : (⟨2, ![N, n]⟩ : Shape).Idx → EReal) (w : (⟨2, ![n, b]⟩ : Shape).Idx → EReal) (r : Fin N) (q : Fin b) : EReal :=
  ∑ k : Fin n, h (ix2 r k) * w (ix2 k q)

theorem project_apply (h : FVec Ideal S100000x64 .f32) (w : FVec Ideal S64x64 .f32) (r : Fin 100000) (q : Fin 64) :
    project (F := Ideal) h w (ix2 r q) = dot (N := 100000) (n := 64) (b := 64) h w r q := by
  unfold project
  exact Cert.RowColDot.hostDot_rowcol (a := 100000) (n := 64) (b := 64) dot_S100000x64_S64x64_S100000x64_1_0_0_1_n_n rfl rfl rfl rfl
    (fun _ _ => rfl) (fun _ _ => rfl) none h w (ix2 r q)

/-- A bias vector repeated down the rows, the way the host spells it (placed as one row, the row repeated), at `(r, q)`. -/
theorem hostBias_apply {N b : ℕ} (v : (⟨1, ![b]⟩ : Shape).Idx → EReal)
    (h1 : (⟨1, ![b]⟩ : Shape).BroadcastsInDim ⟨2, ![1, b]⟩ (![1] : Fin 1 → Fin 2))
    (h2 : (⟨2, ![1, b]⟩ : Shape).BroadcastsInDim ⟨2, ![N, b]⟩ (![0, 1] : Fin 2 → Fin 2)) (r : Fin N) (q : Fin b) :
    broadcastInDim ⟨2, ![N, b]⟩ ![0, 1] h2 (broadcastInDim ⟨2, ![1, b]⟩ ![1] h1 v) (ix2 r q) = v (ix1 q) :=
  (Cert.HostRowBroadcast.broadcastInDim_rows_apply _ h2 r q).trans (Cert.HostRowMax.broadcastInDim_row_apply v h1 0 q)

theorem firstLayer_apply (x : FVec Ideal S100000x128 .f32) (w : FVec Ideal S128x64 .f32) (b : FVec Ideal S64 .f32)
    (r : Fin 100000) (q : Fin 64) :
    firstLayer (F := Ideal) x w b (ix2 r q)
      = max (dot (N := 100000) (n := 128) (b := 64) x w r q + b (ix1 q)) (Ideal.ofBits .f32 0x00000000#32) := by
  unfold firstLayer
  show max (Host.dotGeneral dot_S100000x128_S128x64_S100000x64_1_0_0_1_n_n none x w (ix2 r q)
      + broadcastInDim S100000x64 ![0, 1] bcast_S1x64_S100000x64_0_1 (broadcastInDim S1x64 ![1] bcast_S64_S1x64_1 b) (ix2 r q))
    (broadcastInDim S100000x64 ![] bcast_S_S100000x64 (constant (F := Ideal) S_ .f32 0x00000000#32) (ix2 r q)) = _
  have e1 := Cert.RowColDot.hostDot_rowcol (a := 100000) (n := 128) (b := 64) dot_S100000x128_S128x64_S100000x64_1_0_0_1_n_n rfl rfl rfl rfl
    (fun _ _ => rfl) (fun _ _ => rfl) none x w (ix2 r q)
  have e2 := hostBias_apply (N := 100000) (b := 64) b bcast_S64_S1x64_1 bcast_S1x64_S100000x64_0_1 r q
  have e3 := Cert.HostRowBroadcast.broadcastInDim_scalar_apply (t := S100000x64) (constant (F := Ideal) S_ .f32 0x00000000#32) bcast_S_S100000x64 (ix2 r q)
  rw [e1, e2, e3]
  rfl

theorem biasRelu_apply (a : FVec Ideal S100000x64 .f32) (b : FVec Ideal S64 .f32) (r : Fin 100000) (q : Fin 64) :
    biasRelu (F := Ideal) a b (ix2 r q) = max (a (ix2 r q) + b (ix1 q)) (Ideal.ofBits .f32 0x00000000#32) := by
  unfold biasRelu
  show max (a (ix2 r q)
      + broadcastInDim S100000x64 ![0, 1] bcast_S1x64_S100000x64_0_1 (broadcastInDim S1x64 ![1] bcast_S64_S1x64_1 b) (ix2 r q))
    (broadcastInDim S100000x64 ![] bcast_S_S100000x64 (constant (F := Ideal) S_ .f32 0x00000000#32) (ix2 r q)) = _
  have e2 := hostBias_apply (N := 100000) (b := 64) b bcast_S64_S1x64_1 bcast_S1x64_S100000x64_0_1 r q
  have e3 := Cert.HostRowBroadcast.broadcastInDim_scalar_apply (t := S100000x64) (constant (F := Ideal) S_ .f32 0x00000000#32) bcast_S_S100000x64 (ix2 r q)
  rw [e2, e3]
  rfl

/-- The logits of row `r`: `ℓ j = Σ_k h (r, k) · w (k, j) + b j`. -/
def logits (h : FVec Ideal S100000x64 .f32) (w : FVec Ideal S64x40 .f32) (b : FVec Ideal S40 .f32) (r : Fin 100000) (j : Fin 40) : Ideal .f32 :=
  dot (N := 100000) (n := 64) (b := 40) h w r j + b (ix1 j)

set_option maxHeartbeats 1000000 in
theorem head_apply (h : FVec Ideal S100000x64 .f32) (w : FVec Ideal S64x40 .f32) (b : FVec Ideal S40 .f32)
    (r : Fin 100000) (q : Fin 40) :
    head (F := Ideal) h w b (ix2 r q) = Cert.LogSoftmaxRows.logSoftmaxRow (logits h w b r) q := by
  have hL : ∀ j : Fin 40, addf (Host.dotGeneral dot_S100000x64_S64x40_S100000x40_1_0_0_1_n_n none h w)
      (broadcastInDim S100000x40 ![0, 1] bcast_S1x40_S100000x40_0_1 (broadcastInDim S1x40 ![1] bcast_S40_S1x40_1 b)) (ix2 r j)
      = logits h w b r j := by
    intro j
    show Host.dotGeneral dot_S100000x64_S64x40_S100000x40_1_0_0_1_n_n none h w (ix2 r j)
      + broadcastInDim S100000x40 ![0, 1] bcast_S1x40_S100000x40_0_1 (broadcastInDim S1x40 ![1] bcast_S40_S1x40_1 b) (ix2 r j) = _
    have e1 := Cert.RowColDot.hostDot_rowcol (a := 100000) (n := 64) (b := 40) dot_S100000x64_S64x40_S100000x40_1_0_0_1_n_n rfl rfl rfl rfl
      (fun _ _ => rfl) (fun _ _ => rfl) none h w (ix2 r j)
    have e2 := hostBias_apply (N := 100000) (b := 40) b bcast_S40_S1x40_1 bcast_S1x40_S100000x40_0_1 r j
    rw [e1, e2]
    rfl
  have hred : (⟨2, ![100000, 40]⟩ : Shape).Reduces [1] ⟨1, ![100000]⟩ := by decide
  have key := Cert.LogSoftmaxRows.host_apply (N := 100000) (n := 40)
    (addf (Host.dotGeneral dot_S100000x64_S64x40_S100000x40_1_0_0_1_n_n none h w)
      (broadcastInDim S100000x40 ![0, 1] bcast_S1x40_S100000x40_0_1 (broadcastInDim S1x40 ![1] bcast_S40_S1x40_1 b)))
    reducesTo_S100000x40_S100000_d1 hred h_S_ bcast_S_S100000 bcast_S100000_S100000x1_0 bcast_S100000x1_S100000x40_0_1
    _ _ _ rfl rfl rfl r q
  unfold head finishOf sumExpOf shiftOf rowMaxOf logitsOf
  exact key.trans (congrArg (fun f => Cert.LogSoftmaxRows.logSoftmaxRow f q) (funext hL))

end Cert.GcnSpec

end
-- ==== Proof.LibKernelRowBias.lean ====
/-
  A vector repeated down the rows of a matrix, in the spelling a kernel body uses.

  A kernel adds a bias `v` of length `b` to an `a × b` block by casting the vector to the one row `[1, b]`, casting that row
  to its own shape, and broadcasting the row along the `a` rows. At `(p, q)` the result holds `v q`, whatever the row `p`.
-/
import Idealize.ShloMosaic.Lib.Pipeline.Value
import Idealize.ShloMosaic.Lib.ValueIdx
import Idealize.ShloMosaic.Lib.ValueLayout

noncomputable section

namespace Cert.KernelRowBias

open Idealize.ShloMosaic Idealize.ShloMosaic.ValueIdx

variable {α : Type}

/-- A `[b]` vector cast to a row, the row cast to itself and broadcast to `[a, b]`: at `(p, q)` the vector's entry `q`. -/
theorem rowBias_apply {a b : ℕ} (v : (⟨1, ![b]⟩ : Shape).Idx → α)
    (h1 : (⟨1, ![b]⟩ : Shape).ShapeCasts ⟨2, ![1, b]⟩) (h2 : (⟨2, ![1, b]⟩ : Shape).ShapeCasts ⟨2, ![1, b]⟩)
    (h3 : (⟨2, ![1, b]⟩ : Shape).Broadcasts ⟨2, ![a, b]⟩) (p : Fin a) (q : Fin b) :
    broadcastTo ⟨2, ![a, b]⟩ (shapeCast ⟨2, ![1, b]⟩ (shapeCast ⟨2, ![1, b]⟩ v h1) h2) h3 (ix2 p q) = v (ix1 q) := by
  have e : shapeCast ⟨2, ![1, b]⟩ (shapeCast ⟨2, ![1, b]⟩ v h1) h2 = shapeCast ⟨2, ![1, b]⟩ v h1 := shapeCast_self _ h2
  rw [e]
  exact (broadcastTo_1b_ab_apply _ h3 p q).trans (shapeCast_a_1a_apply v h1 0 q)

end Cert.KernelRowBias

end
-- ==== Proof.Region0.lean ====
/-
  Region 0: the input layer, ten blocks of 10000 rows.

  At grid point `t` the body multiplies rows `10000 t … 10000 t + 9999` of the `N × 128` features by the whole `128 × 64` weight
  on the matrix unit, from a zero accumulator, adds the bias repeated down the rows and takes the maximum with zero, writing the
  result back as the same rows of the output. Entry `(p, q)` of the block is `max (Σ_k x (p, k) · w (k, q) + b q) 0`: the change of
  float format before the product is the identity on the extended reals. So the block is the restriction to those rows of
  `firstLayer` of the whole arrays, and the ten blocks tile the output.
-/
import proofs.«173225_j30374008717350_1_alg».proof.Proof.Gen.KernelIdeal.Frame
import proofs.«173225_j30374008717350_1_alg».proof.Proof.SpecReads
import proofs.«173225_j30374008717350_1_alg».proof.Proof.LibKernelRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GcnKernel.Region0

open Cert.KernelIdeal Cert.KernelIdeal.Gen
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value at `(p, q)`: `max (Σ_k x (p, k) · w (k, q) + b q) 0`. -/
theorem pay (x0 : Vec Ideal S10000x128 .f32) (x1 : Vec Ideal S128x64 .f32) (x2 : Vec Ideal S64 .f32) (p : Fin 10000) (q : Fin 64) :
    k0_pay1 x0 x1 x2 (ix2 p q)
      = max ((∑ k : Fin 128, x0 (ix2 p k) * x1 (ix2 k q)) + x2 (ix1 q)) (Ideal.ofBits .f32 0x00000000#32) := by
  unfold k0_pay1
  show max (matmul dot_S10000x128_S128x64_S10000x64_1_0_0_1_n_n none (truncf .bf16 x0 bitsLt_bf16_f32) (truncf .bf16 x1 bitsLt_bf16_f32)
        (constant (F := Ideal) S10000x64 .f32 0x00000000#32) (ix2 p q)
      + broadcastTo S10000x64 (shapeCast S1x64 (shapeCast S1x64 x2 shapeCasts_S64_S1x64) shapeCasts_S1x64_S1x64) broadcasts_S1x64_S10000x64 (ix2 p q))
    (Ideal.ofBits .f32 0x00000000#32) = _
  have e1 := Cert.RowColDot.matmul_rowcol (a := 10000) (n := 128) (b := 64) dot_S10000x128_S128x64_S10000x64_1_0_0_1_n_n rfl rfl rfl rfl
    (fun _ _ => rfl) (fun _ _ => rfl) none (truncf .bf16 x0 bitsLt_bf16_f32) (truncf .bf16 x1 bitsLt_bf16_f32) (ix2 p q)
  have e2 := Cert.KernelRowBias.rowBias_apply (a := 10000) (b := 64) x2 shapeCasts_S64_S1x64 shapeCasts_S1x64_S1x64 broadcasts_S1x64_S10000x64 p q
  rw [e1, e2]
  rfl

/-- The index maps over the grid: the row blocks move with the point, the weight and the bias are read whole. -/
theorem in_idx : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0 :=
  (by decide +kernel : ∀ t : Fin grid0.N, _)
theorem out_idx : ∀ t : Fin cfg0.N, win0_3.index t (0 : Fin 2) = t.val ∧ win0_3.index t (1 : Fin 2) = 0 :=
  (by decide +kernel : ∀ t : Fin grid0.N, _)

/-- What point `t` writes back is block `t` of `firstLayer` of the arrays as the region finds them. -/
theorem flushed_eq (c : Dev nD) (t : Fin cfg0.N) :
    (dat0 V c).flushed 3 t = ((cfg0.win 3).blk t).view.read (Elt Ideal)
      (Cert.GcnSpec.firstLayer (F := Ideal) (V c main_arg0) (V c main_arg3) (V c main_arg4)) := by
  show (cfg0.win 3).cut (grid0.coords t) ((dat0 V c).after 3 t) = _
  rw [after0_3]
  unfold out0_3
  rw [View.canon_unit_zero hz2]
  simp only [View.ld_unit_zero (S := S10000x128) hz2, View.ld_unit_zero (S := S128x64) hz2, View.ld_unit_zero (S := S64) hz1]
  obtain ⟨i0, i1, i2, i3, i4⟩ := in_idx t
  obtain ⟨o0, o1⟩ := out_idx t
  have ht : t.val < 10 := by have h := t.isLt; have hN : cfg0.N = 10 := N_0; omega
  funext y
  obtain ⟨p, q, rfl⟩ : ∃ (p : Fin 10000) (q : Fin 64), y = ix2 p q := ⟨y 0, y 1, eq_ix2 y⟩
  have hp := p.isLt
  have hr : t.val * 10000 + p.val < 100000 := by omega
  generalize hrdef : (⟨t.val * 10000 + p.val, hr⟩ : Fin 100000) = r
  have hrv : r.val = t.val * 10000 + p.val := by rw [← hrdef]
  show k0_pay1 (iblk0 V c 0 t) (iblk0 V c 1 t) (iblk0 V c 2 t) (ix2 p q)
    = Cert.GcnSpec.firstLayer (F := Ideal) (V c main_arg0) (V c main_arg3) (V c main_arg4) (((cfg0.win 3).blk t).view.emb (ix2 p q))
  have hemb : ((cfg0.win 3).blk t).view.emb (ix2 p q) = ix2 r q := by
    funext ax; apply Fin.ext
    match ax with
    | ⟨0, _⟩ => show win0_3.index t (0 : Fin 2) * 10000 + 1 * p.val = r.val; omega
    | ⟨1, _⟩ => show win0_3.index t (1 : Fin 2) * 64 + 1 * q.val = q.val; omega
  rw [pay, hemb, Cert.GcnSpec.firstLayer_apply]
  unfold Cert.GcnSpec.dot
  have hx : ∀ k : Fin 128, iblk0 V c 0 t (ix2 p k) = V c main_arg0 (ix2 r k) := by
    intro k
    have h0 : ((cfg0.win 0).blk t).view.emb (ix2 p k) = ix2 r k := by
      funext ax; apply Fin.ext
      match ax with
      | ⟨0, _⟩ => show win0_0.index t (0 : Fin 2) * 10000 + 1 * p.val = r.val; omega
      | ⟨1, _⟩ => show win0_0.index t (1 : Fin 2) * 128 + 1 * k.val = k.val; omega
    show V c main_arg0 (((cfg0.win 0).blk t).view.emb (ix2 p k)) = _
    rw [h0]
  have hw : ∀ (k : Fin 128) (j : Fin 64), iblk0 V c 1 t (ix2 k j) = V c main_arg3 (ix2 k j) := by
    intro k j
    have h1 : ((cfg0.win 1).blk t).view.emb (ix2 k j) = ix2 k j := by
      funext ax; apply Fin.ext
      match ax with
      | ⟨0, _⟩ => show win0_1.index t (0 : Fin 2) * 128 + 1 * k.val = k.val; omega
      | ⟨1, _⟩ => show win0_1.index t (1 : Fin 2) * 64 + 1 * j.val = j.val; omega
    show V c main_arg3 (((cfg0.win 1).blk t).view.emb (ix2 k j)) = _
    rw [h1]
  have hb : ∀ j : Fin 64, iblk0 V c 2 t (ix1 j) = V c main_arg4 (ix1 j) := by
    intro j
    have h2 : ((cfg0.win 2).blk t).view.emb (ix1 j) = ix1 j := by
      funext ax; apply Fin.ext
      match ax with
      | ⟨0, _⟩ => show win0_2.index t (0 : Fin 1) * 64 + 1 * j.val = j.val; omega
    show V c main_arg4 (((cfg0.win 2).blk t).view.emb (ix1 j)) = _
    rw [h2]
  simp only [hx, hw, hb]

/-- An entry of the array lies in point `t`'s block iff each coordinate lies in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v4).slice (win0_3.rect t)).set ↔ _
  rw [View.set_slice_whole, Rect.mem_set_unit]
  exact Iff.rfl

/-- The ten blocks of 10000 rows tile the array: row `i` lies in the block of point `i / 10000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : (i 0).val / 10000 < cfg0.N := by show (i 0).val / 10000 < grid0.N; rw [N_0]; omega
  obtain ⟨e0, e1⟩ := out_idx ⟨(i 0).val / 10000, hN⟩
  have e0' : win0_3.index ⟨(i 0).val / 10000, hN⟩ (0 : Fin 2) = (i 0).val / 10000 := e0
  refine ⟨⟨(i 0).val / 10000, hN⟩, flush0_3 _, ?_⟩
  rw [mem_blk]
  intro a
  match a with
  | ⟨0, _⟩ => show win0_3.index ⟨(i 0).val / 10000, hN⟩ (0 : Fin 2) * 10000 ≤ (i 0).val ∧ (i 0).val < win0_3.index ⟨(i 0).val / 10000, hN⟩ (0 : Fin 2) * 10000 + 10000; omega
  | ⟨1, _⟩ => show win0_3.index ⟨(i 0).val / 10000, hN⟩ (1 : Fin 2) * 64 ≤ (i 1).val ∧ (i 1).val < win0_3.index ⟨(i 0).val / 10000, hN⟩ (1 : Fin 2) * 64 + 64; omega

/-- The region's output array after its ten points: the stage's function of the arrays the region finds. -/
theorem final (c : Dev nD) : (dat0 V c).arrAt 3 cfg0.N = Cert.GcnSpec.firstLayer (F := Ideal) (V c main_arg0) (V c main_arg3) (V c main_arg4) :=
  (dat0 V c).arrAt_eq_of_cover 3 _ (fun t _ => flushed_eq V c t) cover

end Cert.GcnKernel.Region0

end
-- ==== Proof.Region1.lean ====
/-
  Region 1: a hidden layer's linear map, ten blocks of 10000 rows.

  At grid point `t` the body multiplies rows `10000 t … 10000 t + 9999` of the `N × 64` input by the whole `64 × 64` weight on
  the matrix unit, from a zero accumulator, and writes the product back as the same rows of the output. Entry `(p, q)` of a
  block's product is `Σ_k x (p, k) · w (k, q)`: the change of float format before the product is the identity on the extended
  reals. So the block is the restriction to those rows of `project` of the whole arrays, and the ten blocks tile the output.
-/
import proofs.«173225_j30374008717350_1_alg».proof.Proof.Gen.KernelIdeal.Frame
import proofs.«173225_j30374008717350_1_alg».proof.Proof.SpecReads
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GcnKernel.Region1

open Cert.KernelIdeal Cert.KernelIdeal.Gen
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value at `(p, q)`: the row-by-column sum. -/
theorem pay (x0 : Vec Ideal S10000x64 .f32) (x1 : Vec Ideal S64x64 .f32) (p : Fin 10000) (q : Fin 64) :
    k1_pay1 x0 x1 (ix2 p q) = ∑ k : Fin 64, x0 (ix2 p k) * x1 (ix2 k q) := by
  unfold k1_pay1
  refine (Cert.RowColDot.matmul_rowcol (a := 10000) (n := 64) (b := 64) dot_S10000x64_S64x64_S10000x64_1_0_0_1_n_n rfl rfl rfl rfl
    (fun _ _ => rfl) (fun _ _ => rfl) none _ _ (ix2 p q)).trans ?_
  refine Finset.sum_congr rfl fun k _ => ?_
  have e0 : shapeCast S10000x64 x0 shapeCasts_S10000x64_S10000x64 = x0 := shapeCast_self _ _
  rw [e0]
  rfl

/-- The index maps over the grid: the row blocks move with the point, the weight is read whole. -/
theorem in_idx : ∀ t : Fin cfg1.N, win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)
theorem out_idx : ∀ t : Fin cfg1.N, win1_2.index t (0 : Fin 2) = t.val ∧ win1_2.index t (1 : Fin 2) = 0 :=
  (by decide +kernel : ∀ t : Fin grid1.N, _)

/-- What point `t` writes back is block `t` of `project` of the arrays as the region finds them. -/
theorem flushed_eq (c : Dev nD) (t : Fin cfg1.N) :
    (dat1 V c).flushed 2 t = ((cfg1.win 2).blk t).view.read (Elt Ideal)
      (Cert.GcnSpec.project (F := Ideal) (V c main_v4) (V c main_arg5)) := by
  show (cfg1.win 2).cut (grid1.coords t) ((dat1 V c).after 2 t) = _
  rw [after1_2]
  unfold out1_2
  rw [View.canon_unit_zero hz2]
  simp only [View.ld_unit_zero (S := S10000x64) hz2, View.ld_unit_zero (S := S64x64) hz2]
  obtain ⟨i0, i1, i2, i3⟩ := in_idx t
  obtain ⟨o0, o1⟩ := out_idx t
  have ht : t.val < 10 := by have h := t.isLt; have hN : cfg1.N = 10 := N_1; omega
  funext y
  obtain ⟨p, q, rfl⟩ : ∃ (p : Fin 10000) (q : Fin 64), y = ix2 p q := ⟨y 0, y 1, eq_ix2 y⟩
  have hp := p.isLt
  have hr : t.val * 10000 + p.val < 100000 := by omega
  generalize hrdef : (⟨t.val * 10000 + p.val, hr⟩ : Fin 100000) = r
  have hrv : r.val = t.val * 10000 + p.val := by rw [← hrdef]
  show k1_pay1 (iblk1 V c 0 t) (iblk1 V c 1 t) (ix2 p q)
    = Cert.GcnSpec.project (F := Ideal) (V c main_v4) (V c main_arg5) (((cfg1.win 2).blk t).view.emb (ix2 p q))
  have hemb : ((cfg1.win 2).blk t).view.emb (ix2 p q) = ix2 r q := by
    funext ax; apply Fin.ext
    match ax with
    | ⟨0, _⟩ => show win1_2.index t (0 : Fin 2) * 10000 + 1 * p.val = r.val; omega
    | ⟨1, _⟩ => show win1_2.index t (1 : Fin 2) * 64 + 1 * q.val = q.val; omega
  rw [pay, hemb, Cert.GcnSpec.project_apply]
  unfold Cert.GcnSpec.dot
  have hx : ∀ k : Fin 64, iblk1 V c 0 t (ix2 p k) = V c main_v4 (ix2 r k) := by
    intro k
    have h0 : ((cfg1.win 0).blk t).view.emb (ix2 p k) = ix2 r k := by
      funext ax; apply Fin.ext
      match ax with
      | ⟨0, _⟩ => show win1_0.index t (0 : Fin 2) * 10000 + 1 * p.val = r.val; omega
      | ⟨1, _⟩ => show win1_0.index t (1 : Fin 2) * 64 + 1 * k.val = k.val; omega
    show V c main_v4 (((cfg1.win 0).blk t).view.emb (ix2 p k)) = _
    rw [h0]
  have hw : ∀ (k : Fin 64) (j : Fin 64), iblk1 V c 1 t (ix2 k j) = V c main_arg5 (ix2 k j) := by
    intro k j
    have h1 : ((cfg1.win 1).blk t).view.emb (ix2 k j) = ix2 k j := by
      funext ax; apply Fin.ext
      match ax with
      | ⟨0, _⟩ => show win1_1.index t (0 : Fin 2) * 64 + 1 * k.val = k.val; omega
      | ⟨1, _⟩ => show win1_1.index t (1 : Fin 2) * 64 + 1 * j.val = j.val; omega
    show V c main_arg5 (((cfg1.win 1).blk t).view.emb (ix2 k j)) = _
    rw [h1]
  simp only [hx, hw]

/-- An entry of the array lies in point `t`'s block iff each coordinate lies in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v5).slice (win1_2.rect t)).set ↔ _
  rw [View.set_slice_whole, Rect.mem_set_unit]
  exact Iff.rfl

/-- The ten blocks of 10000 rows tile the array: row `i` lies in the block of point `i / 10000`. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : (i 0).val / 10000 < cfg1.N := by show (i 0).val / 10000 < grid1.N; rw [N_1]; omega
  obtain ⟨e0, e1⟩ := out_idx ⟨(i 0).val / 10000, hN⟩
  have e0' : win1_2.index ⟨(i 0).val / 10000, hN⟩ (0 : Fin 2) = (i 0).val / 10000 := e0
  refine ⟨⟨(i 0).val / 10000, hN⟩, flush1_2 _, ?_⟩
  rw [mem_blk]
  intro a
  match a with
  | ⟨0, _⟩ => show win1_2.index ⟨(i 0).val / 10000, hN⟩ (0 : Fin 2) * 10000 ≤ (i 0).val ∧ (i 0).val < win1_2.index ⟨(i 0).val / 10000, hN⟩ (0 : Fin 2) * 10000 + 10000; omega
  | ⟨1, _⟩ => show win1_2.index ⟨(i 0).val / 10000, hN⟩ (1 : Fin 2) * 64 ≤ (i 1).val ∧ (i 1).val < win1_2.index ⟨(i 0).val / 10000, hN⟩ (1 : Fin 2) * 64 + 64; omega

/-- The region's output array after its ten points: the stage's function of the arrays the region finds. -/
theorem final (c : Dev nD) : (dat1 V c).arrAt 2 cfg1.N = Cert.GcnSpec.project (F := Ideal) (V c main_v4) (V c main_arg5) :=
  (dat1 V c).arrAt_eq_of_cover 2 _ (fun t _ => flushed_eq V c t) cover

end Cert.GcnKernel.Region1

end
-- ==== Proof.Region2.lean ====
/-
  Region 2: a hidden layer's bias and relu, ten blocks of 10000 rows.

  At grid point `t` the body adds the bias, repeated down the rows, to rows `10000 t … 10000 t + 9999` of the aggregate and
  takes the maximum with zero, entry by entry, writing the result back as the same rows of the output. So the block is the
  restriction to those rows of `biasRelu` of the whole arrays, and the ten blocks tile the output.
-/
import proofs.«173225_j30374008717350_1_alg».proof.Proof.Gen.KernelIdeal.Frame
import proofs.«173225_j30374008717350_1_alg».proof.Proof.SpecReads
import proofs.«173225_j30374008717350_1_alg».proof.Proof.LibKernelRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GcnKernel.Region2

open Cert.KernelIdeal Cert.KernelIdeal.Gen
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value at `(p, q)`: `max (x (p, q) + b q) 0`. -/
theorem pay (x0 : Vec Ideal S10000x64 .f32) (x1 : Vec Ideal S64 .f32) (p : Fin 10000) (q : Fin 64) :
    k2_pay1 x0 x1 (ix2 p q) = max (x0 (ix2 p q) + x1 (ix1 q)) (Ideal.ofBits .f32 0x00000000#32) := by
  unfold k2_pay1
  show max (shapeCast S10000x64 x0 shapeCasts_S10000x64_S10000x64 (ix2 p q)
      + broadcastTo S10000x64 (shapeCast S1x64 (shapeCast S1x64 x1 shapeCasts_S64_S1x64) shapeCasts_S1x64_S1x64) broadcasts_S1x64_S10000x64 (ix2 p q))
    (Ideal.ofBits .f32 0x00000000#32) = _
  have e0 : shapeCast S10000x64 x0 shapeCasts_S10000x64_S10000x64 = x0 := shapeCast_self _ _
  have e1 := Cert.KernelRowBias.rowBias_apply (a := 10000) (b := 64) x1 shapeCasts_S64_S1x64 shapeCasts_S1x64_S1x64 broadcasts_S1x64_S10000x64 p q
  rw [e0, e1]

/-- The index maps over the grid: the row blocks move with the point, the bias is read whole. -/
theorem in_idx : ∀ t : Fin cfg2.N, win2_0.index t (0 : Fin 2) = t.val ∧ win2_0.index t (1 : Fin 2) = 0
    ∧ win2_1.index t (0 : Fin 1) = 0 :=
  (by decide +kernel : ∀ t : Fin grid2.N, _)
theorem out_idx : ∀ t : Fin cfg2.N, win2_2.index t (0 : Fin 2) = t.val ∧ win2_2.index t (1 : Fin 2) = 0 :=
  (by decide +kernel : ∀ t : Fin grid2.N, _)

/-- What point `t` writes back is block `t` of `biasRelu` of the arrays as the region finds them. -/
theorem flushed_eq (c : Dev nD) (t : Fin cfg2.N) :
    (dat2 V c).flushed 2 t = ((cfg2.win 2).blk t).view.read (Elt Ideal)
      (Cert.GcnSpec.biasRelu (F := Ideal) (V c main_v49) (V c main_arg6)) := by
  show (cfg2.win 2).cut (grid2.coords t) ((dat2 V c).after 2 t) = _
  rw [after2_2]
  unfold out2_2
  rw [View.canon_unit_zero hz2]
  simp only [View.ld_unit_zero (S := S10000x64) hz2, View.ld_unit_zero (S := S64) hz1]
  obtain ⟨i0, i1, i2⟩ := in_idx t
  obtain ⟨o0, o1⟩ := out_idx t
  have ht : t.val < 10 := by have h := t.isLt; have hN : cfg2.N = 10 := N_2; omega
  funext y
  obtain ⟨p, q, rfl⟩ : ∃ (p : Fin 10000) (q : Fin 64), y = ix2 p q := ⟨y 0, y 1, eq_ix2 y⟩
  have hp := p.isLt
  have hr : t.val * 10000 + p.val < 100000 := by omega
  generalize hrdef : (⟨t.val * 10000 + p.val, hr⟩ : Fin 100000) = r
  have hrv : r.val = t.val * 10000 + p.val := by rw [← hrdef]
  show k2_pay1 (iblk2 V c 0 t) (iblk2 V c 1 t) (ix2 p q)
    = Cert.GcnSpec.biasRelu (F := Ideal) (V c main_v49) (V c main_arg6) (((cfg2.win 2).blk t).view.emb (ix2 p q))
  have hemb : ((cfg2.win 2).blk t).view.emb (ix2 p q) = ix2 r q := by
    funext ax; apply Fin.ext
    match ax with
    | ⟨0, _⟩ => show win2_2.index t (0 : Fin 2) * 10000 + 1 * p.val = r.val; omega
    | ⟨1, _⟩ => show win2_2.index t (1 : Fin 2) * 64 + 1 * q.val = q.val; omega
  rw [pay, hemb, Cert.GcnSpec.biasRelu_apply]
  have hx : ∀ k : Fin 64, iblk2 V c 0 t (ix2 p k) = V c main_v49 (ix2 r k) := by
    intro k
    have h0 : ((cfg2.win 0).blk t).view.emb (ix2 p k) = ix2 r k := by
      funext ax; apply Fin.ext
      match ax with
      | ⟨0, _⟩ => show win2_0.index t (0 : Fin 2) * 10000 + 1 * p.val = r.val; omega
      | ⟨1, _⟩ => show win2_0.index t (1 : Fin 2) * 64 + 1 * k.val = k.val; omega
    show V c main_v49 (((cfg2.win 0).blk t).view.emb (ix2 p k)) = _
    rw [h0]
  have hb : ∀ j : Fin 64, iblk2 V c 1 t (ix1 j) = V c main_arg6 (ix1 j) := by
    intro j
    have h2 : ((cfg2.win 1).blk t).view.emb (ix1 j) = ix1 j := by
      funext ax; apply Fin.ext
      match ax with
      | ⟨0, _⟩ => show win2_1.index t (0 : Fin 1) * 64 + 1 * j.val = j.val; omega
    show V c main_arg6 (((cfg2.win 1).blk t).view.emb (ix1 j)) = _
    rw [h2]
  simp only [hx, hb]

/-- An entry of the array lies in point `t`'s block iff each coordinate lies in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v50).slice (win2_2.rect t)).set ↔ _
  rw [View.set_slice_whole, Rect.mem_set_unit]
  exact Iff.rfl

/-- The ten blocks of 10000 rows tile the array: row `i` lies in the block of point `i / 10000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : (i 0).val / 10000 < cfg2.N := by show (i 0).val / 10000 < grid2.N; rw [N_2]; omega
  obtain ⟨e0, e1⟩ := out_idx ⟨(i 0).val / 10000, hN⟩
  have e0' : win2_2.index ⟨(i 0).val / 10000, hN⟩ (0 : Fin 2) = (i 0).val / 10000 := e0
  refine ⟨⟨(i 0).val / 10000, hN⟩, flush2_2 _, ?_⟩
  rw [mem_blk]
  intro a
  match a with
  | ⟨0, _⟩ => show win2_2.index ⟨(i 0).val / 10000, hN⟩ (0 : Fin 2) * 10000 ≤ (i 0).val ∧ (i 0).val < win2_2.index ⟨(i 0).val / 10000, hN⟩ (0 : Fin 2) * 10000 + 10000; omega
  | ⟨1, _⟩ => show win2_2.index ⟨(i 0).val / 10000, hN⟩ (1 : Fin 2) * 64 ≤ (i 1).val ∧ (i 1).val < win2_2.index ⟨(i 0).val / 10000, hN⟩ (1 : Fin 2) * 64 + 64; omega

/-- The region's output array after its ten points: the stage's function of the arrays the region finds. -/
theorem final (c : Dev nD) : (dat2 V c).arrAt 2 cfg2.N = Cert.GcnSpec.biasRelu (F := Ideal) (V c main_v49) (V c main_arg6) :=
  (dat2 V c).arrAt_eq_of_cover 2 _ (fun t _ => flushed_eq V c t) cover

end Cert.GcnKernel.Region2

end
-- ==== Proof.Region3.lean ====
/-
  Region 3: a hidden layer's linear map, ten blocks of 10000 rows.

  At grid point `t` the body multiplies rows `10000 t … 10000 t + 9999` of the `N × 64` input by the whole `64 × 64` weight on
  the matrix unit, from a zero accumulator, and writes the product back as the same rows of the output. Entry `(p, q)` of a
  block's product is `Σ_k x (p, k) · w (k, q)`: the change of float format before the product is the identity on the extended
  reals. So the block is the restriction to those rows of `project` of the whole arrays, and the ten blocks tile the output.
-/
import proofs.«173225_j30374008717350_1_alg».proof.Proof.Gen.KernelIdeal.Frame
import proofs.«173225_j30374008717350_1_alg».proof.Proof.SpecReads
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GcnKernel.Region3

open Cert.KernelIdeal Cert.KernelIdeal.Gen
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value at `(p, q)`: the row-by-column sum. -/
theorem pay (x0 : Vec Ideal S10000x64 .f32) (x1 : Vec Ideal S64x64 .f32) (p : Fin 10000) (q : Fin 64) :
    k3_pay1 x0 x1 (ix2 p q) = ∑ k : Fin 64, x0 (ix2 p k) * x1 (ix2 k q) := by
  unfold k3_pay1
  refine (Cert.RowColDot.matmul_rowcol (a := 10000) (n := 64) (b := 64) dot_S10000x64_S64x64_S10000x64_1_0_0_1_n_n rfl rfl rfl rfl
    (fun _ _ => rfl) (fun _ _ => rfl) none _ _ (ix2 p q)).trans ?_
  refine Finset.sum_congr rfl fun k _ => ?_
  have e0 : shapeCast S10000x64 x0 shapeCasts_S10000x64_S10000x64 = x0 := shapeCast_self _ _
  rw [e0]
  rfl

/-- The index maps over the grid: the row blocks move with the point, the weight is read whole. -/
theorem in_idx : ∀ t : Fin cfg3.N, win3_0.index t (0 : Fin 2) = t.val ∧ win3_0.index t (1 : Fin 2) = 0
    ∧ win3_1.index t (0 : Fin 2) = 0 ∧ win3_1.index t (1 : Fin 2) = 0 :=
  (by decide +kernel : ∀ t : Fin grid3.N, _)
theorem out_idx : ∀ t : Fin cfg3.N, win3_2.index t (0 : Fin 2) = t.val ∧ win3_2.index t (1 : Fin 2) = 0 :=
  (by decide +kernel : ∀ t : Fin grid3.N, _)

/-- What point `t` writes back is block `t` of `project` of the arrays as the region finds them. -/
theorem flushed_eq (c : Dev nD) (t : Fin cfg3.N) :
    (dat3 V c).flushed 2 t = ((cfg3.win 2).blk t).view.read (Elt Ideal)
      (Cert.GcnSpec.project (F := Ideal) (V c main_v50) (V c main_arg7)) := by
  show (cfg3.win 2).cut (grid3.coords t) ((dat3 V c).after 2 t) = _
  rw [after3_2]
  unfold out3_2
  rw [View.canon_unit_zero hz2]
  simp only [View.ld_unit_zero (S := S10000x64) hz2, View.ld_unit_zero (S := S64x64) hz2]
  obtain ⟨i0, i1, i2, i3⟩ := in_idx t
  obtain ⟨o0, o1⟩ := out_idx t
  have ht : t.val < 10 := by have h := t.isLt; have hN : cfg3.N = 10 := N_3; omega
  funext y
  obtain ⟨p, q, rfl⟩ : ∃ (p : Fin 10000) (q : Fin 64), y = ix2 p q := ⟨y 0, y 1, eq_ix2 y⟩
  have hp := p.isLt
  have hr : t.val * 10000 + p.val < 100000 := by omega
  generalize hrdef : (⟨t.val * 10000 + p.val, hr⟩ : Fin 100000) = r
  have hrv : r.val = t.val * 10000 + p.val := by rw [← hrdef]
  show k3_pay1 (iblk3 V c 0 t) (iblk3 V c 1 t) (ix2 p q)
    = Cert.GcnSpec.project (F := Ideal) (V c main_v50) (V c main_arg7) (((cfg3.win 2).blk t).view.emb (ix2 p q))
  have hemb : ((cfg3.win 2).blk t).view.emb (ix2 p q) = ix2 r q := by
    funext ax; apply Fin.ext
    match ax with
    | ⟨0, _⟩ => show win3_2.index t (0 : Fin 2) * 10000 + 1 * p.val = r.val; omega
    | ⟨1, _⟩ => show win3_2.index t (1 : Fin 2) * 64 + 1 * q.val = q.val; omega
  rw [pay, hemb, Cert.GcnSpec.project_apply]
  unfold Cert.GcnSpec.dot
  have hx : ∀ k : Fin 64, iblk3 V c 0 t (ix2 p k) = V c main_v50 (ix2 r k) := by
    intro k
    have h0 : ((cfg3.win 0).blk t).view.emb (ix2 p k) = ix2 r k := by
      funext ax; apply Fin.ext
      match ax with
      | ⟨0, _⟩ => show win3_0.index t (0 : Fin 2) * 10000 + 1 * p.val = r.val; omega
      | ⟨1, _⟩ => show win3_0.index t (1 : Fin 2) * 64 + 1 * k.val = k.val; omega
    show V c main_v50 (((cfg3.win 0).blk t).view.emb (ix2 p k)) = _
    rw [h0]
  have hw : ∀ (k : Fin 64) (j : Fin 64), iblk3 V c 1 t (ix2 k j) = V c main_arg7 (ix2 k j) := by
    intro k j
    have h1 : ((cfg3.win 1).blk t).view.emb (ix2 k j) = ix2 k j := by
      funext ax; apply Fin.ext
      match ax with
      | ⟨0, _⟩ => show win3_1.index t (0 : Fin 2) * 64 + 1 * k.val = k.val; omega
      | ⟨1, _⟩ => show win3_1.index t (1 : Fin 2) * 64 + 1 * j.val = j.val; omega
    show V c main_arg7 (((cfg3.win 1).blk t).view.emb (ix2 k j)) = _
    rw [h1]
  simp only [hx, hw]

/-- An entry of the array lies in point `t`'s block iff each coordinate lies in the block's range on its axis. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v51).slice (win3_2.rect t)).set ↔ _
  rw [View.set_slice_whole, Rect.mem_set_unit]
  exact Iff.rfl

/-- The ten blocks of 10000 rows tile the array: row `i` lies in the block of point `i / 10000`. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : (i 0).val / 10000 < cfg3.N := by show (i 0).val / 10000 < grid3.N; rw [N_3]; omega
  obtain ⟨e0, e1⟩ := out_idx ⟨(i 0).val / 10000, hN⟩
  have e0' : win3_2.index ⟨(i 0).val / 10000, hN⟩ (0 : Fin 2) = (i 0).val / 10000 := e0
  refine ⟨⟨(i 0).val / 10000, hN⟩, flush3_2 _, ?_⟩
  rw [mem_blk]
  intro a
  match a with
  | ⟨0, _⟩ => show win3_2.index ⟨(i 0).val / 10000, hN⟩ (0 : Fin 2) * 10000 ≤ (i 0).val ∧ (i 0).val < win3_2.index ⟨(i 0).val / 10000, hN⟩ (0 : Fin 2) * 10000 + 10000; omega
  | ⟨1, _⟩ => show win3_2.index ⟨(i 0).val / 10000, hN⟩ (1 : Fin 2) * 64 ≤ (i 1).val ∧ (i 1).val < win3_2.index ⟨(i 0).val / 10000, hN⟩ (1 : Fin 2) * 64 + 64; omega

/-- The region's output array after its ten points: the stage's function of the arrays the region finds. -/
theorem final (c : Dev nD) : (dat3 V c).arrAt 2 cfg3.N = Cert.GcnSpec.project (F := Ideal) (V c main_v50) (V c main_arg7) :=
  (dat3 V c).arrAt_eq_of_cover 2 _ (fun t _ => flushed_eq V c t) cover

end Cert.GcnKernel.Region3

end
-- ==== Proof.Region4.lean ====
/-
  Region 4: a hidden layer's bias and relu, ten blocks of 10000 rows.

  At grid point `t` the body adds the bias, repeated down the rows, to rows `10000 t … 10000 t + 9999` of the aggregate and
  takes the maximum with zero, entry by entry, writing the result back as the same rows of the output. So the block is the
  restriction to those rows of `biasRelu` of the whole arrays, and the ten blocks tile the output.
-/
import proofs.«173225_j30374008717350_1_alg».proof.Proof.Gen.KernelIdeal.Frame
import proofs.«173225_j30374008717350_1_alg».proof.Proof.SpecReads
import proofs.«173225_j30374008717350_1_alg».proof.Proof.LibKernelRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GcnKernel.Region4

open Cert.KernelIdeal Cert.KernelIdeal.Gen
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value at `(p, q)`: `max (x (p, q) + b q) 0`. -/
theorem pay (x0 : Vec Ideal S10000x64 .f32) (x1 : Vec Ideal S64 .f32) (p : Fin 10000) (q : Fin 64) :
    k4_pay1 x0 x1 (ix2 p q) = max (x0 (ix2 p q) + x1 (ix1 q)) (Ideal.ofBits .f32 0x00000000#32) := by
  unfold k4_pay1
  show max (shapeCast S10000x64 x0 shapeCasts_S10000x64_S10000x64 (ix2 p q)
      + broadcastTo S10000x64 (shapeCast S1x64 (shapeCast S1x64 x1 shapeCasts_S64_S1x64) shapeCasts_S1x64_S1x64) broadcasts_S1x64_S10000x64 (ix2 p q))
    (Ideal.ofBits .f32 0x00000000#32) = _
  have e0 : shapeCast S10000x64 x0 shapeCasts_S10000x64_S10000x64 = x0 := shapeCast_self _ _
  have e1 := Cert.KernelRowBias.rowBias_apply (a := 10000) (b := 64) x1 shapeCasts_S64_S1x64 shapeCasts_S1x64_S1x64 broadcasts_S1x64_S10000x64 p q
  rw [e0, e1]

/-- The index maps over the grid: the row blocks move with the point, the bias is read whole. -/
theorem in_idx : ∀ t : Fin cfg4.N, win4_0.index t (0 : Fin 2) = t.val ∧ win4_0.index t (1 : Fin 2) = 0
    ∧ win4_1.index t (0 : Fin 1) = 0 :=
  (by decide +kernel : ∀ t : Fin grid4.N, _)
theorem out_idx : ∀ t : Fin cfg4.N, win4_2.index t (0 : Fin 2) = t.val ∧ win4_2.index t (1 : Fin 2) = 0 :=
  (by decide +kernel : ∀ t : Fin grid4.N, _)

/-- What point `t` writes back is block `t` of `biasRelu` of the arrays as the region finds them. -/
theorem flushed_eq (c : Dev nD) (t : Fin cfg4.N) :
    (dat4 V c).flushed 2 t = ((cfg4.win 2).blk t).view.read (Elt Ideal)
      (Cert.GcnSpec.biasRelu (F := Ideal) (V c main_v95) (V c main_arg8)) := by
  show (cfg4.win 2).cut (grid4.coords t) ((dat4 V c).after 2 t) = _
  rw [after4_2]
  unfold out4_2
  rw [View.canon_unit_zero hz2]
  simp only [View.ld_unit_zero (S := S10000x64) hz2, View.ld_unit_zero (S := S64) hz1]
  obtain ⟨i0, i1, i2⟩ := in_idx t
  obtain ⟨o0, o1⟩ := out_idx t
  have ht : t.val < 10 := by have h := t.isLt; have hN : cfg4.N = 10 := N_4; omega
  funext y
  obtain ⟨p, q, rfl⟩ : ∃ (p : Fin 10000) (q : Fin 64), y = ix2 p q := ⟨y 0, y 1, eq_ix2 y⟩
  have hp := p.isLt
  have hr : t.val * 10000 + p.val < 100000 := by omega
  generalize hrdef : (⟨t.val * 10000 + p.val, hr⟩ : Fin 100000) = r
  have hrv : r.val = t.val * 10000 + p.val := by rw [← hrdef]
  show k4_pay1 (iblk4 V c 0 t) (iblk4 V c 1 t) (ix2 p q)
    = Cert.GcnSpec.biasRelu (F := Ideal) (V c main_v95) (V c main_arg8) (((cfg4.win 2).blk t).view.emb (ix2 p q))
  have hemb : ((cfg4.win 2).blk t).view.emb (ix2 p q) = ix2 r q := by
    funext ax; apply Fin.ext
    match ax with
    | ⟨0, _⟩ => show win4_2.index t (0 : Fin 2) * 10000 + 1 * p.val = r.val; omega
    | ⟨1, _⟩ => show win4_2.index t (1 : Fin 2) * 64 + 1 * q.val = q.val; omega
  rw [pay, hemb, Cert.GcnSpec.biasRelu_apply]
  have hx : ∀ k : Fin 64, iblk4 V c 0 t (ix2 p k) = V c main_v95 (ix2 r k) := by
    intro k
    have h0 : ((cfg4.win 0).blk t).view.emb (ix2 p k) = ix2 r k := by
      funext ax; apply Fin.ext
      match ax with
      | ⟨0, _⟩ => show win4_0.index t (0 : Fin 2) * 10000 + 1 * p.val = r.val; omega
      | ⟨1, _⟩ => show win4_0.index t (1 : Fin 2) * 64 + 1 * k.val = k.val; omega
    show V c main_v95 (((cfg4.win 0).blk t).view.emb (ix2 p k)) = _
    rw [h0]
  have hb : ∀ j : Fin 64, iblk4 V c 1 t (ix1 j) = V c main_arg8 (ix1 j) := by
    intro j
    have h2 : ((cfg4.win 1).blk t).view.emb (ix1 j) = ix1 j := by
      funext ax; apply Fin.ext
      match ax with
      | ⟨0, _⟩ => show win4_1.index t (0 : Fin 1) * 64 + 1 * j.val = j.val; omega
    show V c main_arg8 (((cfg4.win 1).blk t).view.emb (ix1 j)) = _
    rw [h2]
  simp only [hx, hb]

/-- An entry of the array lies in point `t`'s block iff each coordinate lies in the block's range on its axis. -/
theorem mem_blk (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v96).slice (win4_2.rect t)).set ↔ _
  rw [View.set_slice_whole, Rect.mem_set_unit]
  exact Iff.rfl

/-- The ten blocks of 10000 rows tile the array: row `i` lies in the block of point `i / 10000`. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : (i 0).val / 10000 < cfg4.N := by show (i 0).val / 10000 < grid4.N; rw [N_4]; omega
  obtain ⟨e0, e1⟩ := out_idx ⟨(i 0).val / 10000, hN⟩
  have e0' : win4_2.index ⟨(i 0).val / 10000, hN⟩ (0 : Fin 2) = (i 0).val / 10000 := e0
  refine ⟨⟨(i 0).val / 10000, hN⟩, flush4_2 _, ?_⟩
  rw [mem_blk]
  intro a
  match a with
  | ⟨0, _⟩ => show win4_2.index ⟨(i 0).val / 10000, hN⟩ (0 : Fin 2) * 10000 ≤ (i 0).val ∧ (i 0).val < win4_2.index ⟨(i 0).val / 10000, hN⟩ (0 : Fin 2) * 10000 + 10000; omega
  | ⟨1, _⟩ => show win4_2.index ⟨(i 0).val / 10000, hN⟩ (1 : Fin 2) * 64 ≤ (i 1).val ∧ (i 1).val < win4_2.index ⟨(i 0).val / 10000, hN⟩ (1 : Fin 2) * 64 + 64; omega

/-- The region's output array after its ten points: the stage's function of the arrays the region finds. -/
theorem final (c : Dev nD) : (dat4 V c).arrAt 2 cfg4.N = Cert.GcnSpec.biasRelu (F := Ideal) (V c main_v95) (V c main_arg8) :=
  (dat4 V c).arrAt_eq_of_cover 2 _ (fun t _ => flushed_eq V c t) cover

end Cert.GcnKernel.Region4

end
-- ==== Proof.Region5.lean ====
/-
  Region 5: the output layer, ten blocks of 10000 rows.

  At grid point `t` the body multiplies rows `10000 t … 10000 t + 9999` of the `N × 64` hidden features by the whole `64 × 40` weight
  on the matrix unit, adds the bias repeated down the rows, and takes the logarithm of the softmax along each row: the logits minus
  their row maximum, minus the logarithm of the row sum of the exponentials of that difference. Each row of the result depends on
  that row of the features only, so the block is the restriction to those rows of `head` of the whole arrays, and the ten blocks tile
  the output.
-/
import proofs.«173225_j30374008717350_1_alg».proof.Proof.Gen.KernelIdeal.Frame
import proofs.«173225_j30374008717350_1_alg».proof.Proof.SpecReads
import proofs.«173225_j30374008717350_1_alg».proof.Proof.LibKernelRowBias
import proofs.«173225_j30374008717350_1_alg».proof.Proof.LibLogSoftmaxRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GcnKernel.Region5

open Cert.KernelIdeal Cert.KernelIdeal.Gen
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value at `(p, q)`: the row's log-softmax at `q`, the row's logits being `Σ_k x (p, k) · w (k, j) + b j`. -/
theorem pay (x0 : Vec Ideal S10000x64 .f32) (x1 : Vec Ideal S64x40 .f32) (x2 : Vec Ideal S40 .f32) (p : Fin 10000) (q : Fin 40) :
    k5_pay1 x0 x1 x2 (ix2 p q)
      = Cert.LogSoftmaxRows.logSoftmaxRow (fun j : Fin 40 => (∑ k : Fin 64, x0 (ix2 p k) * x1 (ix2 k j)) + x2 (ix1 j)) q := by
  unfold k5_pay1
  have hL : ∀ j : Fin 40, addf (matmul dot_S10000x64_S64x40_S10000x40_1_0_0_1_n_n none
        (truncf .bf16 (shapeCast S10000x64 x0 shapeCasts_S10000x64_S10000x64) bitsLt_bf16_f32) (truncf .bf16 x1 bitsLt_bf16_f32)
        (constant (F := Ideal) S10000x40 .f32 0x00000000#32))
      (broadcastTo S10000x40 (shapeCast S1x40 (shapeCast S1x40 x2 shapeCasts_S40_S1x40) shapeCasts_S1x40_S1x40) broadcasts_S1x40_S10000x40) (ix2 p j)
      = (∑ k : Fin 64, x0 (ix2 p k) * x1 (ix2 k j)) + x2 (ix1 j) := by
    intro j
    show matmul dot_S10000x64_S64x40_S10000x40_1_0_0_1_n_n none
        (truncf .bf16 (shapeCast S10000x64 x0 shapeCasts_S10000x64_S10000x64) bitsLt_bf16_f32) (truncf .bf16 x1 bitsLt_bf16_f32)
        (constant (F := Ideal) S10000x40 .f32 0x00000000#32) (ix2 p j)
      + broadcastTo S10000x40 (shapeCast S1x40 (shapeCast S1x40 x2 shapeCasts_S40_S1x40) shapeCasts_S1x40_S1x40) broadcasts_S1x40_S10000x40 (ix2 p j) = _
    have e0 : shapeCast S10000x64 x0 shapeCasts_S10000x64_S10000x64 = x0 := shapeCast_self _ _
    have e1 := Cert.RowColDot.matmul_rowcol (a := 10000) (n := 64) (b := 40) dot_S10000x64_S64x40_S10000x40_1_0_0_1_n_n rfl rfl rfl rfl
      (fun _ _ => rfl) (fun _ _ => rfl) none (truncf .bf16 x0 bitsLt_bf16_f32) (truncf .bf16 x1 bitsLt_bf16_f32) (ix2 p j)
    have e2 := Cert.KernelRowBias.rowBias_apply (a := 10000) (b := 40) x2 shapeCasts_S40_S1x40 shapeCasts_S1x40_S1x40 broadcasts_S1x40_S10000x40 p j
    rw [e0, e1, e2]
    rfl
  refine (Cert.LogSoftmaxRows.kernel_apply (a := 10000) (n := 40)
    (addf (matmul dot_S10000x64_S64x40_S10000x40_1_0_0_1_n_n none
        (truncf .bf16 (shapeCast S10000x64 x0 shapeCasts_S10000x64_S10000x64) bitsLt_bf16_f32) (truncf .bf16 x1 bitsLt_bf16_f32)
        (constant (F := Ideal) S10000x40 .f32 0x00000000#32))
      (broadcastTo S10000x40 (shapeCast S1x40 (shapeCast S1x40 x2 shapeCasts_S40_S1x40) shapeCasts_S1x40_S1x40) broadcasts_S1x40_S10000x40))
    reduces_S10000x40_S10000 (.inl rfl) rfl rfl shapeCasts_S10000_S10000x1 broadcasts_S10000x1_S10000x40 _ _ _ rfl rfl rfl p q).trans ?_
  exact congrArg (fun f => Cert.LogSoftmaxRows.logSoftmaxRow f q) (funext hL)

/-- The index maps over the grid: the row blocks move with the point, the weight and the bias are read whole. -/
theorem in_idx : ∀ t : Fin cfg5.N, win5_0.index t (0 : Fin 2) = t.val ∧ win5_0.index t (1 : Fin 2) = 0
    ∧ win5_1.index t (0 : Fin 2) = 0 ∧ win5_1.index t (1 : Fin 2) = 0 ∧ win5_2.index t (0 : Fin 1) = 0 :=
  (by decide +kernel : ∀ t : Fin grid5.N, _)
theorem out_idx : ∀ t : Fin cfg5.N, win5_3.index t (0 : Fin 2) = t.val ∧ win5_3.index t (1 : Fin 2) = 0 :=
  (by decide +kernel : ∀ t : Fin grid5.N, _)

/-- What point `t` writes back is block `t` of `head` of the arrays as the region finds them. -/
theorem flushed_eq (c : Dev nD) (t : Fin cfg5.N) :
    (dat5 V c).flushed 3 t = ((cfg5.win 3).blk t).view.read (Elt Ideal)
      (Cert.GcnSpec.head (F := Ideal) (V c main_v96) (V c main_arg9) (V c main_arg10)) := by
  show (cfg5.win 3).cut (grid5.coords t) ((dat5 V c).after 3 t) = _
  rw [after5_3]
  unfold out5_3
  rw [View.canon_unit_zero hz2]
  simp only [View.ld_unit_zero (S := S10000x64) hz2, View.ld_unit_zero (S := S64x40) hz2, View.ld_unit_zero (S := S40) hz1]
  obtain ⟨i0, i1, i2, i3, i4⟩ := in_idx t
  obtain ⟨o0, o1⟩ := out_idx t
  have ht : t.val < 10 := by have h := t.isLt; have hN : cfg5.N = 10 := N_5; omega
  funext y
  obtain ⟨p, q, rfl⟩ : ∃ (p : Fin 10000) (q : Fin 40), y = ix2 p q := ⟨y 0, y 1, eq_ix2 y⟩
  have hp := p.isLt
  have hr : t.val * 10000 + p.val < 100000 := by omega
  generalize hrdef : (⟨t.val * 10000 + p.val, hr⟩ : Fin 100000) = r
  have hrv : r.val = t.val * 10000 + p.val := by rw [← hrdef]
  show k5_pay1 (iblk5 V c 0 t) (iblk5 V c 1 t) (iblk5 V c 2 t) (ix2 p q)
    = Cert.GcnSpec.head (F := Ideal) (V c main_v96) (V c main_arg9) (V c main_arg10) (((cfg5.win 3).blk t).view.emb (ix2 p q))
  have hemb : ((cfg5.win 3).blk t).view.emb (ix2 p q) = ix2 r q := by
    funext ax; apply Fin.ext
    match ax with
    | ⟨0, _⟩ => show win5_3.index t (0 : Fin 2) * 10000 + 1 * p.val = r.val; omega
    | ⟨1, _⟩ => show win5_3.index t (1 : Fin 2) * 40 + 1 * q.val = q.val; omega
  rw [pay, hemb, Cert.GcnSpec.head_apply]
  have hx : ∀ k : Fin 64, iblk5 V c 0 t (ix2 p k) = V c main_v96 (ix2 r k) := by
    intro k
    have h0 : ((cfg5.win 0).blk t).view.emb (ix2 p k) = ix2 r k := by
      funext ax; apply Fin.ext
      match ax with
      | ⟨0, _⟩ => show win5_0.index t (0 : Fin 2) * 10000 + 1 * p.val = r.val; omega
      | ⟨1, _⟩ => show win5_0.index t (1 : Fin 2) * 64 + 1 * k.val = k.val; omega
    show V c main_v96 (((cfg5.win 0).blk t).view.emb (ix2 p k)) = _
    rw [h0]
  have hw : ∀ (k : Fin 64) (j : Fin 40), iblk5 V c 1 t (ix2 k j) = V c main_arg9 (ix2 k j) := by
    intro k j
    have h1 : ((cfg5.win 1).blk t).view.emb (ix2 k j) = ix2 k j := by
      funext ax; apply Fin.ext
      match ax with
      | ⟨0, _⟩ => show win5_1.index t (0 : Fin 2) * 64 + 1 * k.val = k.val; omega
      | ⟨1, _⟩ => show win5_1.index t (1 : Fin 2) * 40 + 1 * j.val = j.val; omega
    show V c main_arg9 (((cfg5.win 1).blk t).view.emb (ix2 k j)) = _
    rw [h1]
  have hb : ∀ j : Fin 40, iblk5 V c 2 t (ix1 j) = V c main_arg10 (ix1 j) := by
    intro j
    have h2 : ((cfg5.win 2).blk t).view.emb (ix1 j) = ix1 j := by
      funext ax; apply Fin.ext
      match ax with
      | ⟨0, _⟩ => show win5_2.index t (0 : Fin 1) * 40 + 1 * j.val = j.val; omega
    show V c main_arg10 (((cfg5.win 2).blk t).view.emb (ix1 j)) = _
    rw [h2]
  refine congrArg (fun f => Cert.LogSoftmaxRows.logSoftmaxRow f q) (funext fun j => ?_)
  unfold Cert.GcnSpec.logits Cert.GcnSpec.dot
  simp only [hx, hw, hb]

/-- An entry of the array lies in point `t`'s block iff each coordinate lies in the block's range on its axis. -/
theorem mem_blk (t : Fin cfg5.N) (i : S100000x40.Idx) :
    i ∈ ((cfg5.win 3).blk t).view.set ↔ ∀ a : Fin 2, win5_3.index t a * S10000x40.size a ≤ (i a).val ∧ (i a).val < win5_3.index t a * S10000x40.size a + S10000x40.size a := by
  show i ∈ ((View.whole main_v97).slice (win5_3.rect t)).set ↔ _
  rw [View.set_slice_whole, Rect.mem_set_unit]
  exact Iff.rfl

/-- The ten blocks of 10000 rows tile the array: row `i` lies in the block of point `i / 10000`. -/
theorem cover (i : S100000x40.Idx) : ∃ t : Fin cfg5.N, (cfg5.win 3).flush t = true ∧ i ∈ ((cfg5.win 3).blk t).view.set := by
  have hi0 : (i 0).val < 100000 := (i 0).isLt
  have hi1 : (i 1).val < 40 := (i 1).isLt
  have hN : (i 0).val / 10000 < cfg5.N := by show (i 0).val / 10000 < grid5.N; rw [N_5]; omega
  obtain ⟨e0, e1⟩ := out_idx ⟨(i 0).val / 10000, hN⟩
  have e0' : win5_3.index ⟨(i 0).val / 10000, hN⟩ (0 : Fin 2) = (i 0).val / 10000 := e0
  refine ⟨⟨(i 0).val / 10000, hN⟩, flush5_3 _, ?_⟩
  rw [mem_blk]
  intro a
  match a with
  | ⟨0, _⟩ => show win5_3.index ⟨(i 0).val / 10000, hN⟩ (0 : Fin 2) * 10000 ≤ (i 0).val ∧ (i 0).val < win5_3.index ⟨(i 0).val / 10000, hN⟩ (0 : Fin 2) * 10000 + 10000; omega
  | ⟨1, _⟩ => show win5_3.index ⟨(i 0).val / 10000, hN⟩ (1 : Fin 2) * 40 ≤ (i 1).val ∧ (i 1).val < win5_3.index ⟨(i 0).val / 10000, hN⟩ (1 : Fin 2) * 40 + 40; omega

/-- The region's output array after its ten points: the stage's function of the arrays the region finds. -/
theorem final (c : Dev nD) : (dat5 V c).arrAt 3 cfg5.N = Cert.GcnSpec.head (F := Ideal) (V c main_v96) (V c main_arg9) (V c main_arg10) :=
  (dat5 V c).arrAt_eq_of_cover 3 _ (fun t _ => flushed_eq V c t) cover

end Cert.GcnKernel.Region5

end
-- ==== Proof.KernelValue.lean ====
/-
  The kernel program's result array is the network's function of the argument arrays.

  Read back through the fold of boundary contents: the last region leaves the output layer's function of the arrays it finds;
  the bias regions, the linear-map regions and the input region each leave their stage's function of theirs; the two stretches of
  host operations leave the aggregation; and every weight, bias and edge array reaches the stage that reads it as launched, the two
  rows of the edge index as the opening host operations computed them. Composed, the result buffer ends at `total`.
-/
import proofs.«173225_j30374008717350_1_alg».proof.Proof.KernelRun
import proofs.«173225_j30374008717350_1_alg».proof.Proof.Kept
import proofs.«173225_j30374008717350_1_alg».proof.Proof.Stretch
import proofs.«173225_j30374008717350_1_alg».proof.Proof.Region0
import proofs.«173225_j30374008717350_1_alg».proof.Proof.Region1
import proofs.«173225_j30374008717350_1_alg».proof.Proof.Region2
import proofs.«173225_j30374008717350_1_alg».proof.Proof.Region3
import proofs.«173225_j30374008717350_1_alg».proof.Proof.Region4
import proofs.«173225_j30374008717350_1_alg».proof.Proof.Region5

set_option maxRecDepth 16384

noncomputable section

namespace Cert.GcnKernel

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

set_option maxHeartbeats 2000000 in
/-- The result buffer at the end of the fold is `total` of the launch arrays. -/
theorem value (c : Dev nD) : W17 m ρ c (Proc.devRef .tc main_v97)
    = Cert.GcnSpec.total (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  have r5 : W17 m ρ c (Proc.devRef .tc main_v97) = Cert.GcnSpec.head (F := Ideal) (W16 m ρ c (Proc.devRef .tc main_v96)) (W16 m ρ c (Proc.devRef .tc main_arg9)) (W16 m ρ c (Proc.devRef .tc main_arg10)) :=
    (W17_arr m ρ c 3).trans (Region5.final (V16 m ρ) c)
  have r4 : W16 m ρ c (Proc.devRef .tc main_v96) = Cert.GcnSpec.biasRelu (F := Ideal) (W15 m ρ c (Proc.devRef .tc main_v95)) (W15 m ρ c (Proc.devRef .tc main_arg8)) :=
    (W16_arr m ρ c 2).trans (Region4.final (V15 m ρ) c)
  have r3 : W10 m ρ c (Proc.devRef .tc main_v51) = Cert.GcnSpec.project (F := Ideal) (W9 m ρ c (Proc.devRef .tc main_v50)) (W9 m ρ c (Proc.devRef .tc main_arg7)) :=
    (W10_arr m ρ c 2).trans (Region3.final (V9 m ρ) c)
  have r2 : W9 m ρ c (Proc.devRef .tc main_v50) = Cert.GcnSpec.biasRelu (F := Ideal) (W8 m ρ c (Proc.devRef .tc main_v49)) (W8 m ρ c (Proc.devRef .tc main_arg6)) :=
    (W9_arr m ρ c 2).trans (Region2.final (V8 m ρ) c)
  have r1 : W3 m ρ c (Proc.devRef .tc main_v5) = Cert.GcnSpec.project (F := Ideal) (W2 m ρ c (Proc.devRef .tc main_v4)) (W2 m ρ c (Proc.devRef .tc main_arg5)) :=
    (W3_arr m ρ c 2).trans (Region1.final (V2 m ρ) c)
  have r0 : W2 m ρ c (Proc.devRef .tc main_v4) = Cert.GcnSpec.firstLayer (F := Ideal) (W1 m ρ c (Proc.devRef .tc main_arg0)) (W1 m ρ c (Proc.devRef .tc main_arg3)) (W1 m ρ c (Proc.devRef .tc main_arg4)) :=
    (W2_arr m ρ c 3).trans (Region0.final (V1 m ρ) c)
  rw [r5, r4, Stretch.second m ρ c, r3, r2, Stretch.first m ρ c, r1, r0]
  rw [Kept.W16_arg9 m ρ c, Kept.W16_arg10 m ρ c, Kept.W15_arg8 m ρ c, Kept.W10_arg2 m ρ c, Kept.W10_v1 m ρ c, Kept.W10_v3 m ρ c,
    Kept.W9_arg7 m ρ c, Kept.W8_arg6 m ρ c, Kept.W3_arg2 m ρ c, Kept.W3_v1 m ρ c, Kept.W3_v3 m ρ c, Kept.W2_arg5 m ρ c,
    Kept.W1_arg0 m ρ c, Kept.W1_arg3 m ρ c, Kept.W1_arg4 m ρ c, (Stretch.rows m ρ c).1, (Stretch.rows m ρ c).2]
  rfl

end Cert.GcnKernel

end
-- ==== Proof.RefRun.lean ====
/-
  The reference program's run, read stage by stage.

  The reference is one straight line of 166 host operations. Cut at the stages of the network — the two rows of the edge
  index; the input layer; a hidden layer's linear map, its aggregation and its bias step, twice; the output layer in five steps
  (logits, row maximum, shift, sum of exponentials, the final difference) — the buffer contents after each stage are a fold from
  the launch contents. Each stage's result buffer holds the stage's function of the buffers the stage reads; a buffer no
  operation of the stages in between writes reaches its reader unchanged. So the result buffer ends at `total` of the argument
  arrays, every argument ends as launched, and every weakly fair execution of the program terminates in such a state.
-/
import proofs.«173225_j30374008717350_1_alg».proof.Proof.RefRunPatched
import proofs.«173225_j30374008717350_1_alg».proof.Proof.Spec
import Idealize.ShloMosaic.Lib.StableHlo.Run

set_option maxRecDepth 16384

noncomputable section

namespace Cert.GcnRef

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- Operations run one list after another are their concatenation run as one. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Contents carried to a typed reference's buffer and back are unchanged. -/
theorem ofBuf_toBuf {T : BufTy} (x : TRef sig T) (v : T.Contents (Elt F)) : x.ofBuf (x.toBuf v) = v := by
  obtain ⟨r, h, a, b⟩ := x
  subst h
  rfl

/-- Stage 0's operations. -/
abbrev seg0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

/-- Stage 1's operations. -/
abbrev seg1 : List (HloOp τ sig (Elt F)) :=
  [ binary main_arg0 main_arg3 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg4 main_v5 (broadcastInDim S1x64 ![1] bcast_S64_S1x64_1 : (⟨S64, .f32⟩ : BufTy).Contents (Elt F) → (⟨S1x64, .f32⟩ : BufTy).Contents (Elt F)),
    unary main_v5 main_v6 (broadcastInDim S100000x64 ![0, 1] bcast_S1x64_S100000x64_0_1 : (⟨S1x64, .f32⟩ : BufTy).Contents (Elt F) → (⟨S100000x64, .f32⟩ : BufTy).Contents (Elt F)),
    binary main_v4 main_v6 main_v7 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v7) (TRef.of (T := ⟨S100000x64, .f32⟩) main_call0_v0) (TRef.of (T := ⟨S100000x64, .f32⟩) main_v8) maximumf ]

/-- Stage 2's operations. -/
abbrev seg2 : List (HloOp τ sig (Elt F)) :=
  [ binary main_v8 main_arg5 main_v9 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Stage 3's operations. -/
abbrev seg3 : List (HloOp τ sig (Elt F)) :=
  [ nullary main_v10 (iotaInDim S100000 32 0),
    binary main_v1 main_v10 main_v11 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v10 main_v12 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v13 (broadcastInDim S100000 ![] bcast_S_S100000 : (⟨S_, .f32⟩ : BufTy).Contents (Elt F) → (⟨S100000, .f32⟩ : BufTy).Contents (Elt F)),
    binary main_arg2 main_v13 main_v14 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_0 (constant S_ .f32 0x00000000#32),
    unary main_cst_0 main_v15 (broadcastInDim S100000 ![] bcast_S_S100000 : (⟨S_, .f32⟩ : BufTy).Contents (Elt F) → (⟨S100000, .f32⟩ : BufTy).Contents (Elt F)),
    unary main_v12 main_v16 (broadcastInDim S1700000x1 ![0] bcast_S1700000_S1700000x1_0 : (⟨S1700000, .i32⟩ : BufTy).Contents (Elt F) → (⟨S1700000x1, .i32⟩ : BufTy).Contents (Elt F)),
    ternary main_v15 main_v16 main_v14 main_v17 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v18 (broadcastInDim S100000 ![] bcast_S_S100000 : (⟨S_, .f32⟩ : BufTy).Contents (Elt F) → (⟨S100000, .f32⟩ : BufTy).Contents (Elt F)),
    binary main_v17 main_v18 main_v19 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x00000000#32),
    unary main_cst_2 main_v20 (broadcastInDim S100000 ![] bcast_S_S100000 : (⟨S_, .f32⟩ : BufTy).Contents (Elt F) → (⟨S100000, .f32⟩ : BufTy).Contents (Elt F)),
    binary main_v17 main_v20 main_v21 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x3F800000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v21) (TRef.of (T := ⟨S100000, .f32⟩) main_v17) (TRef.of (T := ⟨S100000, .f32⟩) main_call1_v1) (TRef.of (T := ⟨S100000, .f32⟩) main_v22) select,
    unary main_v22 main_v23 (Host.rsqrt : (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v19) (TRef.of (T := ⟨S100000, .f32⟩) main_v23) (TRef.of (T := ⟨S100000, .f32⟩) main_call2_v1) (TRef.of (T := ⟨S100000, .f32⟩) main_v24) select,
    nullary main_c (constantI S_ 32 0#32),
    unary main_c main_v25 (broadcastInDim S1700000 ![] bcast_S_S1700000 : (⟨S_, .i32⟩ : BufTy).Contents (Elt F) → (⟨S1700000, .i32⟩ : BufTy).Contents (Elt F)),
    binary main_v11 main_v25 main_v26 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v27 (broadcastInDim S1700000 ![] bcast_S_S1700000 : (⟨S_, .i32⟩ : BufTy).Contents (Elt F) → (⟨S1700000, .i32⟩ : BufTy).Contents (Elt F)),
    binary main_v11 main_v27 main_v28 (addi : (⟨S1700000, .i32⟩ : BufTy).Contents (Elt F) → (⟨S1700000, .i32⟩ : BufTy).Contents (Elt F) → (⟨S1700000, .i32⟩ : BufTy).Contents (Elt F)),
    ternary main_v26 main_v28 main_v11 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v29 main_v30 (broadcastInDim S1700000x1 ![0] bcast_S1700000_S1700000x1_0 : (⟨S1700000, .i32⟩ : BufTy).Contents (Elt F) → (⟨S1700000x1, .i32⟩ : BufTy).Contents (Elt F)),
    binary main_v24 main_v30 main_v31 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v31 main_v14 main_v32 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v33 (broadcastInDim S1700000 ![] bcast_S_S1700000 : (⟨S_, .i32⟩ : BufTy).Contents (Elt F) → (⟨S1700000, .i32⟩ : BufTy).Contents (Elt F)),
    binary main_v12 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v35 (broadcastInDim S1700000 ![] bcast_S_S1700000 : (⟨S_, .i32⟩ : BufTy).Contents (Elt F) → (⟨S1700000, .i32⟩ : BufTy).Contents (Elt F)),
    binary main_v12 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v12 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v24 main_v38 main_v39 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v32 main_v39 main_v40 (mulf : (⟨S1700000, .f32⟩ : BufTy).Contents (Elt F) → (⟨S1700000, .f32⟩ : BufTy).Contents (Elt F) → (⟨S1700000, .f32⟩ : BufTy).Contents (Elt F)),
    unary main_v40 main_v41 (broadcastInDim S1700000x1 ![0] bcast_S1700000_S1700000x1_0 : (⟨S1700000, .f32⟩ : BufTy).Contents (Elt F) → (⟨S1700000x1, .f32⟩ : BufTy).Contents (Elt F)),
    nullary main_c_8 (constantI S_ 32 0#32),
    unary main_c_8 main_v42 (broadcastInDim S1700000 ![] bcast_S_S1700000 : (⟨S_, .i32⟩ : BufTy).Contents (Elt F) → (⟨S1700000, .i32⟩ : BufTy).Contents (Elt F)),
    binary main_v11 main_v42 main_v43 (cmpi .slt : (⟨S1700000, .i32⟩ : BufTy).Contents (Elt F) → (⟨S1700000, .i32⟩ : BufTy).Contents (Elt F) → (⟨S1700000, .i1⟩ : BufTy).Contents (Elt F)),
    nullary main_c_9 (constantI S_ 32 100000#32),
    unary main_c_9 main_v44 (broadcastInDim S1700000 ![] bcast_S_S1700000 : (⟨S_, .i32⟩ : BufTy).Contents (Elt F) → (⟨S1700000, .i32⟩ : BufTy).Contents (Elt F)),
    binary main_v11 main_v44 main_v45 (addi : (⟨S1700000, .i32⟩ : BufTy).Contents (Elt F) → (⟨S1700000, .i32⟩ : BufTy).Contents (Elt F) → (⟨S1700000, .i32⟩ : BufTy).Contents (Elt F)),
    ternary main_v43 main_v45 main_v11 main_v46 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v46 main_v47 (broadcastInDim S1700000x1 ![0] bcast_S1700000_S1700000x1_0 : (⟨S1700000, .i32⟩ : BufTy).Contents (Elt F) → (⟨S1700000x1, .i32⟩ : BufTy).Contents (Elt F)),
    binary main_v9 main_v47 main_v48 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v41 main_v49 (broadcastInDim S1700000x64 ![0, 1] bcast_S1700000x1_S1700000x64_0_1 : (⟨S1700000x1, .f32⟩ : BufTy).Contents (Elt F) → (⟨S1700000x64, .f32⟩ : BufTy).Contents (Elt F)),
    binary main_v49 main_v48 main_v50 (mulf : (⟨S1700000x64, .f32⟩ : BufTy).Contents (Elt F) → (⟨S1700000x64, .f32⟩ : BufTy).Contents (Elt F) → (⟨S1700000x64, .f32⟩ : BufTy).Contents (Elt F)),
    nullary main_cst_10 (constant S_ .f32 0x00000000#32),
    unary main_cst_10 main_v51 (broadcastInDim S100000x64 ![] bcast_S_S100000x64 : (⟨S_, .f32⟩ : BufTy).Contents (Elt F) → (⟨S100000x64, .f32⟩ : BufTy).Contents (Elt F)),
    unary main_v12 main_v52 (broadcastInDim S1700000x1 ![0] bcast_S1700000_S1700000x1_0 : (⟨S1700000, .i32⟩ : BufTy).Contents (Elt F) → (⟨S1700000x1, .i32⟩ : BufTy).Contents (Elt F)),
    ternary main_v51 main_v52 main_v50 main_v53 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Stage 4's operations. -/
abbrev seg4 : List (HloOp τ sig (Elt F)) :=
  [ unary main_arg6 main_v54 (broadcastInDim S1x64 ![1] bcast_S64_S1x64_1 : (⟨S64, .f32⟩ : BufTy).Contents (Elt F) → (⟨S1x64, .f32⟩ : BufTy).Contents (Elt F)),
    unary main_v54 main_v55 (broadcastInDim S100000x64 ![0, 1] bcast_S1x64_S100000x64_0_1 : (⟨S1x64, .f32⟩ : BufTy).Contents (Elt F) → (⟨S100000x64, .f32⟩ : BufTy).Contents (Elt F)),
    binary main_v53 main_v55 main_v56 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v56) (TRef.of (T := ⟨S100000x64, .f32⟩) main_call3_v0) (TRef.of (T := ⟨S100000x64, .f32⟩) main_v57) maximumf ]

/-- Stage 5's operations. -/
abbrev seg5 : List (HloOp τ sig (Elt F)) :=
  [ binary main_v57 main_arg7 main_v58 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Stage 6's operations. -/
abbrev seg6 : List (HloOp τ sig (Elt F)) :=
  [ nullary main_v59 (iotaInDim S100000 32 0),
    binary main_v1 main_v59 main_v60 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v59 main_v61 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_11 (constant S_ .f32 0x3F800000#32),
    unary main_cst_11 main_v62 (broadcastInDim S100000 ![] bcast_S_S100000 : (⟨S_, .f32⟩ : BufTy).Contents (Elt F) → (⟨S100000, .f32⟩ : BufTy).Contents (Elt F)),
    binary main_arg2 main_v62 main_v63 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_12 (constant S_ .f32 0x00000000#32),
    unary main_cst_12 main_v64 (broadcastInDim S100000 ![] bcast_S_S100000 : (⟨S_, .f32⟩ : BufTy).Contents (Elt F) → (⟨S100000, .f32⟩ : BufTy).Contents (Elt F)),
    unary main_v61 main_v65 (broadcastInDim S1700000x1 ![0] bcast_S1700000_S1700000x1_0 : (⟨S1700000, .i32⟩ : BufTy).Contents (Elt F) → (⟨S1700000x1, .i32⟩ : BufTy).Contents (Elt F)),
    ternary main_v64 main_v65 main_v63 main_v66 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_13 (constant S_ .f32 0x00000000#32),
    unary main_cst_13 main_v67 (broadcastInDim S100000 ![] bcast_S_S100000 : (⟨S_, .f32⟩ : BufTy).Contents (Elt F) → (⟨S100000, .f32⟩ : BufTy).Contents (Elt F)),
    binary main_v66 main_v67 main_v68 (cmpf .ogt : (⟨S100000, .f32⟩ : BufTy).Contents (Elt F) → (⟨S100000, .f32⟩ : BufTy).Contents (Elt F) → (⟨S100000, .i1⟩ : BufTy).Contents (Elt F)),
    nullary main_cst_14 (constant S_ .f32 0x00000000#32),
    unary main_cst_14 main_v69 (broadcastInDim S100000 ![] bcast_S_S100000 : (⟨S_, .f32⟩ : BufTy).Contents (Elt F) → (⟨S100000, .f32⟩ : BufTy).Contents (Elt F)),
    binary main_v66 main_v69 main_v70 (cmpf .ogt : (⟨S100000, .f32⟩ : BufTy).Contents (Elt F) → (⟨S100000, .f32⟩ : BufTy).Contents (Elt F) → (⟨S100000, .i1⟩ : BufTy).Contents (Elt F)),
    nullary main_cst_15 (constant S_ .f32 0x3F800000#32),
    TRef.unary (TRef.of (T := ⟨S_, .f32⟩) main_cst_15) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v70) (TRef.of (T := ⟨S100000, .f32⟩) main_v66) (TRef.of (T := ⟨S100000, .f32⟩) main_call4_v1) (TRef.of (T := ⟨S100000, .f32⟩) main_v71) select,
    unary main_v71 main_v72 (Host.rsqrt : (⟨S100000, .f32⟩ : BufTy).Contents (Elt F) → (⟨S100000, .f32⟩ : BufTy).Contents (Elt F)),
    nullary main_cst_16 (constant S_ .f32 0x00000000#32),
    TRef.unary (TRef.of (T := ⟨S_, .f32⟩) main_cst_16) (TRef.of (T := ⟨S_, .f32⟩) main_call5_v0) id,
    TRef.unary (TRef.of (T := ⟨S_, .f32⟩) main_call5_v0) (TRef.of (T := ⟨S100000, .f32⟩) main_call5_v1) (broadcastInDim S100000 ![] bcast_S_S100000),
    TRef.ternary (TRef.of (T := ⟨S100000, .i1⟩) main_v68) (TRef.of (T := ⟨S100000, .f32⟩) main_v72) (TRef.of (T := ⟨S100000, .f32⟩) main_call5_v1) (TRef.of (T := ⟨S100000, .f32⟩) main_v73) select,
    nullary main_c_17 (constantI S_ 32 0#32),
    unary main_c_17 main_v74 (broadcastInDim S1700000 ![] bcast_S_S1700000 : (⟨S_, .i32⟩ : BufTy).Contents (Elt F) → (⟨S1700000, .i32⟩ : BufTy).Contents (Elt F)),
    binary main_v60 main_v74 main_v75 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v76 (broadcastInDim S1700000 ![] bcast_S_S1700000 : (⟨S_, .i32⟩ : BufTy).Contents (Elt F) → (⟨S1700000, .i32⟩ : BufTy).Contents (Elt F)),
    binary main_v60 main_v76 main_v77 (addi : (⟨S1700000, .i32⟩ : BufTy).Contents (Elt F) → (⟨S1700000, .i32⟩ : BufTy).Contents (Elt F) → (⟨S1700000, .i32⟩ : BufTy).Contents (Elt F)),
    ternary main_v75 main_v77 main_v60 main_v78 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v78 main_v79 (broadcastInDim S1700000x1 ![0] bcast_S1700000_S1700000x1_0 : (⟨S1700000, .i32⟩ : BufTy).Contents (Elt F) → (⟨S1700000x1, .i32⟩ : BufTy).Contents (Elt F)),
    binary main_v73 main_v79 main_v80 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v80 main_v63 main_v81 (mulf : (⟨S1700000, .f32⟩ : BufTy).Contents (Elt F) → (⟨S1700000, .f32⟩ : BufTy).Contents (Elt F) → (⟨S1700000, .f32⟩ : BufTy).Contents (Elt F)),
    nullary main_c_19 (constantI S_ 32 0#32),
    unary main_c_19 main_v82 (broadcastInDim S1700000 ![] bcast_S_S1700000 : (⟨S_, .i32⟩ : BufTy).Contents (Elt F) → (⟨S1700000, .i32⟩ : BufTy).Contents (Elt F)),
    binary main_v61 main_v82 main_v83 (cmpi .slt : (⟨S1700000, .i32⟩ : BufTy).Contents (Elt F) → (⟨S1700000, .i32⟩ : BufTy).Contents (Elt F) → (⟨S1700000, .i1⟩ : BufTy).Contents (Elt F)),
    nullary main_c_20 (constantI S_ 32 100000#32),
    unary main_c_20 main_v84 (broadcastInDim S1700000 ![] bcast_S_S1700000 : (⟨S_, .i32⟩ : BufTy).Contents (Elt F) → (⟨S1700000, .i32⟩ : BufTy).Contents (Elt F)),
    binary main_v61 main_v84 main_v85 (addi : (⟨S1700000, .i32⟩ : BufTy).Contents (Elt F) → (⟨S1700000, .i32⟩ : BufTy).Contents (Elt F) → (⟨S1700000, .i32⟩ : BufTy).Contents (Elt F)),
    ternary main_v83 main_v85 main_v61 main_v86 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v86 main_v87 (broadcastInDim S1700000x1 ![0] bcast_S1700000_S1700000x1_0 : (⟨S1700000, .i32⟩ : BufTy).Contents (Elt F) → (⟨S1700000x1, .i32⟩ : BufTy).Contents (Elt F)),
    binary main_v73 main_v87 main_v88 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v81 main_v88 main_v89 (mulf : (⟨S1700000, .f32⟩ : BufTy).Contents (Elt F) → (⟨S1700000, .f32⟩ : BufTy).Contents (Elt F) → (⟨S1700000, .f32⟩ : BufTy).Contents (Elt F)),
    unary main_v89 main_v90 (broadcastInDim S1700000x1 ![0] bcast_S1700000_S1700000x1_0 : (⟨S1700000, .f32⟩ : BufTy).Contents (Elt F) → (⟨S1700000x1, .f32⟩ : BufTy).Contents (Elt F)),
    nullary main_c_21 (constantI S_ 32 0#32),
    unary main_c_21 main_v91 (broadcastInDim S1700000 ![] bcast_S_S1700000 : (⟨S_, .i32⟩ : BufTy).Contents (Elt F) → (⟨S1700000, .i32⟩ : BufTy).Contents (Elt F)),
    binary main_v60 main_v91 main_v92 (cmpi .slt : (⟨S1700000, .i32⟩ : BufTy).Contents (Elt F) → (⟨S1700000, .i32⟩ : BufTy).Contents (Elt F) → (⟨S1700000, .i1⟩ : BufTy).Contents (Elt F)),
    nullary main_c_22 (constantI S_ 32 100000#32),
    unary main_c_22 main_v93 (broadcastInDim S1700000 ![] bcast_S_S1700000 : (⟨S_, .i32⟩ : BufTy).Contents (Elt F) → (⟨S1700000, .i32⟩ : BufTy).Contents (Elt F)),
    binary main_v60 main_v93 main_v94 (addi : (⟨S1700000, .i32⟩ : BufTy).Contents (Elt F) → (⟨S1700000, .i32⟩ : BufTy).Contents (Elt F) → (⟨S1700000, .i32⟩ : BufTy).Contents (Elt F)),
    ternary main_v92 main_v94 main_v60 main_v95 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v95 main_v96 (broadcastInDim S1700000x1 ![0] bcast_S1700000_S1700000x1_0 : (⟨S1700000, .i32⟩ : BufTy).Contents (Elt F) → (⟨S1700000x1, .i32⟩ : BufTy).Contents (Elt F)),
    binary main_v58 main_v96 main_v97 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v90 main_v98 (broadcastInDim S1700000x64 ![0, 1] bcast_S1700000x1_S1700000x64_0_1 : (⟨S1700000x1, .f32⟩ : BufTy).Contents (Elt F) → (⟨S1700000x64, .f32⟩ : BufTy).Contents (Elt F)),
    binary main_v98 main_v97 main_v99 (mulf : (⟨S1700000x64, .f32⟩ : BufTy).Contents (Elt F) → (⟨S1700000x64, .f32⟩ : BufTy).Contents (Elt F) → (⟨S1700000x64, .f32⟩ : BufTy).Contents (Elt F)),
    nullary main_cst_23 (constant S_ .f32 0x00000000#32),
    unary main_cst_23 main_v100 (broadcastInDim S100000x64 ![] bcast_S_S100000x64 : (⟨S_, .f32⟩ : BufTy).Contents (Elt F) → (⟨S100000x64, .f32⟩ : BufTy).Contents (Elt F)),
    unary main_v61 main_v101 (broadcastInDim S1700000x1 ![0] bcast_S1700000_S1700000x1_0 : (⟨S1700000, .i32⟩ : BufTy).Contents (Elt F) → (⟨S1700000x1, .i32⟩ : BufTy).Contents (Elt F)),
    ternary main_v100 main_v101 main_v99 main_v102 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Stage 7's operations. -/
abbrev seg7 : List (HloOp τ sig (Elt F)) :=
  [ unary main_arg8 main_v103 (broadcastInDim S1x64 ![1] bcast_S64_S1x64_1 : (⟨S64, .f32⟩ : BufTy).Contents (Elt F) → (⟨S1x64, .f32⟩ : BufTy).Contents (Elt F)),
    unary main_v103 main_v104 (broadcastInDim S100000x64 ![0, 1] bcast_S1x64_S100000x64_0_1 : (⟨S1x64, .f32⟩ : BufTy).Contents (Elt F) → (⟨S100000x64, .f32⟩ : BufTy).Contents (Elt F)),
    binary main_v102 main_v104 main_v105 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x64, .f32⟩) main_call6_v0) (broadcastInDim S100000x64 ![] bcast_S_S100000x64),
    TRef.binary (TRef.of (T := ⟨S100000x64, .f32⟩) main_v105) (TRef.of (T := ⟨S100000x64, .f32⟩) main_call6_v0) (TRef.of (T := ⟨S100000x64, .f32⟩) main_v106) maximumf ]

/-- Stage 8's operations. -/
abbrev seg8 : List (HloOp τ sig (Elt F)) :=
  [ binary main_v106 main_arg9 main_v107 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg10 main_v108 (broadcastInDim S1x40 ![1] bcast_S40_S1x40_1 : (⟨S40, .f32⟩ : BufTy).Contents (Elt F) → (⟨S1x40, .f32⟩ : BufTy).Contents (Elt F)),
    unary main_v108 main_v109 (broadcastInDim S100000x40 ![0, 1] bcast_S1x40_S100000x40_0_1 : (⟨S1x40, .f32⟩ : BufTy).Contents (Elt F) → (⟨S100000x40, .f32⟩ : BufTy).Contents (Elt F)),
    binary main_v107 main_v109 main_v110 (addf : (⟨S100000x40, .f32⟩ : BufTy).Contents (Elt F) → (⟨S100000x40, .f32⟩ : BufTy).Contents (Elt F) → (⟨S100000x40, .f32⟩ : BufTy).Contents (Elt F)) ]

/-- Stage 9's operations. -/
abbrev seg9 : List (HloOp τ sig (Elt F)) :=
  [ TRef.nullary (TRef.of (T := ⟨S_, .f32⟩) main_call7_cst) (constant S_ .f32 0xFF800000#32),
    TRef.binary (TRef.of (T := ⟨S100000x40, .f32⟩) main_v110) (TRef.of (T := ⟨S_, .f32⟩) main_call7_cst) (TRef.of (T := ⟨S100000, .f32⟩) main_call7_v0) (fun x v => Host.reduce FloatOps.maximumf x v reducesTo_S100000x40_S100000_d1 h_S_),
    TRef.nullary (TRef.of (T := ⟨S_, .f32⟩) main_call7_cst_0) (constant S_ .f32 0xFF800000#32),
    TRef.unary (TRef.of (T := ⟨S_, .f32⟩) main_call7_cst_0) (TRef.of (T := ⟨S100000, .f32⟩) main_call7_v1) (broadcastInDim S100000 ![] bcast_S_S100000),
    TRef.binary (TRef.of (T := ⟨S100000, .f32⟩) main_call7_v1) (TRef.of (T := ⟨S100000, .f32⟩) main_call7_v0) (TRef.of (T := ⟨S100000, .f32⟩) main_call7_v2) maximumf ]

/-- Stage 10's operations. -/
abbrev seg10 : List (HloOp τ sig (Elt F)) :=
  [ TRef.unary (TRef.of (T := ⟨S100000, .f32⟩) main_call7_v2) (TRef.of (T := ⟨S100000x1, .f32⟩) main_call7_v3) (broadcastInDim S100000x1 ![0] bcast_S100000_S100000x1_0),
    TRef.unary (TRef.of (T := ⟨S100000x1, .f32⟩) main_call7_v3) (TRef.of (T := ⟨S100000x40, .f32⟩) main_call7_v4) (broadcastInDim S100000x40 ![0, 1] bcast_S100000x1_S100000x40_0_1),
    TRef.binary (TRef.of (T := ⟨S100000x40, .f32⟩) main_v110) (TRef.of (T := ⟨S100000x40, .f32⟩) main_call7_v4) (TRef.of (T := ⟨S100000x40, .f32⟩) main_call7_v5) subf ]

/-- Stage 11's operations. -/
abbrev seg11 : List (HloOp τ sig (Elt F)) :=
  [ TRef.unary (TRef.of (T := ⟨S100000x40, .f32⟩) main_call7_v5) (TRef.of (T := ⟨S100000x40, .f32⟩) main_call7_v6) Host.exp,
    TRef.nullary (TRef.of (T := ⟨S_, .f32⟩) main_call7_cst_1) (constant S_ .f32 0x00000000#32),
    TRef.binary (TRef.of (T := ⟨S100000x40, .f32⟩) main_call7_v6) (TRef.of (T := ⟨S_, .f32⟩) main_call7_cst_1) (TRef.of (T := ⟨S100000, .f32⟩) main_call7_v7) (fun x v => Host.reduceAdd x v reducesTo_S100000x40_S100000_d1 h_S_) ]

/-- Stage 12's operations. -/
abbrev seg12 : List (HloOp τ sig (Elt F)) :=
  [ TRef.unary (TRef.of (T := ⟨S100000, .f32⟩) main_call7_v7) (TRef.of (T := ⟨S100000x1, .f32⟩) main_call7_v8) (broadcastInDim S100000x1 ![0] bcast_S100000_S100000x1_0),
    TRef.unary (TRef.of (T := ⟨S100000x1, .f32⟩) main_call7_v8) (TRef.of (T := ⟨S100000x1, .f32⟩) main_call7_v9) Host.log,
    TRef.unary (TRef.of (T := ⟨S100000x1, .f32⟩) main_call7_v9) (TRef.of (T := ⟨S100000x40, .f32⟩) main_call7_v10) (broadcastInDim S100000x40 ![0, 1] bcast_S100000x1_S100000x40_0_1),
    TRef.binary (TRef.of (T := ⟨S100000x40, .f32⟩) main_call7_v5) (TRef.of (T := ⟨S100000x40, .f32⟩) main_call7_v10) (TRef.of (T := ⟨S100000x40, .f32⟩) main_v111) subf ]

/-- The program's operations are the thirteen stages in order. -/
theorem ops_split : (ops : List (HloOp τ sig (Elt F)))
    = seg0 ++ (seg1 ++ (seg2 ++ (seg3 ++ (seg4 ++ (seg5 ++ (seg6 ++ (seg7 ++ (seg8 ++ (seg9 ++ (seg10 ++ (seg11 ++ (seg12)))))))))))) := rfl

/-- A stage leaves a buffer none of its operations writes. -/
macro "host_keeps " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt F) ℓ) (c : Dev nD)

/-- The buffer contents at launch and after each stage. -/
abbrev U0 : Valuation τ sig (Elt F) := launchContents m c
abbrev U1 : Valuation τ sig (Elt F) := after seg0 (U0 m c)
abbrev U2 : Valuation τ sig (Elt F) := after seg1 (U1 m c)
abbrev U3 : Valuation τ sig (Elt F) := after seg2 (U2 m c)
abbrev U4 : Valuation τ sig (Elt F) := after seg3 (U3 m c)
abbrev U5 : Valuation τ sig (Elt F) := after seg4 (U4 m c)
abbrev U6 : Valuation τ sig (Elt F) := after seg5 (U5 m c)
abbrev U7 : Valuation τ sig (Elt F) := after seg6 (U6 m c)
abbrev U8 : Valuation τ sig (Elt F) := after seg7 (U7 m c)
abbrev U9 : Valuation τ sig (Elt F) := after seg8 (U8 m c)
abbrev U10 : Valuation τ sig (Elt F) := after seg9 (U9 m c)
abbrev U11 : Valuation τ sig (Elt F) := after seg10 (U10 m c)
abbrev U12 : Valuation τ sig (Elt F) := after seg11 (U11 m c)
abbrev U13 : Valuation τ sig (Elt F) := after seg12 (U12 m c)

/-- After all the operations the buffers are at the last stage of the fold. -/
theorem after_ops : after ops (launchContents m c) = U13 m c := by
  rw [ops_split]
  simp only [after_append]

/-- The features reach the input layer as launched. -/
theorem U1_arg0 : U1 m c (Proc.devRef .tc main_arg0) = U0 m c (Proc.devRef .tc main_arg0) :=
  calc U1 m c (Proc.devRef .tc main_arg0)
    _ = U0 m c (Proc.devRef .tc main_arg0) := by host_keeps seg0

/-- The input layer's weight reaches it as launched. -/
theorem U1_arg3 : U1 m c (Proc.devRef .tc main_arg3) = U0 m c (Proc.devRef .tc main_arg3) :=
  calc U1 m c (Proc.devRef .tc main_arg3)
    _ = U0 m c (Proc.devRef .tc main_arg3) := by host_keeps seg0

/-- The input layer's bias reaches it as launched. -/
theorem U1_arg4 : U1 m c (Proc.devRef .tc main_arg4) = U0 m c (Proc.devRef .tc main_arg4) :=
  calc U1 m c (Proc.devRef .tc main_arg4)
    _ = U0 m c (Proc.devRef .tc main_arg4) := by host_keeps seg0

/-- The first hidden weight reaches its product as launched. -/
theorem U2_arg5 : U2 m c (Proc.devRef .tc main_arg5) = U0 m c (Proc.devRef .tc main_arg5) :=
  calc U2 m c (Proc.devRef .tc main_arg5)
    _ = U1 m c (Proc.devRef .tc main_arg5) := by host_keeps seg1
    _ = U0 m c (Proc.devRef .tc main_arg5) := by host_keeps seg0

/-- The edge weights reach the first aggregation as launched. -/
theorem U3_arg2 : U3 m c (Proc.devRef .tc main_arg2) = U0 m c (Proc.devRef .tc main_arg2) :=
  calc U3 m c (Proc.devRef .tc main_arg2)
    _ = U2 m c (Proc.devRef .tc main_arg2) := by host_keeps seg2
    _ = U1 m c (Proc.devRef .tc main_arg2) := by host_keeps seg1
    _ = U0 m c (Proc.devRef .tc main_arg2) := by host_keeps seg0

/-- The sources reach the first aggregation as first computed. -/
theorem U3_v1 : U3 m c (Proc.devRef .tc main_v1) = U1 m c (Proc.devRef .tc main_v1) :=
  calc U3 m c (Proc.devRef .tc main_v1)
    _ = U2 m c (Proc.devRef .tc main_v1) := by host_keeps seg2
    _ = U1 m c (Proc.devRef .tc main_v1) := by host_keeps seg1

/-- The targets reach the first aggregation as first computed. -/
theorem U3_v3 : U3 m c (Proc.devRef .tc main_v3) = U1 m c (Proc.devRef .tc main_v3) :=
  calc U3 m c (Proc.devRef .tc main_v3)
    _ = U2 m c (Proc.devRef .tc main_v3) := by host_keeps seg2
    _ = U1 m c (Proc.devRef .tc main_v3) := by host_keeps seg1

/-- The first hidden bias reaches its step as launched. -/
theorem U4_arg6 : U4 m c (Proc.devRef .tc main_arg6) = U0 m c (Proc.devRef .tc main_arg6) :=
  calc U4 m c (Proc.devRef .tc main_arg6)
    _ = U3 m c (Proc.devRef .tc main_arg6) := by host_keeps seg3
    _ = U2 m c (Proc.devRef .tc main_arg6) := by host_keeps seg2
    _ = U1 m c (Proc.devRef .tc main_arg6) := by host_keeps seg1
    _ = U0 m c (Proc.devRef .tc main_arg6) := by host_keeps seg0

/-- The second hidden weight reaches its product as launched. -/
theorem U5_arg7 : U5 m c (Proc.devRef .tc main_arg7) = U0 m c (Proc.devRef .tc main_arg7) :=
  calc U5 m c (Proc.devRef .tc main_arg7)
    _ = U4 m c (Proc.devRef .tc main_arg7) := by host_keeps seg4
    _ = U3 m c (Proc.devRef .tc main_arg7) := by host_keeps seg3
    _ = U2 m c (Proc.devRef .tc main_arg7) := by host_keeps seg2
    _ = U1 m c (Proc.devRef .tc main_arg7) := by host_keeps seg1
    _ = U0 m c (Proc.devRef .tc main_arg7) := by host_keeps seg0

/-- The edge weights reach the second aggregation as launched. -/
theorem U6_arg2 : U6 m c (Proc.devRef .tc main_arg2) = U0 m c (Proc.devRef .tc main_arg2) :=
  calc U6 m c (Proc.devRef .tc main_arg2)
    _ = U5 m c (Proc.devRef .tc main_arg2) := by host_keeps seg5
    _ = U4 m c (Proc.devRef .tc main_arg2) := by host_keeps seg4
    _ = U3 m c (Proc.devRef .tc main_arg2) := by host_keeps seg3
    _ = U2 m c (Proc.devRef .tc main_arg2) := by host_keeps seg2
    _ = U1 m c (Proc.devRef .tc main_arg2) := by host_keeps seg1
    _ = U0 m c (Proc.devRef .tc main_arg2) := by host_keeps seg0

/-- The sources reach the second aggregation as first computed. -/
theorem U6_v1 : U6 m c (Proc.devRef .tc main_v1) = U1 m c (Proc.devRef .tc main_v1) :=
  calc U6 m c (Proc.devRef .tc main_v1)
    _ = U5 m c (Proc.devRef .tc main_v1) := by host_keeps seg5
    _ = U4 m c (Proc.devRef .tc main_v1) := by host_keeps seg4
    _ = U3 m c (Proc.devRef .tc main_v1) := by host_keeps seg3
    _ = U2 m c (Proc.devRef .tc main_v1) := by host_keeps seg2
    _ = U1 m c (Proc.devRef .tc main_v1) := by host_keeps seg1

/-- The targets reach the second aggregation as first computed. -/
theorem U6_v3 : U6 m c (Proc.devRef .tc main_v3) = U1 m c (Proc.devRef .tc main_v3) :=
  calc U6 m c (Proc.devRef .tc main_v3)
    _ = U5 m c (Proc.devRef .tc main_v3) := by host_keeps seg5
    _ = U4 m c (Proc.devRef .tc main_v3) := by host_keeps seg4
    _ = U3 m c (Proc.devRef .tc main_v3) := by host_keeps seg3
    _ = U2 m c (Proc.devRef .tc main_v3) := by host_keeps seg2
    _ = U1 m c (Proc.devRef .tc main_v3) := by host_keeps seg1

/-- The second hidden bias reaches its step as launched. -/
theorem U7_arg8 : U7 m c (Proc.devRef .tc main_arg8) = U0 m c (Proc.devRef .tc main_arg8) :=
  calc U7 m c (Proc.devRef .tc main_arg8)
    _ = U6 m c (Proc.devRef .tc main_arg8) := by host_keeps seg6
    _ = U5 m c (Proc.devRef .tc main_arg8) := by host_keeps seg5
    _ = U4 m c (Proc.devRef .tc main_arg8) := by host_keeps seg4
    _ = U3 m c (Proc.devRef .tc main_arg8) := by host_keeps seg3
    _ = U2 m c (Proc.devRef .tc main_arg8) := by host_keeps seg2
    _ = U1 m c (Proc.devRef .tc main_arg8) := by host_keeps seg1
    _ = U0 m c (Proc.devRef .tc main_arg8) := by host_keeps seg0

/-- The output weight reaches the output layer as launched. -/
theorem U8_arg9 : U8 m c (Proc.devRef .tc main_arg9) = U0 m c (Proc.devRef .tc main_arg9) :=
  calc U8 m c (Proc.devRef .tc main_arg9)
    _ = U7 m c (Proc.devRef .tc main_arg9) := by host_keeps seg7
    _ = U6 m c (Proc.devRef .tc main_arg9) := by host_keeps seg6
    _ = U5 m c (Proc.devRef .tc main_arg9) := by host_keeps seg5
    _ = U4 m c (Proc.devRef .tc main_arg9) := by host_keeps seg4
    _ = U3 m c (Proc.devRef .tc main_arg9) := by host_keeps seg3
    _ = U2 m c (Proc.devRef .tc main_arg9) := by host_keeps seg2
    _ = U1 m c (Proc.devRef .tc main_arg9) := by host_keeps seg1
    _ = U0 m c (Proc.devRef .tc main_arg9) := by host_keeps seg0

/-- The output bias reaches the output layer as launched. -/
theorem U8_arg10 : U8 m c (Proc.devRef .tc main_arg10) = U0 m c (Proc.devRef .tc main_arg10) :=
  calc U8 m c (Proc.devRef .tc main_arg10)
    _ = U7 m c (Proc.devRef .tc main_arg10) := by host_keeps seg7
    _ = U6 m c (Proc.devRef .tc main_arg10) := by host_keeps seg6
    _ = U5 m c (Proc.devRef .tc main_arg10) := by host_keeps seg5
    _ = U4 m c (Proc.devRef .tc main_arg10) := by host_keeps seg4
    _ = U3 m c (Proc.devRef .tc main_arg10) := by host_keeps seg3
    _ = U2 m c (Proc.devRef .tc main_arg10) := by host_keeps seg2
    _ = U1 m c (Proc.devRef .tc main_arg10) := by host_keeps seg1
    _ = U0 m c (Proc.devRef .tc main_arg10) := by host_keeps seg0

/-- The logits reach the shift as computed: the row-maximum stage does not write them. -/
theorem U10_v110 : U10 m c (Proc.devRef .tc main_v110) = U9 m c (Proc.devRef .tc main_v110) :=
  calc U10 m c (Proc.devRef .tc main_v110)
    _ = U9 m c (Proc.devRef .tc main_v110) := by host_keeps seg9

/-- The shifted rows reach the last step as computed: the sum stage does not write them. -/
theorem U12_v5 : U12 m c (Proc.devRef .tc main_call7_v5) = U11 m c (Proc.devRef .tc main_call7_v5) :=
  calc U12 m c (Proc.devRef .tc main_call7_v5)
    _ = U11 m c (Proc.devRef .tc main_call7_v5) := by host_keeps seg11

/-- Argument 0 is never written. -/
theorem U13_arg0 : U13 m c (Proc.devRef .tc main_arg0) = U0 m c (Proc.devRef .tc main_arg0) :=
  calc U13 m c (Proc.devRef .tc main_arg0)
    _ = U12 m c (Proc.devRef .tc main_arg0) := by host_keeps seg12
    _ = U11 m c (Proc.devRef .tc main_arg0) := by host_keeps seg11
    _ = U10 m c (Proc.devRef .tc main_arg0) := by host_keeps seg10
    _ = U9 m c (Proc.devRef .tc main_arg0) := by host_keeps seg9
    _ = U8 m c (Proc.devRef .tc main_arg0) := by host_keeps seg8
    _ = U7 m c (Proc.devRef .tc main_arg0) := by host_keeps seg7
    _ = U6 m c (Proc.devRef .tc main_arg0) := by host_keeps seg6
    _ = U5 m c (Proc.devRef .tc main_arg0) := by host_keeps seg5
    _ = U4 m c (Proc.devRef .tc main_arg0) := by host_keeps seg4
    _ = U3 m c (Proc.devRef .tc main_arg0) := by host_keeps seg3
    _ = U2 m c (Proc.devRef .tc main_arg0) := by host_keeps seg2
    _ = U1 m c (Proc.devRef .tc main_arg0) := by host_keeps seg1
    _ = U0 m c (Proc.devRef .tc main_arg0) := by host_keeps seg0

/-- Argument 1 is never written. -/
theorem U13_arg1 : U13 m c (Proc.devRef .tc main_arg1) = U0 m c (Proc.devRef .tc main_arg1) :=
  calc U13 m c (Proc.devRef .tc main_arg1)
    _ = U12 m c (Proc.devRef .tc main_arg1) := by host_keeps seg12
    _ = U11 m c (Proc.devRef .tc main_arg1) := by host_keeps seg11
    _ = U10 m c (Proc.devRef .tc main_arg1) := by host_keeps seg10
    _ = U9 m c (Proc.devRef .tc main_arg1) := by host_keeps seg9
    _ = U8 m c (Proc.devRef .tc main_arg1) := by host_keeps seg8
    _ = U7 m c (Proc.devRef .tc main_arg1) := by host_keeps seg7
    _ = U6 m c (Proc.devRef .tc main_arg1) := by host_keeps seg6
    _ = U5 m c (Proc.devRef .tc main_arg1) := by host_keeps seg5
    _ = U4 m c (Proc.devRef .tc main_arg1) := by host_keeps seg4
    _ = U3 m c (Proc.devRef .tc main_arg1) := by host_keeps seg3
    _ = U2 m c (Proc.devRef .tc main_arg1) := by host_keeps seg2
    _ = U1 m c (Proc.devRef .tc main_arg1) := by host_keeps seg1
    _ = U0 m c (Proc.devRef .tc main_arg1) := by host_keeps seg0

/-- Argument 2 is never written. -/
theorem U13_arg2 : U13 m c (Proc.devRef .tc main_arg2) = U0 m c (Proc.devRef .tc main_arg2) :=
  calc U13 m c (Proc.devRef .tc main_arg2)
    _ = U12 m c (Proc.devRef .tc main_arg2) := by host_keeps seg12
    _ = U11 m c (Proc.devRef .tc main_arg2) := by host_keeps seg11
    _ = U10 m c (Proc.devRef .tc main_arg2) := by host_keeps seg10
    _ = U9 m c (Proc.devRef .tc main_arg2) := by host_keeps seg9
    _ = U8 m c (Proc.devRef .tc main_arg2) := by host_keeps seg8
    _ = U7 m c (Proc.devRef .tc main_arg2) := by host_keeps seg7
    _ = U6 m c (Proc.devRef .tc main_arg2) := by host_keeps seg6
    _ = U5 m c (Proc.devRef .tc main_arg2) := by host_keeps seg5
    _ = U4 m c (Proc.devRef .tc main_arg2) := by host_keeps seg4
    _ = U3 m c (Proc.devRef .tc main_arg2) := by host_keeps seg3
    _ = U2 m c (Proc.devRef .tc main_arg2) := by host_keeps seg2
    _ = U1 m c (Proc.devRef .tc main_arg2) := by host_keeps seg1
    _ = U0 m c (Proc.devRef .tc main_arg2) := by host_keeps seg0

/-- Argument 3 is never written. -/
theorem U13_arg3 : U13 m c (Proc.devRef .tc main_arg3) = U0 m c (Proc.devRef .tc main_arg3) :=
  calc U13 m c (Proc.devRef .tc main_arg3)
    _ = U12 m c (Proc.devRef .tc main_arg3) := by host_keeps seg12
    _ = U11 m c (Proc.devRef .tc main_arg3) := by host_keeps seg11
    _ = U10 m c (Proc.devRef .tc main_arg3) := by host_keeps seg10
    _ = U9 m c (Proc.devRef .tc main_arg3) := by host_keeps seg9
    _ = U8 m c (Proc.devRef .tc main_arg3) := by host_keeps seg8
    _ = U7 m c (Proc.devRef .tc main_arg3) := by host_keeps seg7
    _ = U6 m c (Proc.devRef .tc main_arg3) := by host_keeps seg6
    _ = U5 m c (Proc.devRef .tc main_arg3) := by host_keeps seg5
    _ = U4 m c (Proc.devRef .tc main_arg3) := by host_keeps seg4
    _ = U3 m c (Proc.devRef .tc main_arg3) := by host_keeps seg3
    _ = U2 m c (Proc.devRef .tc main_arg3) := by host_keeps seg2
    _ = U1 m c (Proc.devRef .tc main_arg3) := by host_keeps seg1
    _ = U0 m c (Proc.devRef .tc main_arg3) := by host_keeps seg0

/-- Argument 4 is never written. -/
theorem U13_arg4 : U13 m c (Proc.devRef .tc main_arg4) = U0 m c (Proc.devRef .tc main_arg4) :=
  calc U13 m c (Proc.devRef .tc main_arg4)
    _ = U12 m c (Proc.devRef .tc main_arg4) := by host_keeps seg12
    _ = U11 m c (Proc.devRef .tc main_arg4) := by host_keeps seg11
    _ = U10 m c (Proc.devRef .tc main_arg4) := by host_keeps seg10
    _ = U9 m c (Proc.devRef .tc main_arg4) := by host_keeps seg9
    _ = U8 m c (Proc.devRef .tc main_arg4) := by host_keeps seg8
    _ = U7 m c (Proc.devRef .tc main_arg4) := by host_keeps seg7
    _ = U6 m c (Proc.devRef .tc main_arg4) := by host_keeps seg6
    _ = U5 m c (Proc.devRef .tc main_arg4) := by host_keeps seg5
    _ = U4 m c (Proc.devRef .tc main_arg4) := by host_keeps seg4
    _ = U3 m c (Proc.devRef .tc main_arg4) := by host_keeps seg3
    _ = U2 m c (Proc.devRef .tc main_arg4) := by host_keeps seg2
    _ = U1 m c (Proc.devRef .tc main_arg4) := by host_keeps seg1
    _ = U0 m c (Proc.devRef .tc main_arg4) := by host_keeps seg0

/-- Argument 5 is never written. -/
theorem U13_arg5 : U13 m c (Proc.devRef .tc main_arg5) = U0 m c (Proc.devRef .tc main_arg5) :=
  calc U13 m c (Proc.devRef .tc main_arg5)
    _ = U12 m c (Proc.devRef .tc main_arg5) := by host_keeps seg12
    _ = U11 m c (Proc.devRef .tc main_arg5) := by host_keeps seg11
    _ = U10 m c (Proc.devRef .tc main_arg5) := by host_keeps seg10
    _ = U9 m c (Proc.devRef .tc main_arg5) := by host_keeps seg9
    _ = U8 m c (Proc.devRef .tc main_arg5) := by host_keeps seg8
    _ = U7 m c (Proc.devRef .tc main_arg5) := by host_keeps seg7
    _ = U6 m c (Proc.devRef .tc main_arg5) := by host_keeps seg6
    _ = U5 m c (Proc.devRef .tc main_arg5) := by host_keeps seg5
    _ = U4 m c (Proc.devRef .tc main_arg5) := by host_keeps seg4
    _ = U3 m c (Proc.devRef .tc main_arg5) := by host_keeps seg3
    _ = U2 m c (Proc.devRef .tc main_arg5) := by host_keeps seg2
    _ = U1 m c (Proc.devRef .tc main_arg5) := by host_keeps seg1
    _ = U0 m c (Proc.devRef .tc main_arg5) := by host_keeps seg0

/-- Argument 6 is never written. -/
theorem U13_arg6 : U13 m c (Proc.devRef .tc main_arg6) = U0 m c (Proc.devRef .tc main_arg6) :=
  calc U13 m c (Proc.devRef .tc main_arg6)
    _ = U12 m c (Proc.devRef .tc main_arg6) := by host_keeps seg12
    _ = U11 m c (Proc.devRef .tc main_arg6) := by host_keeps seg11
    _ = U10 m c (Proc.devRef .tc main_arg6) := by host_keeps seg10
    _ = U9 m c (Proc.devRef .tc main_arg6) := by host_keeps seg9
    _ = U8 m c (Proc.devRef .tc main_arg6) := by host_keeps seg8
    _ = U7 m c (Proc.devRef .tc main_arg6) := by host_keeps seg7
    _ = U6 m c (Proc.devRef .tc main_arg6) := by host_keeps seg6
    _ = U5 m c (Proc.devRef .tc main_arg6) := by host_keeps seg5
    _ = U4 m c (Proc.devRef .tc main_arg6) := by host_keeps seg4
    _ = U3 m c (Proc.devRef .tc main_arg6) := by host_keeps seg3
    _ = U2 m c (Proc.devRef .tc main_arg6) := by host_keeps seg2
    _ = U1 m c (Proc.devRef .tc main_arg6) := by host_keeps seg1
    _ = U0 m c (Proc.devRef .tc main_arg6) := by host_keeps seg0

/-- Argument 7 is never written. -/
theorem U13_arg7 : U13 m c (Proc.devRef .tc main_arg7) = U0 m c (Proc.devRef .tc main_arg7) :=
  calc U13 m c (Proc.devRef .tc main_arg7)
    _ = U12 m c (Proc.devRef .tc main_arg7) := by host_keeps seg12
    _ = U11 m c (Proc.devRef .tc main_arg7) := by host_keeps seg11
    _ = U10 m c (Proc.devRef .tc main_arg7) := by host_keeps seg10
    _ = U9 m c (Proc.devRef .tc main_arg7) := by host_keeps seg9
    _ = U8 m c (Proc.devRef .tc main_arg7) := by host_keeps seg8
    _ = U7 m c (Proc.devRef .tc main_arg7) := by host_keeps seg7
    _ = U6 m c (Proc.devRef .tc main_arg7) := by host_keeps seg6
    _ = U5 m c (Proc.devRef .tc main_arg7) := by host_keeps seg5
    _ = U4 m c (Proc.devRef .tc main_arg7) := by host_keeps seg4
    _ = U3 m c (Proc.devRef .tc main_arg7) := by host_keeps seg3
    _ = U2 m c (Proc.devRef .tc main_arg7) := by host_keeps seg2
    _ = U1 m c (Proc.devRef .tc main_arg7) := by host_keeps seg1
    _ = U0 m c (Proc.devRef .tc main_arg7) := by host_keeps seg0

/-- Argument 8 is never written. -/
theorem U13_arg8 : U13 m c (Proc.devRef .tc main_arg8) = U0 m c (Proc.devRef .tc main_arg8) :=
  calc U13 m c (Proc.devRef .tc main_arg8)
    _ = U12 m c (Proc.devRef .tc main_arg8) := by host_keeps seg12
    _ = U11 m c (Proc.devRef .tc main_arg8) := by host_keeps seg11
    _ = U10 m c (Proc.devRef .tc main_arg8) := by host_keeps seg10
    _ = U9 m c (Proc.devRef .tc main_arg8) := by host_keeps seg9
    _ = U8 m c (Proc.devRef .tc main_arg8) := by host_keeps seg8
    _ = U7 m c (Proc.devRef .tc main_arg8) := by host_keeps seg7
    _ = U6 m c (Proc.devRef .tc main_arg8) := by host_keeps seg6
    _ = U5 m c (Proc.devRef .tc main_arg8) := by host_keeps seg5
    _ = U4 m c (Proc.devRef .tc main_arg8) := by host_keeps seg4
    _ = U3 m c (Proc.devRef .tc main_arg8) := by host_keeps seg3
    _ = U2 m c (Proc.devRef .tc main_arg8) := by host_keeps seg2
    _ = U1 m c (Proc.devRef .tc main_arg8) := by host_keeps seg1
    _ = U0 m c (Proc.devRef .tc main_arg8) := by host_keeps seg0

/-- Argument 9 is never written. -/
theorem U13_arg9 : U13 m c (Proc.devRef .tc main_arg9) = U0 m c (Proc.devRef .tc main_arg9) :=
  calc U13 m c (Proc.devRef .tc main_arg9)
    _ = U12 m c (Proc.devRef .tc main_arg9) := by host_keeps seg12
    _ = U11 m c (Proc.devRef .tc main_arg9) := by host_keeps seg11
    _ = U10 m c (Proc.devRef .tc main_arg9) := by host_keeps seg10
    _ = U9 m c (Proc.devRef .tc main_arg9) := by host_keeps seg9
    _ = U8 m c (Proc.devRef .tc main_arg9) := by host_keeps seg8
    _ = U7 m c (Proc.devRef .tc main_arg9) := by host_keeps seg7
    _ = U6 m c (Proc.devRef .tc main_arg9) := by host_keeps seg6
    _ = U5 m c (Proc.devRef .tc main_arg9) := by host_keeps seg5
    _ = U4 m c (Proc.devRef .tc main_arg9) := by host_keeps seg4
    _ = U3 m c (Proc.devRef .tc main_arg9) := by host_keeps seg3
    _ = U2 m c (Proc.devRef .tc main_arg9) := by host_keeps seg2
    _ = U1 m c (Proc.devRef .tc main_arg9) := by host_keeps seg1
    _ = U0 m c (Proc.devRef .tc main_arg9) := by host_keeps seg0

/-- Argument 10 is never written. -/
theorem U13_arg10 : U13 m c (Proc.devRef .tc main_arg10) = U0 m c (Proc.devRef .tc main_arg10) :=
  calc U13 m c (Proc.devRef .tc main_arg10)
    _ = U12 m c (Proc.devRef .tc main_arg10) := by host_keeps seg12
    _ = U11 m c (Proc.devRef .tc main_arg10) := by host_keeps seg11
    _ = U10 m c (Proc.devRef .tc main_arg10) := by host_keeps seg10
    _ = U9 m c (Proc.devRef .tc main_arg10) := by host_keeps seg9
    _ = U8 m c (Proc.devRef .tc main_arg10) := by host_keeps seg8
    _ = U7 m c (Proc.devRef .tc main_arg10) := by host_keeps seg7
    _ = U6 m c (Proc.devRef .tc main_arg10) := by host_keeps seg6
    _ = U5 m c (Proc.devRef .tc main_arg10) := by host_keeps seg5
    _ = U4 m c (Proc.devRef .tc main_arg10) := by host_keeps seg4
    _ = U3 m c (Proc.devRef .tc main_arg10) := by host_keeps seg3
    _ = U2 m c (Proc.devRef .tc main_arg10) := by host_keeps seg2
    _ = U1 m c (Proc.devRef .tc main_arg10) := by host_keeps seg1
    _ = U0 m c (Proc.devRef .tc main_arg10) := by host_keeps seg0

/-- The sources of the edges. -/
theorem rows : U1 m c (Proc.devRef .tc main_v1) = Cert.GcnSpec.rowOf (U0 m c (Proc.devRef .tc main_arg1)) := by
  show after seg0 (U0 m c) (Proc.devRef .tc main_v1) = _
  generalize U0 m c = V
  simp only [seg0]
  after_results_simp
  try simp only [ofBuf_toBuf]
  rfl

/-- The targets of the edges. -/
theorem cols : U1 m c (Proc.devRef .tc main_v3) = Cert.GcnSpec.colOf (U0 m c (Proc.devRef .tc main_arg1)) := by
  show after seg0 (U0 m c) (Proc.devRef .tc main_v3) = _
  generalize U0 m c = V
  simp only [seg0]
  after_results_simp
  try simp only [ofBuf_toBuf]
  rfl

/-- The input layer. -/
theorem layer0 : U2 m c (Proc.devRef .tc main_v8) = Cert.GcnSpec.firstLayer (U1 m c (Proc.devRef .tc main_arg0)) (U1 m c (Proc.devRef .tc main_arg3)) (U1 m c (Proc.devRef .tc main_arg4)) := by
  show after seg1 (U1 m c) (Proc.devRef .tc main_v8) = _
  generalize U1 m c = V
  simp only [seg1]
  after_results_simp
  try simp only [ofBuf_toBuf]
  rfl

/-- The first hidden layer's linear map. -/
theorem proj1 : U3 m c (Proc.devRef .tc main_v9) = Cert.GcnSpec.project (U2 m c (Proc.devRef .tc main_v8)) (U2 m c (Proc.devRef .tc main_arg5)) := by
  show after seg2 (U2 m c) (Proc.devRef .tc main_v9) = _
  generalize U2 m c = V
  simp only [seg2]
  after_results_simp
  try simp only [ofBuf_toBuf]
  rfl

set_option maxHeartbeats 4000000 in
/-- The first aggregation. -/
theorem agg1 : U4 m c (Proc.devRef .tc main_v53) = Cert.GcnSpec.agg (U3 m c (Proc.devRef .tc main_v9)) (U3 m c (Proc.devRef .tc main_v1)) (U3 m c (Proc.devRef .tc main_v3)) (U3 m c (Proc.devRef .tc main_arg2)) := by
  show after seg3 (U3 m c) (Proc.devRef .tc main_v53) = _
  generalize U3 m c = V
  simp only [seg3]
  after_results_simp
  try simp only [ofBuf_toBuf]
  rfl

/-- The first hidden layer's bias step. -/
theorem bias1 : U5 m c (Proc.devRef .tc main_v57) = Cert.GcnSpec.biasRelu (U4 m c (Proc.devRef .tc main_v53)) (U4 m c (Proc.devRef .tc main_arg6)) := by
  show after seg4 (U4 m c) (Proc.devRef .tc main_v57) = _
  generalize U4 m c = V
  simp only [seg4]
  after_results_simp
  try simp only [ofBuf_toBuf]
  rfl

/-- The second hidden layer's linear map. -/
theorem proj2 : U6 m c (Proc.devRef .tc main_v58) = Cert.GcnSpec.project (U5 m c (Proc.devRef .tc main_v57)) (U5 m c (Proc.devRef .tc main_arg7)) := by
  show after seg5 (U5 m c) (Proc.devRef .tc main_v58) = _
  generalize U5 m c = V
  simp only [seg5]
  after_results_simp
  try simp only [ofBuf_toBuf]
  rfl

set_option maxHeartbeats 4000000 in
/-- The second aggregation. -/
theorem agg2 : U7 m c (Proc.devRef .tc main_v102) = Cert.GcnSpec.agg (U6 m c (Proc.devRef .tc main_v58)) (U6 m c (Proc.devRef .tc main_v1)) (U6 m c (Proc.devRef .tc main_v3)) (U6 m c (Proc.devRef .tc main_arg2)) := by
  show after seg6 (U6 m c) (Proc.devRef .tc main_v102) = _
  generalize U6 m c = V
  simp only [seg6]
  after_results_simp
  try simp only [ofBuf_toBuf]
  rfl

/-- The second hidden layer's bias step. -/
theorem bias2 : U8 m c (Proc.devRef .tc main_v106) = Cert.GcnSpec.biasRelu (U7 m c (Proc.devRef .tc main_v102)) (U7 m c (Proc.devRef .tc main_arg8)) := by
  show after seg7 (U7 m c) (Proc.devRef .tc main_v106) = _
  generalize U7 m c = V
  simp only [seg7]
  after_results_simp
  try simp only [ofBuf_toBuf]
  rfl

/-- The output layer's logits. -/
theorem logitsSt : U9 m c (Proc.devRef .tc main_v110) = Cert.GcnSpec.logitsOf (U8 m c (Proc.devRef .tc main_v106)) (U8 m c (Proc.devRef .tc main_arg9)) (U8 m c (Proc.devRef .tc main_arg10)) := by
  show after seg8 (U8 m c) (Proc.devRef .tc main_v110) = _
  generalize U8 m c = V
  simp only [seg8]
  after_results_simp
  try simp only [ofBuf_toBuf]
  rfl

/-- The rows' maxima. -/
theorem rowMaxSt : U10 m c (Proc.devRef .tc main_call7_v2) = Cert.GcnSpec.rowMaxOf (U9 m c (Proc.devRef .tc main_v110)) := by
  show after seg9 (U9 m c) (Proc.devRef .tc main_call7_v2) = _
  generalize U9 m c = V
  simp only [seg9]
  after_results_simp
  try simp only [ofBuf_toBuf]
  rfl

/-- The rows minus their maxima. -/
theorem shiftSt : U11 m c (Proc.devRef .tc main_call7_v5) = Cert.GcnSpec.shiftOf (U10 m c (Proc.devRef .tc main_v110)) (U10 m c (Proc.devRef .tc main_call7_v2)) := by
  show after seg10 (U10 m c) (Proc.devRef .tc main_call7_v5) = _
  generalize U10 m c = V
  simp only [seg10]
  after_results_simp
  try simp only [ofBuf_toBuf]
  rfl

/-- The rows' sums of exponentials. -/
theorem sumExpSt : U12 m c (Proc.devRef .tc main_call7_v7) = Cert.GcnSpec.sumExpOf (U11 m c (Proc.devRef .tc main_call7_v5)) := by
  show after seg11 (U11 m c) (Proc.devRef .tc main_call7_v7) = _
  generalize U11 m c = V
  simp only [seg11]
  after_results_simp
  try simp only [ofBuf_toBuf]
  rfl

/-- The rows minus the logarithms of those sums. -/
theorem finishSt : U13 m c (Proc.devRef .tc main_v111) = Cert.GcnSpec.finishOf (U12 m c (Proc.devRef .tc main_call7_v5)) (U12 m c (Proc.devRef .tc main_call7_v7)) := by
  show after seg12 (U12 m c) (Proc.devRef .tc main_v111) = _
  generalize U12 m c = V
  simp only [seg12]
  after_results_simp
  try simp only [ofBuf_toBuf]
  rfl

/-- The result buffer ends at the network's function of the argument arrays. -/
theorem value : after ops (launchContents m c) (Proc.devRef .tc main_v111)
    = Cert.GcnSpec.total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [after_ops, finishSt, sumExpSt, U12_v5, shiftSt, rowMaxSt, U10_v110, logitsSt, bias2, agg2, proj2, bias1, agg1, proj1, layer0]
  rw [U8_arg9, U8_arg10, U7_arg8, U6_arg2, U6_v1, U6_v3, U5_arg7, U4_arg6, U3_arg2, U3_v1, U3_v3, U2_arg5, U1_arg0, U1_arg3, U1_arg4,
    rows, cols]
  rfl

/-- An argument's buffer ends as launched. -/
theorem kept (b : Ref sig .tc) (h : U13 m c (Proc.devRef .tc b) = U0 m c (Proc.devRef .tc b)) :
    after ops (launchContents m c) (Proc.devRef .tc b) = m ((c.tc : Thread nD τ).loc b) := by
  rw [after_ops, h]

variable (ρ : Dev nD → PrngReg)

/-- Every weakly fair execution of the reference terminates, nothing faulting, with the result at `total` of the argument arrays
    and the arguments unchanged. -/
theorem run : θ_run defs (onTc (τ := τ) (main (F := F))) ⟨m, fun _ => 0, ρ⟩ fun r => ∀ c : Dev nD,
      r.2.mem ((c.tc : Thread nD τ).loc main_v111)
        = Cert.GcnSpec.total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v111).trans (value m c),
      (h c main_arg0).trans (kept m c main_arg0 (U13_arg0 m c)),
      (h c main_arg1).trans (kept m c main_arg1 (U13_arg1 m c)),
      (h c main_arg2).trans (kept m c main_arg2 (U13_arg2 m c)),
      (h c main_arg3).trans (kept m c main_arg3 (U13_arg3 m c)),
      (h c main_arg4).trans (kept m c main_arg4 (U13_arg4 m c)),
      (h c main_arg5).trans (kept m c main_arg5 (U13_arg5 m c)),
      (h c main_arg6).trans (kept m c main_arg6 (U13_arg6 m c)),
      (h c main_arg7).trans (kept m c main_arg7 (U13_arg7 m c)),
      (h c main_arg8).trans (kept m c main_arg8 (U13_arg8 m c)),
      (h c main_arg9).trans (kept m c main_arg9 (U13_arg9 m c)),
      (h c main_arg10).trans (kept m c main_arg10 (U13_arg10 m c))⟩)
    (run_seq scopedRefs_eq scopedSems_eq defs main (fun _ => ops) main_eq (fun _ => ops_sub) m ρ)

end Cert.GcnRef

end
-- ==== Proof.lean ====
/-
  A two-layer graph convolution network with a log-softmax head: the kernel program against its reference, on the extended reals.

  The kernel program computes each dense stage — the input layer `relu (x · W + b)`, each hidden layer's linear map `h · W` and its
  bias step `relu (a + b)`, and the output layer `log_softmax (h · W + b)` — in a region of ten blocks of 10000 rows, and the
  normalized aggregation over the edge list on the host; the reference computes everything on the host. Both end at the same
  function `total` of the argument arrays (Proof/Spec.lean):

  * a block of a dense stage is the restriction to its rows of the stage's whole-array function, entry by entry: a matrix-unit
    product from a zero accumulator and the host's `dot_general` are the same sum `Σ_k x (p, k) · w (k, q)`, a change of float
    format is the identity, a bias repeated down the rows reads the bias entry of the column whichever way it is spelt, and the
    row maximum and row sum of the log-softmax are the same fold and the same sum (the reference's one more `maximum` with `−∞`
    changes nothing, its sum's starting `0` adds nothing); the ten blocks tile the array (Proof/Region0 … Region5.lean);
  * the aggregation is the same host operations in the same order in both programs, and is never opened (Proof/Stretch.lean,
    Proof/RefRun.lean);
  * no law of arithmetic beyond these identities is used, so the precondition that the inputs are finite is never opened.

  The three frames: the kernel programs' are the generated frame certificates; the reference's is its run with the result
  dropped. The idealization rewrote nothing, so the `preserves` conjunct is `True`.
-/
import proofs.«173225_j30374008717350_1_alg».proof.Defs
import proofs.«173225_j30374008717350_1_alg».proof.Proof.Gen.Kernel
import proofs.«173225_j30374008717350_1_alg».proof.Proof.Gen.Kernel.Skeleton
import proofs.«173225_j30374008717350_1_alg».proof.Proof.Gen.Kernel.Launch
import proofs.«173225_j30374008717350_1_alg».proof.Proof.Gen.Kernel.Points
import proofs.«173225_j30374008717350_1_alg».proof.Proof.Gen.Kernel.Frame
import proofs.«173225_j30374008717350_1_alg».proof.Proof.Gen.KernelIdeal
import proofs.«173225_j30374008717350_1_alg».proof.Proof.Gen.KernelIdeal.Skeleton
import proofs.«173225_j30374008717350_1_alg».proof.Proof.Gen.KernelIdeal.Launch
import proofs.«173225_j30374008717350_1_alg».proof.Proof.Gen.KernelIdeal.Points
import proofs.«173225_j30374008717350_1_alg».proof.Proof.Gen.KernelIdeal.Frame
import proofs.«173225_j30374008717350_1_alg».proof.Proof.Gen.ReferenceIdeal
import proofs.«173225_j30374008717350_1_alg».proof.Proof.Gen.Pre_finite_inputs
import proofs.«173225_j30374008717350_1_alg».proof.Proof.KernelValue
import proofs.«173225_j30374008717350_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.GcnRef.run (F := Ideal) m ρ)

/-- The idealization rewrote no operation. -/
theorem preserves : Cert.preserves_Kernel_KernelIdeal := trivial

/-- From memories agreeing on the arguments both programs end with the result array at `total` of the arguments. -/
theorem algebraic : Cert.algebraic_KernelIdeal_ReferenceIdeal := by
  intro m ρ m' ρ' _ hagree
  refine ⟨fun c => Cert.GcnSpec.total (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.GcnKernel.value m ρ c), (h c).2⟩) (Cert.GcnKernel.run_named m ρ)
  · refine (θ_run Cert.ReferenceIdeal.defs _ _).mono (fun r h c => ⟨(h c).1.trans ?_, (h c).2⟩)
      (Cert.GcnRef.run (F := Ideal) m' ρ')
    obtain ⟨a0, a1, a2, a3, a4, a5, a6, a7, a8, a9, a10⟩ := hagree c
    rw [a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
